-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_arg6 : FVec F S16 .f32) (main_arg7 : FVec F S16 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) (main_arg6 : FVec F S16 .f32) (main_arg7 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_arg6 main_arg7 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S1x16 : Shape := ⟨2, ![1, 16]⟩
abbrev S100000x40 : Shape := ⟨2, ![100000, 40]⟩
abbrev S2000x40 : Shape := ⟨2, ![2000, 40]⟩
abbrev S3300000x40 : Shape := ⟨2, ![3300000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 123
  | .vmem => 28
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S16, .f32⟩
  | .hbm, ⟨7, _⟩ => ⟨S16, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x16, .f32⟩
  | .hbm, ⟨49, _⟩ => ⟨S3300000x1, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S_, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S_, .i32⟩
  | .hbm, ⟨73, _⟩ => ⟨S_, .f32⟩
  | .hbm, ⟨74, _⟩ => ⟨S16, .f32⟩
  | .hbm, ⟨75, _⟩ => ⟨S1x16, .f32⟩
  | .hbm, ⟨76, _⟩ => ⟨S_, .f32⟩
  | .hbm, ⟨77, _⟩ => ⟨S1x16, .f32⟩
  | .hbm, ⟨78, _⟩ => ⟨S1x16, .f32⟩
  | .hbm, ⟨79, _⟩ => ⟨S100000x16, .f32⟩
  | .hbm, ⟨80, _⟩ => ⟨S100000x16, .f32⟩
  | .hbm, ⟨81, _⟩ => ⟨S100000x16, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S16, .f32⟩
  | .hbm, ⟨87, _⟩ => ⟨S16, .f32⟩
  | .hbm, ⟨88, _⟩ => ⟨S16, .f32⟩
  | .hbm, ⟨89, _⟩ => ⟨S_, .f32⟩
  | .hbm, ⟨90, _⟩ => ⟨S_, .i1⟩
  | .hbm, ⟨91, _⟩ => ⟨S_, .f32⟩
  | .hbm, ⟨92, _⟩ => ⟨S_, .f32⟩
  | .hbm, ⟨93, _⟩ => ⟨S16, .f32⟩
  | .hbm, ⟨94, _⟩ => ⟨S16, .f32⟩
  | .hbm, ⟨95, _⟩ => ⟨S_, .f32⟩
  | .hbm, ⟨96, _⟩ => ⟨S16, .f32⟩
  | .hbm, ⟨97, _⟩ => ⟨S16, .f32⟩
  | .hbm, ⟨98, _⟩ => ⟨S16, .f32⟩
  | .hbm, ⟨99, _⟩ => ⟨S1x16, .f32⟩
  | .hbm, ⟨100, _⟩ => ⟨S1x16, .f32⟩
  | .hbm, ⟨101, _⟩ => ⟨S1x16, .f32⟩
  | .hbm, ⟨102, _⟩ => ⟨S1x16, .f32⟩
  | .hbm, ⟨103, _⟩ => ⟨S100000x16, .f32⟩
  | .hbm, ⟨104, _⟩ => ⟨S100000x40, .f32⟩
  | .hbm, ⟨105, _⟩ => ⟨S3300000x1, .f32⟩
  | .hbm, ⟨106, _⟩ => ⟨S_, .i32⟩
  | .hbm, ⟨107, _⟩ => ⟨S3300000, .i32⟩
  | .hbm, ⟨108, _⟩ => ⟨S3300000, .i1⟩
  | .hbm, ⟨109, _⟩ => ⟨S_, .i32⟩
  | .hbm, ⟨110, _⟩ => ⟨S3300000, .i32⟩
  | .hbm, ⟨111, _⟩ => ⟨S3300000, .i32⟩
  | .hbm, ⟨112, _⟩ => ⟨S3300000, .i32⟩
  | .hbm, ⟨113, _⟩ => ⟨S3300000x1, .i32⟩
  | .hbm, ⟨114, _⟩ => ⟨S3300000x40, .f32⟩
  | .hbm, ⟨115, _⟩ => ⟨S3300000x40, .f32⟩
  | .hbm, ⟨116, _⟩ => ⟨S3300000x40, .f32⟩
  | .hbm, ⟨117, _⟩ => ⟨S_, .f32⟩
  | .hbm, ⟨118, _⟩ => ⟨S100000x40, .f32⟩
  | .hbm, ⟨119, _⟩ => ⟨S3300000x1, .i32⟩
  | .hbm, ⟨120, _⟩ => ⟨S100000x40, .f32⟩
  | .hbm, ⟨121, _⟩ => ⟨S1x40, .f32⟩
  | .hbm, ⟨122, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S1x16, .f32⟩
  | .local _ .vmem, ⟨8, _⟩ => ⟨S2000x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S1x16, .f32⟩
  | .local _ .vmem, ⟨13, _⟩ => ⟨S1x16, .f32⟩
  | .local _ .vmem, ⟨14, _⟩ => ⟨S1x16, .f32⟩
  | .local _ .vmem, ⟨15, _⟩ => ⟨S1x16, .f32⟩
  | .local _ .vmem, ⟨16, _⟩ => ⟨S2000x16, .f32⟩
  | .local _ .vmem, ⟨17, _⟩ => ⟨S2000x16, .f32⟩
  | .local _ .vmem, ⟨18, _⟩ => ⟨S2000x16, .f32⟩
  | .local _ .vmem, ⟨19, _⟩ => ⟨S2000x16, .f32⟩
  | .local _ .vmem, ⟨20, _⟩ => ⟨S16x40, .f32⟩
  | .local _ .vmem, ⟨21, _⟩ => ⟨S2000x40, .f32⟩
  | .local _ .vmem, ⟨22, _⟩ => ⟨S2000x40, .f32⟩
  | .local _ .vmem, ⟨23, _⟩ => ⟨S2000x40, .f32⟩
  | .local _ .vmem, ⟨24, _⟩ => ⟨S2000x40, .f32⟩
  | .local _ .vmem, ⟨25, _⟩ => ⟨S1x40, .f32⟩
  | .local _ .vmem, ⟨26, _⟩ => ⟨S2000x40, .f32⟩
  | .local _ .vmem, ⟨27, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_c_11 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_cst_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_cst_1 : Ref sig .tc := ⟨.hbm, 83, rfl⟩
abbrev main_call1_v8 : Ref sig .tc := ⟨.hbm, 84, rfl⟩
abbrev main_call1_cst_2 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_cst_3 : Ref sig .tc := ⟨.hbm, 89, rfl⟩
abbrev main_call1_v12 : Ref sig .tc := ⟨.hbm, 90, rfl⟩
abbrev main_call1_cst_4 : Ref sig .tc := ⟨.hbm, 91, rfl⟩
abbrev main_call1_call0_v0 : Ref sig .tc := ⟨.hbm, 92, rfl⟩
abbrev main_call1_call0_v1 : Ref sig .tc := ⟨.hbm, 93, rfl⟩
abbrev main_v49 : Ref sig .tc := ⟨.hbm, 94, rfl⟩
abbrev main_cst_12 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_c_13 : Ref sig .tc := ⟨.hbm, 106, rfl⟩
abbrev main_v60 : Ref sig .tc := ⟨.hbm, 107, rfl⟩
abbrev main_v61 : Ref sig .tc := ⟨.hbm, 108, rfl⟩
abbrev main_c_14 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_cst_15 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  reducesTo_S100000x16_S16_d0 : S100000x16.ReducesTo [0] S16
  h_S_ : 0 < S_.numel
  bcast_S_S16 : S_.BroadcastsInDim S16 (![] : Fin 0 → Fin S16.rank)
  bcast_S16_S1x16_1 : S16.BroadcastsInDim S1x16 (![1] : Fin 1 → Fin S1x16.rank)
  bcast_S_S1x16 : S_.BroadcastsInDim S1x16 (![] : Fin 0 → Fin S1x16.rank)
  bcast_S1x16_S100000x16_0_1 : S1x16.BroadcastsInDim S100000x16 (![0, 1] : Fin 2 → Fin S100000x16.rank)
  inb_S16x40_S16x40_0_0 : ∀ a, (![0, 0] : Fin 2 → Nat) a + S16x40.size a ≤ S16x40.size a
  h_S16x40 : 0 < S16x40.numel
  inb_S2000x40_S2000x40_0_0 : ∀ a, (![0, 0] : Fin 2 → Nat) a + S2000x40.size a ≤ S2000x40.size a
  h_S2000x40 : 0 < S2000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x40_S2000x40_1_0_0_1_n_n_wf : DotDims.WF S2000x16 S16x40 S2000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x16.size a ≤ S100000x16.size a
  hwx2_5 : ∀ i : grid2.Coords, EltTy.bits .f32 = 32 ∨ (Rect.block (s := S100000x16) S2000x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x16.size a ≤ S100000x16.size a
  hwx3_0 : ∀ i : grid3.Coords, EltTy.bits .f32 = 32 ∨ (Rect.block (s := S100000x16) S2000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x40.size a ≤ S16x40.size a
  hwx3_1 : ∀ i : grid3.Coords, EltTy.bits .f32 = 32 ∨ (Rect.block (s := S16x40) S16x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x40.size a ≤ S100000x40.size a
  hwx3_2 : ∀ i : grid3.Coords, EltTy.bits .f32 = 32 ∨ (Rect.block (s := S100000x40) S2000x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x40.size a ≤ S100000x40.size a
  hwx4_0 : ∀ i : grid4.Coords, EltTy.bits .f32 = 32 ∨ (Rect.block (s := S100000x40) S2000x40.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x40.size a ≤ S1x40.size a
  hwx4_1 : ∀ i : grid4.Coords, EltTy.bits .f32 = 32 ∨ (Rect.block (s := S1x40) S1x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x40.size a ≤ S100000x40.size a
  hwx4_2 : ∀ i : grid4.Coords, EltTy.bits .f32 = 32 ∨ (Rect.block (s := S100000x40) S2000x40.size (cc4_transform_2 i) (hinb4_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x40_S2000x40_1_0_0_1_n_n : DotDims S2000x16 S16x40 S2000x40 where
  lhsContracting := [1]
  rhsContracting := [0]
  lhsNonContracting := [0]
  rhsNonContracting := [1]
  lhsBatch := []
  rhsBatch := []
  wf := dot_S2000x16_S16x40_S2000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S2000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v57) S2000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S16x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S2000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v71) S2000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S1x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S2000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 190
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x40, .f32⟩
  | 5 => ⟨S40, .f32⟩
  | 6 => ⟨S16, .f32⟩
  | 7 => ⟨S16, .f32⟩
  | 8 => ⟨S100000x16, .f32⟩
  | 9 => ⟨S100000, .i32⟩
  | 10 => ⟨S1x3200000, .i32⟩
  | 11 => ⟨S3200000, .i32⟩
  | 12 => ⟨S3300000, .i32⟩
  | 13 => ⟨S1x3200000, .i32⟩
  | 14 => ⟨S3200000, .i32⟩
  | 15 => ⟨S3300000, .i32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S3300000x1, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x16, .f32⟩
  | 59 => ⟨S3300000x16, .f32⟩
  | 60 => ⟨S3300000x16, .f32⟩
  | 61 => ⟨S_, .f32⟩
  | 62 => ⟨S100000x16, .f32⟩
  | 63 => ⟨S3300000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S_, .f32⟩
  | 72 => ⟨S16, .f32⟩
  | 73 => ⟨S_, .f32⟩
  | 74 => ⟨S16, .f32⟩
  | 75 => ⟨S16, .f32⟩
  | 76 => ⟨S_, .i32⟩
  | 77 => ⟨S_, .f32⟩
  | 78 => ⟨S16, .f32⟩
  | 79 => ⟨S1x16, .f32⟩
  | 80 => ⟨S_, .f32⟩
  | 81 => ⟨S1x16, .f32⟩
  | 82 => ⟨S1x16, .f32⟩
  | 83 => ⟨S100000x16, .f32⟩
  | 84 => ⟨S100000x16, .f32⟩
  | 85 => ⟨S100000x16, .f32⟩
  | 86 => ⟨S_, .f32⟩
  | 87 => ⟨S_, .f32⟩
  | 88 => ⟨S_, .f32⟩
  | 89 => ⟨S_, .f32⟩
  | 90 => ⟨S16, .f32⟩
  | 91 => ⟨S16, .f32⟩
  | 92 => ⟨S16, .f32⟩
  | 93 => ⟨S_, .f32⟩
  | 94 => ⟨S_, .i1⟩
  | 95 => ⟨S_, .f32⟩
  | 96 => ⟨S_, .f32⟩
  | 97 => ⟨S16, .f32⟩
  | 98 => ⟨S16, .f32⟩
  | 99 => ⟨S1x16, .f32⟩
  | 100 => ⟨S100000x16, .f32⟩
  | 101 => ⟨S100000x16, .f32⟩
  | 102 => ⟨S_, .f32⟩
  | 103 => ⟨S16, .f32⟩
  | 104 => ⟨S16, .f32⟩
  | 105 => ⟨S16, .f32⟩
  | 106 => ⟨S1x16, .f32⟩
  | 107 => ⟨S100000x16, .f32⟩
  | 108 => ⟨S100000x16, .f32⟩
  | 109 => ⟨S1x16, .f32⟩
  | 110 => ⟨S100000x16, .f32⟩
  | 111 => ⟨S100000x16, .f32⟩
  | 112 => ⟨S1x16, .f32⟩
  | 113 => ⟨S100000x16, .f32⟩
  | 114 => ⟨S100000x16, .f32⟩
  | 115 => ⟨S100000x40, .f32⟩
  | 116 => ⟨S100000, .i32⟩
  | 117 => ⟨S1x3200000, .i32⟩
  | 118 => ⟨S3200000, .i32⟩
  | 119 => ⟨S3300000, .i32⟩
  | 120 => ⟨S1x3200000, .i32⟩
  | 121 => ⟨S3200000, .i32⟩
  | 122 => ⟨S3300000, .i32⟩
  | 123 => ⟨S_, .f32⟩
  | 124 => ⟨S3300000, .f32⟩
  | 125 => ⟨S_, .f32⟩
  | 126 => ⟨S100000, .f32⟩
  | 127 => ⟨S3300000x1, .i32⟩
  | _ => ⟨S100000x512, .f32⟩

abbrev hbmTy0_1 (i : Nat) : BufTy := match i % 128 with
  | 0 => ⟨S100000, .f32⟩
  | 1 => ⟨S_, .f32⟩
  | 2 => ⟨S100000, .f32⟩
  | 3 => ⟨S100000, .i1⟩
  | 4 => ⟨S100000, .f32⟩
  | 5 => ⟨S_, .f32⟩
  | 6 => ⟨S_, .f32⟩
  | 7 => ⟨S100000, .f32⟩
  | 8 => ⟨S100000, .f32⟩
  | 9 => ⟨S_, .i32⟩
  | 10 => ⟨S3300000, .i32⟩
  | 11 => ⟨S3300000, .i1⟩
  | 12 => ⟨S_, .i32⟩
  | 13 => ⟨S3300000, .i32⟩
  | 14 => ⟨S3300000, .i32⟩
  | 15 => ⟨S3300000, .i32⟩
  | 16 => ⟨S3300000x1, .i32⟩
  | 17 => ⟨S3300000, .f32⟩
  | 18 => ⟨S_, .i32⟩
  | 19 => ⟨S3300000, .i32⟩
  | 20 => ⟨S3300000, .i1⟩
  | 21 => ⟨S_, .i32⟩
  | 22 => ⟨S3300000, .i32⟩
  | 23 => ⟨S3300000, .i32⟩
  | 24 => ⟨S3300000, .i32⟩
  | 25 => ⟨S3300000x1, .i32⟩
  | 26 => ⟨S3300000, .f32⟩
  | 27 => ⟨S3300000, .f32⟩
  | 28 => ⟨S3300000x1, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000x40, .f32⟩
  | 38 => ⟨S3300000x40, .f32⟩
  | 39 => ⟨S3300000x40, .f32⟩
  | 40 => ⟨S_, .f32⟩
  | 41 => ⟨S100000x40, .f32⟩
  | 42 => ⟨S3300000x1, .i32⟩
  | 43 => ⟨S100000x40, .f32⟩
  | 44 => ⟨S1x40, .f32⟩
  | 45 => ⟨S100000x40, .f32⟩
  | 46 => ⟨S100000x40, .f32⟩
  | 47 => ⟨S_, .f32⟩
  | 48 => ⟨S100000, .f32⟩
  | 49 => ⟨S_, .f32⟩
  | 50 => ⟨S100000, .f32⟩
  | 51 => ⟨S100000, .f32⟩
  | 52 => ⟨S100000x1, .f32⟩
  | 53 => ⟨S100000x40, .f32⟩
  | 54 => ⟨S100000x40, .f32⟩
  | 55 => ⟨S100000x40, .f32⟩
  | 56 => ⟨S_, .f32⟩
  | 57 => ⟨S100000, .f32⟩
  | 58 => ⟨S100000x1, .f32⟩
  | 59 => ⟨S100000x1, .f32⟩
  | 60 => ⟨S100000x40, .f32⟩
  | 61 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_call2_cst : Ref sig .tc := ⟨.hbm, 77, rfl⟩
abbrev main_call2_v0 : Ref sig .tc := ⟨.hbm, 78, rfl⟩
abbrev main_call2_v1 : Ref sig .tc := ⟨.hbm, 79, rfl⟩
abbrev main_call2_cst_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_cst_1 : Ref sig .tc := ⟨.hbm, 87, rfl⟩
abbrev main_call2_v8 : Ref sig .tc := ⟨.hbm, 88, rfl⟩
abbrev main_call2_cst_2 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_cst_3 : Ref sig .tc := ⟨.hbm, 93, rfl⟩
abbrev main_call2_v12 : Ref sig .tc := ⟨.hbm, 94, rfl⟩
abbrev main_call2_cst_4 : Ref sig .tc := ⟨.hbm, 95, rfl⟩
abbrev main_call2_call0_v0 : Ref sig .tc := ⟨.hbm, 96, rfl⟩
abbrev main_call2_call0_v1 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_12 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_cst_13 : Ref sig .tc := ⟨.hbm, 123, rfl⟩
abbrev main_v75 : Ref sig .tc := ⟨.hbm, 124, rfl⟩
abbrev main_cst_14 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_cst_15 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_cst_16 : Ref sig .tc := ⟨.hbm, 133, rfl⟩
abbrev main_call3_v0 : Ref sig .tc := ⟨.hbm, 134, rfl⟩
abbrev main_call3_v1 : Ref sig .tc := ⟨.hbm, 135, rfl⟩
abbrev main_v82 : Ref sig .tc := ⟨.hbm, 136, rfl⟩
abbrev main_c_17 : Ref sig .tc := ⟨.hbm, 137, rfl⟩
abbrev main_v83 : Ref sig .tc := ⟨.hbm, 138, rfl⟩
abbrev main_v84 : Ref sig .tc := ⟨.hbm, 139, rfl⟩
abbrev main_c_18 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_c_19 : Ref sig .tc := ⟨.hbm, 146, rfl⟩
abbrev main_v90 : Ref sig .tc := ⟨.hbm, 147, rfl⟩
abbrev main_v91 : Ref sig .tc := ⟨.hbm, 148, rfl⟩
abbrev main_c_20 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_c_21 : Ref sig .tc := ⟨.hbm, 157, rfl⟩
abbrev main_v99 : Ref sig .tc := ⟨.hbm, 158, rfl⟩
abbrev main_v100 : Ref sig .tc := ⟨.hbm, 159, rfl⟩
abbrev main_c_22 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_cst_23 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_call4_cst : Ref sig .tc := ⟨.hbm, 175, rfl⟩
abbrev main_call4_v0 : Ref sig .tc := ⟨.hbm, 176, rfl⟩
abbrev main_call4_cst_0 : Ref sig .tc := ⟨.hbm, 177, rfl⟩
abbrev main_call4_v1 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_call4_v5 : Ref sig .tc := ⟨.hbm, 182, rfl⟩
abbrev main_call4_v6 : Ref sig .tc := ⟨.hbm, 183, rfl⟩
abbrev main_call4_cst_1 : Ref sig .tc := ⟨.hbm, 184, rfl⟩
abbrev main_call4_v7 : Ref sig .tc := ⟨.hbm, 185, rfl⟩
abbrev main_call4_v8 : Ref sig .tc := ⟨.hbm, 186, rfl⟩
abbrev main_call4_v9 : Ref sig .tc := ⟨.hbm, 187, rfl⟩
abbrev main_call4_v10 : Ref sig .tc := ⟨.hbm, 188, rfl⟩
abbrev main_v114 : Ref sig .tc := ⟨.hbm, 189, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S16_d0 : S100000x16.ReducesTo [0] S16
  h_S_ : 0 < S_.numel
  bcast_S_S16 : S_.BroadcastsInDim S16 (![] : Fin 0 → Fin S16.rank)
  bcast_S_S1x16 : S_.BroadcastsInDim S1x16 (![] : Fin 0 → Fin S1x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.Spec.lean ====
/-
  The mathematics both programs compute, stage by stage, as functions of the argument arrays over the
  extended reals: a two-layer graph convolution with a batch normalisation between the layers and a
  row-wise log-softmax at the end.

  * srcs / tgts : the edge list's two rows, each followed by the 100000 self loops (node n to node n).
  * wrap        : an index below zero is moved up by the node count (jnp's indexing convention), laid
                  out as a one-column table of start indices.
  * deg, dis    : the in-degree of every node (a scatter-add of ones along tgts) and its inverse square
                  root, zero where the degree is not positive.
  * norm        : the weight of every edge, dis(src) * dis(tgt).
  * agg16/agg40 : the aggregation  out[n] = sum over the edges e with tgts(e) = n of norm(e) * xw[srcs(e)]
                  (a row gather, a scaling by the edge weight, a row scatter-add into zeros).
  * biasReluRow, bnRows, biasLogSoftmaxRow : the three elementwise stages with their per-column
                  parameters given as rows [1,C]; row16 / row40 lay a vector out as such a row.
  * colMean, colVar, invStd : the batch statistics of a [100000,16] array along its first axis.
  * result      : the whole computation.
-/
import proofs.«141803_j65068754534584_1_alg».proof.Proof.Gen.ReferenceIdeal
import Idealize.ShloMosaic.PureOps.Ideal

noncomputable section

namespace Cert.Spec

open Idealize.ShloMosaic Cert.ReferenceIdeal Cert.ReferenceIdeal.Facts₀ Cert.ReferenceIdeal.Facts

local notation "𝔽" => Ideal

/-- The sources of all edges: row 0 of the edge list, then the self loops. -/
def srcs (ei : IVec S2x3200000 32) : IVec S3300000 32 :=
  concatenate S3300000 0
    [⟨S3200000, shapeCast S3200000 (extractStridedSlice S1x3200000 ![0, 0] ei slices_S2x3200000_S1x3200000_0_0) shapeCasts_S1x3200000_S3200000⟩,
     ⟨S100000, iotaInDim S100000 32 0⟩] concatenates_S3200000_S100000_S3300000_d0

/-- The targets of all edges: row 1 of the edge list, then the self loops. -/
def tgts (ei : IVec S2x3200000 32) : IVec S3300000 32 :=
  concatenate S3300000 0
    [⟨S3200000, shapeCast S3200000 (extractStridedSlice S1x3200000 ![1, 0] ei slices_S2x3200000_S1x3200000_1_0) shapeCasts_S1x3200000_S3200000⟩,
     ⟨S100000, iotaInDim S100000 32 0⟩] concatenates_S3200000_S100000_S3300000_d0

/-- A list of node indices as a one-column table. -/
def col (r : IVec S3300000 32) : IVec S3300000x1 32 :=
  broadcastInDim S3300000x1 ![0] bcast_S3300000_S3300000x1_0 r

/-- Negative indices moved up by the node count, as a one-column table of start indices. -/
def wrap (r : IVec S3300000 32) : IVec S3300000x1 32 :=
  col (select (cmpi .slt r (broadcastInDim S3300000 ![] bcast_S_S3300000 (constantI S_ 32 0#32)))
        (addi r (broadcastInDim S3300000 ![] bcast_S_S3300000 (constantI S_ 32 100000#32))) r)

/-- The in-degree of every node, self loop included. -/
def deg (ei : IVec S2x3200000 32) : FVec 𝔽 S100000 .f32 :=
  Host.scatterAdd (F := 𝔽) scatter_S100000_S3300000x1_S3300000_n_0_0_1
    (broadcastInDim S100000 ![] bcast_S_S100000 (constant (F := 𝔽) S_ .f32 0x00000000#32))
    (col (tgts ei))
    (broadcastInDim S3300000 ![] bcast_S_S3300000 (constant (F := 𝔽) S_ .f32 0x3F800000#32))

/-- deg^(-1/2), and zero where the degree is not positive. -/
def dis (ei : IVec S2x3200000 32) : FVec 𝔽 S100000 .f32 :=
  select (cmpf (F := 𝔽) .ogt (deg ei) (broadcastInDim S100000 ![] bcast_S_S100000 (constant (F := 𝔽) S_ .f32 0x00000000#32)))
    (Host.rsqrt (F := 𝔽) (deg ei))
    (broadcastInDim S100000 ![] bcast_S_S100000 (id (constant (F := 𝔽) S_ .f32 0x00000000#32)))

/-- The weight of every edge: dis at its source times dis at its target. -/
def norm (ei : IVec S2x3200000 32) : FVec 𝔽 S3300000 .f32 :=
  mulf (Host.gather gather_S100000_S3300000x1_S3300000_n_0_n_n_0_1_1 (dis ei) (wrap (srcs ei)))
       (Host.gather gather_S100000_S3300000x1_S3300000_n_0_n_n_0_1_1 (dis ei) (wrap (tgts ei)))

/-- The edge weights as a one-column table. -/
def normCol (ei : IVec S2x3200000 32) : FVec 𝔽 S3300000x1 .f32 :=
  broadcastInDim S3300000x1 ![0] bcast_S3300000_S3300000x1_0 (norm ei)

/-- One aggregation over 16 columns. -/
def agg16 (ei : IVec S2x3200000 32) (xw : FVec 𝔽 S100000x16 .f32) : FVec 𝔽 S100000x16 .f32 :=
  Host.scatterAdd (F := 𝔽) scatter_S100000x16_S3300000x1_S3300000x16_1_0_0_1
    (broadcastInDim S100000x16 ![] bcast_S_S100000x16 (constant (F := 𝔽) S_ .f32 0x00000000#32))
    (col (tgts ei))
    (mulf (broadcastInDim S3300000x16 ![0, 1] bcast_S3300000x1_S3300000x16_0_1 (normCol ei))
          (Host.gather gather_S100000x16_S3300000x1_S3300000x16_1_0_n_n_0_1_116 xw (wrap (srcs ei))))

/-- One aggregation over 40 columns. -/
def agg40 (ei : IVec S2x3200000 32) (xw : FVec 𝔽 S100000x40 .f32) : FVec 𝔽 S100000x40 .f32 :=
  Host.scatterAdd (F := 𝔽) scatter_S100000x40_S3300000x1_S3300000x40_1_0_0_1
    (broadcastInDim S100000x40 ![] bcast_S_S100000x40 (constant (F := 𝔽) S_ .f32 0x00000000#32))
    (col (tgts ei))
    (mulf (broadcastInDim S3300000x40 ![0, 1] bcast_S3300000x1_S3300000x40_0_1 (normCol ei))
          (Host.gather gather_S100000x40_S3300000x1_S3300000x40_1_0_n_n_0_1_140 xw (wrap (srcs ei))))

/-- The two matrix products. -/
def dot1 (x : FVec 𝔽 S100000x512 .f32) (w : FVec 𝔽 S512x16 .f32) : FVec 𝔽 S100000x16 .f32 :=
  Host.dotGeneral (F := 𝔽) dot_S100000x512_S512x16_S100000x16_1_0_0_1_n_n none x w
def dot2 (x : FVec 𝔽 S100000x16 .f32) (w : FVec 𝔽 S16x40 .f32) : FVec 𝔽 S100000x40 .f32 :=
  Host.dotGeneral (F := 𝔽) dot_S100000x16_S16x40_S100000x40_1_0_0_1_n_n none x w

/-- A vector laid out as a row, and a row repeated down all 100000 rows. -/
def row16 (v : FVec 𝔽 S16 .f32) : FVec 𝔽 S1x16 .f32 := broadcastInDim S1x16 ![1] bcast_S16_S1x16_1 v
def spread16 (r : FVec 𝔽 S1x16 .f32) : FVec 𝔽 S100000x16 .f32 := broadcastInDim S100000x16 ![0, 1] bcast_S1x16_S100000x16_0_1 r
def row40 (v : FVec 𝔽 S40 .f32) : FVec 𝔽 S1x40 .f32 := broadcastInDim S1x40 ![1] bcast_S40_S1x40_1 v
def spread40 (r : FVec 𝔽 S1x40 .f32) : FVec 𝔽 S100000x40 .f32 := broadcastInDim S100000x40 ![0, 1] bcast_S1x40_S100000x40_0_1 r

/-- max(a + b, 0) with the bias given as a row. -/
def biasReluRow (a : FVec 𝔽 S100000x16 .f32) (b : FVec 𝔽 S1x16 .f32) : FVec 𝔽 S100000x16 .f32 :=
  maximumf (addf a (spread16 b))
    (broadcastInDim S100000x16 ![] bcast_S_S100000x16 (constant (F := 𝔽) S_ .f32 0x00000000#32))

/-- The mean of every column. -/
def colMean (h : FVec 𝔽 S100000x16 .f32) : FVec 𝔽 S16 .f32 :=
  Host.divf (F := 𝔽) (Host.reduceAdd (F := 𝔽) h (constant (F := 𝔽) S_ .f32 0x00000000#32) reducesTo_S100000x16_S16_d0 h_S_)
    (broadcastInDim S16 ![] bcast_S_S16 (constant (F := 𝔽) S_ .f32 0x47C35000#32))

/-- The number the variance divides by: the row count minus the (zero) degrees of freedom removed. -/
def varDenom : FVec 𝔽 S_ .f32 :=
  subf (constant (F := 𝔽) S_ .f32 0x47C35000#32) (sitofp (F := 𝔽) .f32 (constantI S_ 32 0#32))

/-- The (biased) variance of every column, as jnp.var spells it. -/
def colVar (h : FVec 𝔽 S100000x16 .f32) : FVec 𝔽 S16 .f32 :=
  select (broadcastInDim S16 ![] bcast_S_S16 (cmpf (F := 𝔽) .ogt varDenom (constant (F := 𝔽) S_ .f32 0x00000000#32)))
    (Host.divf (F := 𝔽)
      (Host.reduceAdd (F := 𝔽)
        (mulf
          (subf h (broadcastInDim S100000x16 ![0, 1] bcast_S1x16_S100000x16_0_1
            (Host.divf (F := 𝔽)
              (broadcastInDim S1x16 ![1] bcast_S16_S1x16_1
                (Host.reduceAdd (F := 𝔽) h (constant (F := 𝔽) S_ .f32 0x00000000#32) reducesTo_S100000x16_S16_d0 h_S_))
              (broadcastInDim S1x16 ![] bcast_S_S1x16 (constant (F := 𝔽) S_ .f32 0x47C35000#32)))))
          (subf h (broadcastInDim S100000x16 ![0, 1] bcast_S1x16_S100000x16_0_1
            (Host.divf (F := 𝔽)
              (broadcastInDim S1x16 ![1] bcast_S16_S1x16_1
                (Host.reduceAdd (F := 𝔽) h (constant (F := 𝔽) S_ .f32 0x00000000#32) reducesTo_S100000x16_S16_d0 h_S_))
              (broadcastInDim S1x16 ![] bcast_S_S1x16 (constant (F := 𝔽) S_ .f32 0x47C35000#32))))))
        (constant (F := 𝔽) S_ .f32 0x00000000#32) reducesTo_S100000x16_S16_d0 h_S_)
      (broadcastInDim S16 ![] bcast_S_S16 varDenom))
    (broadcastInDim S16 ![] bcast_S_S16 (id (constant (F := 𝔽) S_ .f32 0x7FC00000#32)))

/-- (var + eps)^(-1/2). -/
def invStd (h : FVec 𝔽 S100000x16 .f32) : FVec 𝔽 S16 .f32 :=
  Host.rsqrt (F := 𝔽) (addf (colVar h) (broadcastInDim S16 ![] bcast_S_S16 (constant (F := 𝔽) S_ .f32 0x3727C5AC#32)))

/-- (h - mean) * invstd * gamma + beta with the four parameters given as rows. -/
def bnRows (h : FVec 𝔽 S100000x16 .f32) (mr ir gr br : FVec 𝔽 S1x16 .f32) : FVec 𝔽 S100000x16 .f32 :=
  addf (mulf (mulf (subf h (spread16 mr)) (spread16 ir)) (spread16 gr)) (spread16 br)

/-- The row-wise log-softmax. -/
def logSoftmax (z : FVec 𝔽 S100000x40 .f32) : FVec 𝔽 S100000x40 .f32 :=
  subf
    (subf z (broadcastInDim S100000x40 ![0, 1] bcast_S100000x1_S100000x40_0_1 (broadcastInDim S100000x1 ![0] bcast_S100000_S100000x1_0
      (maximumf (broadcastInDim S100000 ![] bcast_S_S100000 (constant (F := 𝔽) S_ .f32 0xFF800000#32))
        (Host.reduce (FloatOps.maximumf (F := 𝔽)) z (constant (F := 𝔽) S_ .f32 0xFF800000#32) reducesTo_S100000x40_S100000_d1 h_S_)))))
    (broadcastInDim S100000x40 ![0, 1] bcast_S100000x1_S100000x40_0_1
      (Host.log (F := 𝔽) (broadcastInDim S100000x1 ![0] bcast_S100000_S100000x1_0
        (Host.reduceAdd (F := 𝔽)
          (Host.exp (F := 𝔽)
            (subf z (broadcastInDim S100000x40 ![0, 1] bcast_S100000x1_S100000x40_0_1 (broadcastInDim S100000x1 ![0] bcast_S100000_S100000x1_0
              (maximumf (broadcastInDim S100000 ![] bcast_S_S100000 (constant (F := 𝔽) S_ .f32 0xFF800000#32))
                (Host.reduce (FloatOps.maximumf (F := 𝔽)) z (constant (F := 𝔽) S_ .f32 0xFF800000#32) reducesTo_S100000x40_S100000_d1 h_S_))))))
          (constant (F := 𝔽) S_ .f32 0x00000000#32) reducesTo_S100000x40_S100000_d1 h_S_))))

/-- log-softmax of a + b with the bias given as a row. -/
def biasLogSoftmaxRow (a : FVec 𝔽 S100000x40 .f32) (b : FVec 𝔽 S1x40 .f32) : FVec 𝔽 S100000x40 .f32 :=
  logSoftmax (addf a (spread40 b))

/-- The first layer's activations. -/
def hidden (x : FVec 𝔽 S100000x512 .f32) (ei : IVec S2x3200000 32) (w1 : FVec 𝔽 S512x16 .f32) (b1 : FVec 𝔽 S16 .f32) :
    FVec 𝔽 S100000x16 .f32 :=
  biasReluRow (agg16 ei (dot1 x w1)) (row16 b1)

/-- The normalised activations. -/
def normed (h : FVec 𝔽 S100000x16 .f32) (gamma beta : FVec 𝔽 S16 .f32) : FVec 𝔽 S100000x16 .f32 :=
  bnRows h (row16 (colMean h)) (row16 (invStd h)) (row16 gamma) (row16 beta)

/-- The whole computation. -/
def result (x : FVec 𝔽 S100000x512 .f32) (ei : IVec S2x3200000 32) (w1 : FVec 𝔽 S512x16 .f32) (b1 : FVec 𝔽 S16 .f32)
    (w2 : FVec 𝔽 S16x40 .f32) (b2 : FVec 𝔽 S40 .f32) (gamma beta : FVec 𝔽 S16 .f32) : FVec 𝔽 S100000x40 .f32 :=
  biasLogSoftmaxRow (agg40 ei (dot2 (normed (hidden x ei w1 b1) gamma beta) w2)) (row40 b2)

end Cert.Spec

end
-- ==== Proof.Assembly.lean ====
/-
  The five claims from the two runs. The kernel program's run ends with its result array at the specification's
  function of the argument arrays, and so does the reference's run: started from memories that agree on the
  arguments, the two results are therefore the same array of extended reals. The frames of the two programs with
  regions are the generated ones; the reference's frame is its run with the result forgotten; the ideal pass rewrote
  nothing, so there is nothing to preserve.
-/
import proofs.«141803_j65068754534584_1_alg».proof.Defs
import proofs.«141803_j65068754534584_1_alg».proof.Proof.Gen.Kernel.Frame
import proofs.«141803_j65068754534584_1_alg».proof.Proof.Gen.KernelIdeal.Frame
import proofs.«141803_j65068754534584_1_alg».proof.Proof.Gen.ReferenceIdeal
import proofs.«141803_j65068754534584_1_alg».proof.Proof.Gen.Pre_finite_inputs
import proofs.«141803_j65068754534584_1_alg».proof.Proof.Spec

noncomputable section

namespace Cert.Assembly

open Idealize.ShloMosaic Idealize.ShloMosaic.TcCoe Idealize.SL.Sem

/-- What the kernel program's run has to deliver: the result array at the specification, the arguments as launched. -/
def KernelRuns : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v73) = Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

/-- What the reference's run has to deliver: the same, for its own buffers. -/
def ReferenceRuns : Prop :=
  ∀ (m : (ℓ : Loc Cert.ReferenceIdeal.nD Cert.ReferenceIdeal.τ Cert.ReferenceIdeal.sig) → Buf (Elt Ideal) ℓ) (ρ : Dev Cert.ReferenceIdeal.nD → PrngReg),
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
        r.2.mem ((c.tc : Thread Cert.ReferenceIdeal.nD Cert.ReferenceIdeal.τ).loc Cert.ReferenceIdeal.main_v114) = Cert.Spec.result (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

theorem frame_reference (hR : ReferenceRuns) : Cert.frame_ReferenceIdeal := fun m ρ _ =>
  (θ_run (Cert.ReferenceIdeal.defs (F := Ideal)) _ _).mono (fun _ h c => (h c).2) (hR m ρ)

/-- Both runs end at the specification's function of their own argument arrays; the memories agree on the arguments. -/
theorem algebraic (hK : KernelRuns) (hR : ReferenceRuns) : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), hK m ρ, ?_⟩
  refine (θ_run (Cert.ReferenceIdeal.defs (F := Ideal)) _ _).mono (fun _ h c => ⟨(h c).1.trans ?_, (h c).2⟩) (hR m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim_of (hK : KernelRuns) (hR : ReferenceRuns) : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference hR,
    trivial,
    algebraic hK hR⟩

end Cert.Assembly

end
-- ==== Proof.KFoldFrame.lean ====
/-
  The kernel program's run, with the output buffer kept.

  The generated frame runs the thirteen segments of the program (eight stretches of host operations and five
  pipelined regions) and reads, at the end, every unscoped buffer of each core against the last boundary's contents
  W13.  Its stated post keeps only the eight arguments.  Here the same run is stated with one more conjunct: the
  output buffer holds W13's contents at its reference, under whatever name `out` those contents are known by.
-/
import proofs.«141803_j65068754534584_1_alg».proof.Proof.Gen.KernelIdeal.Frame
import Idealize.ShloMosaic.PureOps.Ideal

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)
variable (out : (c : Dev nD) → Buf (Elt Ideal) ((c.tc : Thread nD τ).loc main_v73))

set_option backward.isDefEq.respectTransparency.types false in
/-- Every weakly fair execution of the program on the TensorCores terminates, and in every final state the output
    buffer holds the last boundary's contents (`out`, by `hout`) and the argument arrays are as launched. -/
theorem run_fold (hout : ∀ c : Dev nD, W13 m ρ c (Proc.devRef .tc main_v73) = out c) : θ_run (defs (F := Ideal)) (onTc (τ := τ) (main (F := Ideal))) ⟨m, fun _ => 0, ρ⟩ (fun r => ∀ c : Dev nD,
      r.2.mem ((c.tc : Thread nD τ).loc main_v73) = out c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨(h c _ (mem_uc main_v73 (by decide))).trans (hout c),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c)⟩)

end Cert.KRun

end
-- ==== Proof.KFoldBase.lean ====
/-
  Which buffers a stretch of host operations leaves alone.

  Every host operation writes exactly one buffer, its result.  For a stretch whose results are all among a literal list
  of references, a reference outside the list keeps its contents through the stretch; membership in the list is
  decided over references.
-/
import proofs.«141803_j65068754534584_1_alg».proof.Proof.Gen.KernelIdeal.Frame
import Idealize.ShloMosaic.PureOps.Ideal

namespace Cert.KRun

open Idealize.ShloMosaic Idealize.ShloMosaic.TcCoe Idealize.SL.Sem Cert.KernelIdeal Cert.KernelIdeal.Gen

/-- A single result buffer whose reference is in the list lies in the list's set of device buffers. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- Proves that every operation of a literal stretch writes inside a literal list of references. -/
macro "writes_in " ops:ident : tactic =>
  `(tactic| (simp only [$ops:ident, List.Forall, StableHlo.nullary_writes, StableHlo.unary_writes, StableHlo.binary_writes,
      StableHlo.ternary_writes, StableHlo.quaternary_writes, StableHlo.reshape_writes, StableHlo.binaryIndexed_writes]
             repeat' apply And.intro
             all_goals exact single_sub_of_mem (by decide)))

end Cert.KRun
-- ==== Proof.KFoldHostA.lean ====
/-
  The three stretches of host operations before the first region, each read at a result buffer over ANY incoming
  contents V: the edge list's two rows with the self loops appended, the in-degree's comparison with zero and its
  inverse square root, the guarded inverse square root, and the edge weights.
-/
import proofs.«141803_j65068754534584_1_alg».proof.Proof.KFoldBase
import proofs.«141803_j65068754534584_1_alg».proof.Proof.Spec

noncomputable section

namespace Cert.KRun

open Idealize.ShloMosaic Idealize.ShloMosaic.TcCoe Idealize.SL.Sem Cert.KernelIdeal Cert.KernelIdeal.Gen

/-- The results of the stretch. -/
abbrev written0 : List (Ref sig .tc) := [main_v0, main_v1, main_v2, main_v3, main_v4, main_v5, main_v6, main_cst, main_v7, main_cst_0, main_v8, main_v9, main_v10, main_cst_1, main_v11, main_v12, main_v13, main_cst_2]
theorem writes0 : (hostOps0 (F := Ideal)).Forall fun op => op.writes ⊆ ((written0).map (Proc.devRef (τ := τ) .tc)).toFinset := by
  writes_in hostOps0
/-- A reference that is no result of the stretch keeps its contents. -/
theorem keep0 (V : Valuation τ sig (Elt Ideal)) {r : Ref sig .tc} (hr : r ∉ written0) :
    StableHlo.after (hostOps0 (F := Ideal)) V (Proc.devRef .tc r) = V (Proc.devRef .tc r) :=
  StableHlo.after_of_writes_sub _ V writes0 hr

/-- The results of the stretch. -/
abbrev written0_1 : List (Ref sig .tc) := [main_call0_v0, main_call0_v1, main_v14]
theorem writes0_1 : (hostOps0_1 (F := Ideal)).Forall fun op => op.writes ⊆ ((written0_1).map (Proc.devRef (τ := τ) .tc)).toFinset := by
  writes_in hostOps0_1
/-- A reference that is no result of the stretch keeps its contents. -/
theorem keep0_1 (V : Valuation τ sig (Elt Ideal)) {r : Ref sig .tc} (hr : r ∉ written0_1) :
    StableHlo.after (hostOps0_1 (F := Ideal)) V (Proc.devRef .tc r) = V (Proc.devRef .tc r) :=
  StableHlo.after_of_writes_sub _ V writes0_1 hr

/-- The results of the stretch. -/
abbrev written0_2 : List (Ref sig .tc) := [main_c, main_v15, main_v16, main_c_3, main_v17, main_v18, main_v19, main_v20, main_v21, main_c_4, main_v22, main_v23, main_c_5, main_v24, main_v25, main_v26, main_v27, main_v28, main_v29]
theorem writes0_2 : (hostOps0_2 (F := Ideal)).Forall fun op => op.writes ⊆ ((written0_2).map (Proc.devRef (τ := τ) .tc)).toFinset := by
  writes_in hostOps0_2
/-- A reference that is no result of the stretch keeps its contents. -/
theorem keep0_2 (V : Valuation τ sig (Elt Ideal)) {r : Ref sig .tc} (hr : r ∉ written0_2) :
    StableHlo.after (hostOps0_2 (F := Ideal)) V (Proc.devRef .tc r) = V (Proc.devRef .tc r) :=
  StableHlo.after_of_writes_sub _ V writes0_2 hr

variable (V : Valuation τ sig (Elt Ideal))

/-- The sources: row 0 of the edge list, then the self loops. -/
theorem ops0_v5 : StableHlo.after (hostOps0 (F := Ideal)) V (Proc.devRef .tc main_v5) = Cert.Spec.srcs (V (Proc.devRef .tc main_arg1)) := by
  after_results_simp <;> rfl
/-- The targets: row 1 of the edge list, then the self loops. -/
theorem ops0_v6 : StableHlo.after (hostOps0 (F := Ideal)) V (Proc.devRef .tc main_v6) = Cert.Spec.tgts (V (Proc.devRef .tc main_arg1)) := by
  after_results_simp <;> rfl
/-- Where the in-degree is positive. -/
theorem ops0_v12 : StableHlo.after (hostOps0 (F := Ideal)) V (Proc.devRef .tc main_v12)
    = cmpf (F := Ideal) .ogt (Cert.Spec.deg (V (Proc.devRef .tc main_arg1)))
        (broadcastInDim Cert.ReferenceIdeal.S100000 ![] Cert.ReferenceIdeal.Facts₀.bcast_S_S100000 (constant (F := Ideal) Cert.ReferenceIdeal.S_ .f32 0x00000000#32)) := by
  after_results_simp <;> rfl
/-- The in-degree's inverse square root. -/
theorem ops0_v13 : StableHlo.after (hostOps0 (F := Ideal)) V (Proc.devRef .tc main_v13)
    = Host.rsqrt (F := Ideal) (Cert.Spec.deg (V (Proc.devRef .tc main_arg1))) := by
  after_results_simp <;> rfl
/-- The zero the guard falls back to. -/
theorem ops0_cst_2 : StableHlo.after (hostOps0 (F := Ideal)) V (Proc.devRef .tc main_cst_2)
    = constant (F := Ideal) Cert.ReferenceIdeal.S_ .f32 0x00000000#32 := by
  after_results_simp <;> rfl

/-- The guarded inverse square root of the in-degree, from the three buffers the first stretch left. -/
theorem ops0_1_v14 (ei : IVec Cert.ReferenceIdeal.S2x3200000 32)
    (h12 : V (Proc.devRef .tc main_v12) = cmpf (F := Ideal) .ogt (Cert.Spec.deg ei)
        (broadcastInDim Cert.ReferenceIdeal.S100000 ![] Cert.ReferenceIdeal.Facts₀.bcast_S_S100000 (constant (F := Ideal) Cert.ReferenceIdeal.S_ .f32 0x00000000#32)))
    (h13 : V (Proc.devRef .tc main_v13) = Host.rsqrt (F := Ideal) (Cert.Spec.deg ei))
    (hc : V (Proc.devRef .tc main_cst_2) = constant (F := Ideal) Cert.ReferenceIdeal.S_ .f32 0x00000000#32) :
    StableHlo.after (hostOps0_1 (F := Ideal)) V (Proc.devRef .tc main_v14) = Cert.Spec.dis ei := by
  after_results_simp
  rw [Cert.Spec.dis, ← h12, ← h13, ← hc]
  rfl

/-- The edge weights, from the guarded inverse square root and the two index lists. -/
theorem ops0_2_v29 (ei : IVec Cert.ReferenceIdeal.S2x3200000 32)
    (h14 : V (Proc.devRef .tc main_v14) = Cert.Spec.dis ei)
    (h5 : V (Proc.devRef .tc main_v5) = Cert.Spec.srcs ei)
    (h6 : V (Proc.devRef .tc main_v6) = Cert.Spec.tgts ei) :
    StableHlo.after (hostOps0_2 (F := Ideal)) V (Proc.devRef .tc main_v29) = Cert.Spec.norm ei := by
  after_results_simp
  rw [Cert.Spec.norm, ← h14, ← h5, ← h6]
  rfl

end Cert.KRun

end
-- ==== Proof.KFoldW3.lean ====
/-
  The buffer contents when the first region is entered (the third boundary of the run): the two index lists, the edge
  weights, and every argument array still as launched.
-/
import proofs.«141803_j65068754534584_1_alg».proof.Proof.KFoldHostA

noncomputable section

namespace Cert.KRun

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-! ## The argument arrays of core `c`, at their tensor types -/
/-- The node features. -/
abbrev aX : FVec Ideal Cert.ReferenceIdeal.S100000x512 .f32 := m ((c.tc : Thread nD τ).loc main_arg0)
/-- The edge list. -/
abbrev aEi : IVec Cert.ReferenceIdeal.S2x3200000 32 := m ((c.tc : Thread nD τ).loc main_arg1)
/-- The first layer's weights. -/
abbrev aW1 : FVec Ideal Cert.ReferenceIdeal.S512x16 .f32 := m ((c.tc : Thread nD τ).loc main_arg2)
/-- The first layer's bias. -/
abbrev aB1 : FVec Ideal Cert.ReferenceIdeal.S16 .f32 := m ((c.tc : Thread nD τ).loc main_arg3)
/-- The second layer's weights. -/
abbrev aW2 : FVec Ideal Cert.ReferenceIdeal.S16x40 .f32 := m ((c.tc : Thread nD τ).loc main_arg4)
/-- The second layer's bias. -/
abbrev aB2 : FVec Ideal Cert.ReferenceIdeal.S40 .f32 := m ((c.tc : Thread nD τ).loc main_arg5)
/-- The normalisation's scale. -/
abbrev aGamma : FVec Ideal Cert.ReferenceIdeal.S16 .f32 := m ((c.tc : Thread nD τ).loc main_arg6)
/-- The normalisation's shift. -/
abbrev aBeta : FVec Ideal Cert.ReferenceIdeal.S16 .f32 := m ((c.tc : Thread nD τ).loc main_arg7)

/-- At launch a buffer holds the launch memory's contents. -/
theorem W0_at (r : Ref sig .tc) : W0 m ρ c (Proc.devRef .tc r) = m ((c.tc : Thread nD τ).loc r) := rfl

/-! ## After the first stretch -/

theorem W1_v5 : W1 m ρ c (Proc.devRef .tc main_v5) = Cert.Spec.srcs (aEi m c) := ops0_v5 (W0 m ρ c)
theorem W1_v6 : W1 m ρ c (Proc.devRef .tc main_v6) = Cert.Spec.tgts (aEi m c) := ops0_v6 (W0 m ρ c)

/-! ## After the second stretch -/

theorem W2_v5 : W2 m ρ c (Proc.devRef .tc main_v5) = Cert.Spec.srcs (aEi m c) :=
  (keep0_1 _ (by decide)).trans (W1_v5 m ρ c)
theorem W2_v6 : W2 m ρ c (Proc.devRef .tc main_v6) = Cert.Spec.tgts (aEi m c) :=
  (keep0_1 _ (by decide)).trans (W1_v6 m ρ c)
theorem W2_v14 : W2 m ρ c (Proc.devRef .tc main_v14) = Cert.Spec.dis (aEi m c) :=
  ops0_1_v14 (W1 m ρ c) (aEi m c) (ops0_v12 (W0 m ρ c)) (ops0_v13 (W0 m ρ c)) (ops0_cst_2 (W0 m ρ c))

/-! ## After the third stretch: the first region's entry -/

theorem W3_v5 : W3 m ρ c (Proc.devRef .tc main_v5) = Cert.Spec.srcs (aEi m c) :=
  (keep0_2 _ (by decide)).trans (W2_v5 m ρ c)
theorem W3_v6 : W3 m ρ c (Proc.devRef .tc main_v6) = Cert.Spec.tgts (aEi m c) :=
  (keep0_2 _ (by decide)).trans (W2_v6 m ρ c)
theorem W3_v29 : W3 m ρ c (Proc.devRef .tc main_v29) = Cert.Spec.norm (aEi m c) :=
  ops0_2_v29 (W2 m ρ c) (aEi m c) (W2_v14 m ρ c) (W2_v5 m ρ c) (W2_v6 m ρ c)
theorem W3_arg0 : W3 m ρ c (Proc.devRef .tc main_arg0) = aX m c :=
  (keep0_2 _ (by decide)).trans ((keep0_1 _ (by decide)).trans ((keep0 _ (by decide)).trans (W0_at m ρ c main_arg0)))
theorem W3_arg2 : W3 m ρ c (Proc.devRef .tc main_arg2) = aW1 m c :=
  (keep0_2 _ (by decide)).trans ((keep0_1 _ (by decide)).trans ((keep0 _ (by decide)).trans (W0_at m ρ c main_arg2)))
theorem W3_arg3 : W3 m ρ c (Proc.devRef .tc main_arg3) = aB1 m c :=
  (keep0_2 _ (by decide)).trans ((keep0_1 _ (by decide)).trans ((keep0 _ (by decide)).trans (W0_at m ρ c main_arg3)))
theorem W3_arg4 : W3 m ρ c (Proc.devRef .tc main_arg4) = aW2 m c :=
  (keep0_2 _ (by decide)).trans ((keep0_1 _ (by decide)).trans ((keep0 _ (by decide)).trans (W0_at m ρ c main_arg4)))
theorem W3_arg5 : W3 m ρ c (Proc.devRef .tc main_arg5) = aB2 m c :=
  (keep0_2 _ (by decide)).trans ((keep0_1 _ (by decide)).trans ((keep0 _ (by decide)).trans (W0_at m ρ c main_arg5)))
theorem W3_arg6 : W3 m ρ c (Proc.devRef .tc main_arg6) = aGamma m c :=
  (keep0_2 _ (by decide)).trans ((keep0_1 _ (by decide)).trans ((keep0 _ (by decide)).trans (W0_at m ρ c main_arg6)))
theorem W3_arg7 : W3 m ρ c (Proc.devRef .tc main_arg7) = aBeta m c :=
  (keep0_2 _ (by decide)).trans ((keep0_1 _ (by decide)).trans ((keep0 _ (by decide)).trans (W0_at m ρ c main_arg7)))

end Cert.KRun

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowCast.lean ====
/-
  A vector laid out as a one-row matrix, two spellings.

  Reshaping a length-n vector to shape [1, n] and broadcasting it along axis 1 into shape [1, n] give the same array:
  at (u, q) both read the vector's entry q (the unit coordinate u does not matter). It is the row companion of the
  column form (a vector cast to [n, 1] is its broadcast along axis 0).
-/
import proofs.«141803_j65068754534584_1_alg».proof.Proof.LibColumn
import Idealize.ShloMosaic.Lib.Pipeline.Value
import Idealize.ShloMosaic.Lib.ValueIdx
import Idealize.ShloMosaic.Lib.ValueLayout

namespace Cert.LibRowCast

open Idealize.ShloMosaic Idealize.ShloMosaic.ValueIdx

variable {α : Type}

/-- A vector `[n]` cast to a row `[1, n]` is the vector broadcast (host) along axis `[1]` to `[1, n]`. -/
theorem shapeCast_n_1n_eq_bcastInDim {n : ℕ} (v : (⟨1, ![n]⟩ : Shape).Idx → α)
    (hc : (⟨1, ![n]⟩ : Shape).ShapeCasts ⟨2, ![1, n]⟩)
    (hb : (⟨1, ![n]⟩ : Shape).BroadcastsInDim ⟨2, ![1, n]⟩ ![1]) :
    shapeCast ⟨2, ![1, n]⟩ v hc = broadcastInDim ⟨2, ![1, n]⟩ ![1] hb v := by
  funext i
  obtain ⟨u, q, rfl⟩ : ∃ (u : Fin 1) (q : Fin n), i = ix2 u q := ⟨i 0, i 1, eq_ix2 i⟩
  rw [shapeCast_a_1a_apply, Cert.LibColumn.bcastInDim_b_1b_apply]

end Cert.LibRowCast
-- ==== Proof.KFoldHostB.lean ====
/-
  The two aggregation stretches (before the second and the fifth region), each read at its two result buffers over ANY
  incoming contents V: a row gather at the wrapped sources, a scaling by the edge weight, a row scatter-add at the
  targets into zeros; and the layer's bias vector laid out as a row.
-/
import proofs.«141803_j65068754534584_1_alg».proof.Proof.KFoldBase
import proofs.«141803_j65068754534584_1_alg».proof.Proof.Spec
import proofs.«141803_j65068754534584_1_alg».proof.Proof.LibRowCast

noncomputable section

namespace Cert.KRun

open Idealize.ShloMosaic Idealize.ShloMosaic.TcCoe Idealize.SL.Sem Cert.KernelIdeal Cert.KernelIdeal.Gen

/-- The results of the stretch. -/
abbrev written1 : List (Ref sig .tc) := [main_v31, main_c_6, main_v32, main_v33, main_c_7, main_v34, main_v35, main_v36, main_v37, main_v38, main_v39, main_v40, main_cst_8, main_v41, main_v42, main_v43, main_v44]
theorem writes1 : (hostOps1 (F := Ideal)).Forall fun op => op.writes ⊆ ((written1).map (Proc.devRef (τ := τ) .tc)).toFinset := by
  writes_in hostOps1
/-- A reference that is no result of the stretch keeps its contents. -/
theorem keep1 (V : Valuation τ sig (Elt Ideal)) {r : Ref sig .tc} (hr : r ∉ written1) :
    StableHlo.after (hostOps1 (F := Ideal)) V (Proc.devRef .tc r) = V (Proc.devRef .tc r) :=
  StableHlo.after_of_writes_sub _ V writes1 hr

/-- The results of the stretch. -/
abbrev written4 : List (Ref sig .tc) := [main_v59, main_c_13, main_v60, main_v61, main_c_14, main_v62, main_v63, main_v64, main_v65, main_v66, main_v67, main_v68, main_cst_15, main_v69, main_v70, main_v71, main_v72]
theorem writes4 : (hostOps4 (F := Ideal)).Forall fun op => op.writes ⊆ ((written4).map (Proc.devRef (τ := τ) .tc)).toFinset := by
  writes_in hostOps4
/-- A reference that is no result of the stretch keeps its contents. -/
theorem keep4 (V : Valuation τ sig (Elt Ideal)) {r : Ref sig .tc} (hr : r ∉ written4) :
    StableHlo.after (hostOps4 (F := Ideal)) V (Proc.devRef .tc r) = V (Proc.devRef .tc r) :=
  StableHlo.after_of_writes_sub _ V writes4 hr

variable (V : Valuation τ sig (Elt Ideal))

/-- The aggregation over 16 columns. -/
theorem ops1_v43 (ei : IVec Cert.ReferenceIdeal.S2x3200000 32) (xw : FVec Ideal Cert.ReferenceIdeal.S100000x16 .f32)
    (h5 : V (Proc.devRef .tc main_v5) = Cert.Spec.srcs ei)
    (h6 : V (Proc.devRef .tc main_v6) = Cert.Spec.tgts ei)
    (h29 : V (Proc.devRef .tc main_v29) = Cert.Spec.norm ei)
    (h30 : V (Proc.devRef .tc main_v30) = xw) :
    StableHlo.after (hostOps1 (F := Ideal)) V (Proc.devRef .tc main_v43) = Cert.Spec.agg16 ei xw := by
  after_results_simp
  rw [Cert.Spec.agg16, Cert.Spec.normCol, ← h5, ← h6, ← h29, ← h30]
  rfl

/-- The first bias as a row: the reshape of the vector is its broadcast along the second axis. -/
theorem ops1_v44 (b1 : FVec Ideal Cert.ReferenceIdeal.S16 .f32) (h3 : V (Proc.devRef .tc main_arg3) = b1) :
    StableHlo.after (hostOps1 (F := Ideal)) V (Proc.devRef .tc main_v44) = Cert.Spec.row16 b1 := by
  after_results_simp; rw [h3]
  exact Cert.LibRowCast.shapeCast_n_1n_eq_bcastInDim _ _ _

/-- The aggregation over 40 columns. -/
theorem ops4_v71 (ei : IVec Cert.ReferenceIdeal.S2x3200000 32) (xw : FVec Ideal Cert.ReferenceIdeal.S100000x40 .f32)
    (h5 : V (Proc.devRef .tc main_v5) = Cert.Spec.srcs ei)
    (h6 : V (Proc.devRef .tc main_v6) = Cert.Spec.tgts ei)
    (h29 : V (Proc.devRef .tc main_v29) = Cert.Spec.norm ei)
    (h58 : V (Proc.devRef .tc main_v58) = xw) :
    StableHlo.after (hostOps4 (F := Ideal)) V (Proc.devRef .tc main_v71) = Cert.Spec.agg40 ei xw := by
  after_results_simp
  rw [Cert.Spec.agg40, Cert.Spec.normCol, ← h5, ← h6, ← h29, ← h58]
  rfl

/-- The second bias as a row. -/
theorem ops4_v72 (b2 : FVec Ideal Cert.ReferenceIdeal.S40 .f32) (h5 : V (Proc.devRef .tc main_arg5) = b2) :
    StableHlo.after (hostOps4 (F := Ideal)) V (Proc.devRef .tc main_v72) = Cert.Spec.row40 b2 := by
  after_results_simp; rw [h5]
  exact Cert.LibRowCast.shapeCast_n_1n_eq_bcastInDim _ _ _

end Cert.KRun

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«141803_j65068754534584_1_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.LibBlockDot.lean ====
/-
  A dense product computed row block by row block is the whole product.

  For a plain [R, K] × [K, C] product into a zero accumulator (contract the left operand's axis 1 with the right
  operand's axis 0, no batch axes) whose left operand is a block of rows of an [N, K] array, the entry (p, q) of the
  block's product is the entry (P, q) of the host's product of the whole [N, K] array with the same [K, C] array,
  when row p of the block is row P of the array: both are the sum over k of (row P)(k) · right(k, q) on the
  extended reals, and the sum is over the same K terms whatever the number of rows.
-/
import proofs.«141803_j65068754534584_1_alg».proof.Proof.LibMatmulAt
import proofs.«141803_j65068754534584_1_alg».proof.Proof.LibHostDot

noncomputable section

open scoped BigOperators

namespace Cert.LibBlockDot

open Idealize.ShloMosaic Idealize.ShloMosaic.ValueIdx Cert.LibPlainDot

/-- Entry (p, q) of a row block's product into the zero accumulator is entry (P, q) of the host's whole product,
    when the block's row p is the array's row P and the right operands agree in column q. The element formats of the
    four operands are free: on the extended reals a change of format is the identity. -/
theorem matmul_block_apply {R K C N : ℕ} (Dk : DotDims ⟨2, ![R, K]⟩ ⟨2, ![K, C]⟩ ⟨2, ![R, C]⟩)
    (hlc : Dk.lhsContracting = [1]) (hrc : Dk.rhsContracting = [0]) (hln : Dk.lhsNonContracting = [0])
    (hrn : Dk.rhsNonContracting = [1]) (hlb : Dk.lhsBatch = []) (hrb : Dk.rhsBatch = [])
    (wf : DotDims.WF ⟨2, ![N, K]⟩ ⟨2, ![K, C]⟩ ⟨2, ![N, C]⟩ [1] [0] [0] [1] [] [])
    {φ₁ φ₂ ψ₁ ψ₂ : FTy} (prec prec' : Option ContractPrecision)
    (x0 : FVec Ideal ⟨2, ![R, K]⟩ φ₁) (x1 : FVec Ideal ⟨2, ![K, C]⟩ φ₂)
    (X : FVec Ideal ⟨2, ![N, K]⟩ ψ₁) (W : FVec Ideal ⟨2, ![K, C]⟩ ψ₂)
    (p : Fin R) (P : Fin N) (q : Fin C)
    (h0 : ∀ k : Fin K, (x0 (ix2 p k) : EReal) = X (ix2 P k))
    (h1 : ∀ k : Fin K, (x1 (ix2 k q) : EReal) = W (ix2 k q)) :
    matmul Dk prec x0 x1 (constant (F := Ideal) ⟨2, ![R, C]⟩ .f32 0x00000000#32) (ix2 p q)
      = Host.dotGeneral (F := Ideal) (plainDot N K C wf) prec' X W (ix2 P q) := by
  rw [Cert.LibMatmulAt.matmul_zero_apply Dk hlc hrc hln hrn hlb hrb, Cert.LibHostDot.hostDot_apply wf]
  exact Finset.sum_congr rfl fun k _ => by rw [h0 k, h1 k]

end Cert.LibBlockDot

end
-- ==== Proof.MatmulA.lean ====
/-
  The first matrix product, from blocks to the array.

  The region runs over 50 grid points. At point t the body multiplies rows 2000 t … 2000 t + 1999 of the [100000, 512]
  left operand with the whole [512, 16] right operand into a zero accumulator and stores the [2000, 16] result, which is
  written back as block t of the output. Entry (p, q) of that block product is the sum over k of x(2000 t + p, k) · w(k, q):
  entry (2000 t + p, q) of the whole product. The 50 blocks cover the output, row r in the block of point r / 2000, so the
  output array ends holding the whole product.
-/
import proofs.«141803_j65068754534584_1_alg».proof.Proof.Gen.KernelIdeal.Frame
import proofs.«141803_j65068754534584_1_alg».proof.Proof.Spec
import proofs.«141803_j65068754534584_1_alg».proof.Proof.LibBlockDot
import Idealize.ShloMosaic.Lib.Pipeline.Value

noncomputable section

namespace Cert.MatmulA

open Idealize.ShloMosaic Idealize.ShloMosaic.TcCoe Idealize.SL.Sem Cert.KernelIdeal Cert.KernelIdeal.Gen
open Idealize.ShloMosaic.ValueIdx
open Idealize.ShloMosaic.Pipeline (Dat)

/-- Entry (p, q) of the product of a block of 2000 rows with the whole right operand is entry (P, q) of the whole
    product, when the block's row p is the array's row P. -/
theorem pay_apply (x0 : Vec Ideal S2000x512 .f32) (x1 : Vec Ideal S512x16 .f32)
    (X : FVec Ideal Cert.ReferenceIdeal.S100000x512 .f32) (W : FVec Ideal Cert.ReferenceIdeal.S512x16 .f32)
    (p : Fin 2000) (P : Fin 100000) (q : Fin 16)
    (h0 : ∀ k : Fin 512, (x0 (ix2 p k) : EReal) = X (ix2 P k))
    (h1 : ∀ k : Fin 512, (x1 (ix2 k q) : EReal) = W (ix2 k q)) :
    k0_pay1 (F := Ideal) x0 x1 (ix2 p q) = Cert.Spec.dot1 X W (ix2 P q) := by
  unfold k0_pay1 Cert.Spec.dot1
  exact Cert.LibBlockDot.matmul_block_apply dot_S2000x512_S512x16_S2000x16_1_0_0_1_n_n rfl rfl rfl rfl rfl rfl
    Cert.ReferenceIdeal.Facts₀.dot_S100000x512_S512x16_S100000x16_1_0_0_1_n_n_wf none none x0 x1 X W p P q h0 h1

/-- The same at an index j of the block and an index i of the array, row T * 2000 + j₀ and the same column. -/
theorem pay_at (x0 : Vec Ideal S2000x512 .f32) (x1 : Vec Ideal S512x16 .f32)
    (X : FVec Ideal Cert.ReferenceIdeal.S100000x512 .f32) (W : FVec Ideal Cert.ReferenceIdeal.S512x16 .f32)
    (j : S2000x16.Idx) (i : S100000x16.Idx) (hi1 : (i 1).val = (j 1).val)
    (h0 : ∀ k : Fin 512, (x0 (ix2 (j 0) k) : EReal) = X (ix2 (i 0) k))
    (h1 : ∀ (k : Fin 512) (q : Fin 16), (x1 (ix2 k q) : EReal) = W (ix2 k q)) :
    k0_pay1 (F := Ideal) x0 x1 j = Cert.Spec.dot1 X W i := by
  have ej : j = ix2 (j 0) (j 1) := eq_ix2 j
  have ei : i = ix2 (i 0) (j 1) := by rw [← show i 1 = j 1 from Fin.ext hi1]; exact eq_ix2 i
  rw [ej, ei]
  exact pay_apply x0 x1 X W (j 0) (i 0) (j 1) h0 (fun k => h1 k (j 1))

theorem hz : (![0, 0] : Fin 2 → Nat) = fun _ => 0 := funext fun a => by fin_cases a <;> rfl

/-- The printed index maps over the grid: the left operand's and the output's row blocks move with the point, the right
    operand stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section

variable (V : (c : Dev nD) → (b : Ref sig .tc) → Buf (Elt Ideal) ((c : Thread nD τ).loc b))

/-- The left operand's block at point t is rows 2000 t … 2000 t + 1999 of the array. -/
theorem iblk_lhs_apply (c : Dev nD) (t : Fin cfg0.N) (y : S2000x512.Idx) (i : S100000x512.Idx)
    (h0 : (i 0).val = t.val * 2000 + (y 0).val) (h1 : (i 1).val = (y 1).val) :
    (iblk0 V c 0 t : Vec Ideal S2000x512 .f32) y = (V c main_arg0 : S100000x512.Idx → Elt Ideal .f32) i := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 512 + 1 * (y 1).val = (i 1).val; rw [e1, h1]; omega

/-- The right operand's one block is the whole array. -/
theorem iblk_rhs_apply (c : Dev nD) (t : Fin cfg0.N) (y : S512x16.Idx) :
    (iblk0 V c 1 t : Vec Ideal S512x16 .f32) y = (V c main_arg2 : S512x16.Idx → Elt Ideal .f32) y := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t (0 : Fin 2) * 512 + 1 * (y 0).val = (y 0).val; rw [e2]; omega
  | ⟨1, _⟩ => show win0_1.index t (1 : Fin 2) * 16 + 1 * (y 1).val = (y 1).val; rw [e3]; omega

/-- What point t writes back is block t of the whole product. -/
theorem flushed_eq (c : Dev nD) (t : Fin cfg0.N) :
    (dat0 (F := Ideal) V c).flushed 2 t
      = ((cfg0.win 2).blk t).view.read (Elt Ideal) (Cert.Spec.dot1 (V c main_arg0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x16) hz]
  obtain ⟨-, -, -, -, e4, e5⟩ := idx_facts t
  funext j
  refine pay_at (iblk0 V c 0 t) (iblk0 V c 1 t) (V c main_arg0) (V c main_arg2) ((cfg0.win 2).xinj (grid0.coords t) j) (((cfg0.win 2).blk t).view.emb j) ?_ ?_ ?_
  · show win0_2.index t (1 : Fin 2) * 16 + 1 * (j 1).val = (j 1).val
    rw [e5]; omega
  · intro k
    refine iblk_lhs_apply V c t _ _ ?_ rfl
    show win0_2.index t (0 : Fin 2) * 2000 + 1 * (j 0).val = t.val * 2000 + (j 0).val
    rw [e4]; omega
  · intro k q
    exact iblk_rhs_apply V c t _

/-- An index of the array is in point t's block iff each coordinate is in the block's range on its axis. -/
theorem mem_blk (t : Fin cfg0.N) (i : S100000x16.Idx) :
    i ∈ ((cfg0.win 2).blk t).view.set ↔ ∀ a : Fin 2, win0_2.index t a * S2000x16.size a ≤ (i a).val
      ∧ (i a).val < win0_2.index t a * S2000x16.size a + S2000x16.size a := by
  show i ∈ ((View.whole main_v30).slice (win0_2.rect t)).set ↔ _
  rw [View.set_slice_whole, Rect.mem_set_unit]
  exact Iff.rfl

/-- Row r of the array is in the block of point r / 2000. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    rw [e4, ht]; omega
  | ⟨1, _⟩ =>
    show win0_2.index t (1 : Fin 2) * 16 ≤ (i 1).val ∧ (i 1).val < win0_2.index t (1 : Fin 2) * 16 + 16
    rw [e5]; omega

end

/-- After the 50 grid points the output array of the first product holds x · W1: block t of the output is rows 2000t … 2000t+1999 of the product. -/
theorem array_eq (V : (c : Dev nD) → (b : Ref sig .tc) → Buf (Elt Ideal) ((c : Thread nD τ).loc b)) (c : Dev nD) :
    (dat0 (F := Ideal) V c).arrAt 2 cfg0.N = Cert.Spec.dot1 (V c main_arg0) (V c main_arg2) :=
  (dat0 (F := Ideal) V c).arrAt_eq_of_cover 2 (Cert.Spec.dot1 (V c main_arg0) (V c main_arg2))
    (fun t _ => flushed_eq V c t) cover

end Cert.MatmulA

end
-- ==== Proof.KFoldW5.lean ====
/-
  The buffer contents after the first region and after the stretch that follows it (the second region's entry): the
  first matrix product, its aggregation over the edges, and the first bias as a row; the index lists, the edge weights
  and the arguments still to be read are carried along.
-/
import proofs.«141803_j65068754534584_1_alg».proof.Proof.KFoldW3
import proofs.«141803_j65068754534584_1_alg».proof.Proof.KFoldHostB
import proofs.«141803_j65068754534584_1_alg».proof.Proof.MatmulA

noncomputable section

namespace Cert.KRun

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-! ## After the first region -/

/-- The region's output array holds the first matrix product. -/
theorem W4_v30 : W4 m ρ c (Proc.devRef .tc main_v30) = Cert.Spec.dot1 (aX m c) (aW1 m c) :=
  (W4_arr m ρ c 2).trans ((Cert.MatmulA.array_eq (V3 m ρ) c).trans
    (congrArg₂ Cert.Spec.dot1 (W3_arg0 m ρ c) (W3_arg2 m ρ c)))
theorem W4_v5 : W4 m ρ c (Proc.devRef .tc main_v5) = Cert.Spec.srcs (aEi m c) :=
  (W4_of_ne m ρ c main_v5 (by decide)).trans (W3_v5 m ρ c)
theorem W4_v6 : W4 m ρ c (Proc.devRef .tc main_v6) = Cert.Spec.tgts (aEi m c) :=
  (W4_of_ne m ρ c main_v6 (by decide)).trans (W3_v6 m ρ c)
theorem W4_v29 : W4 m ρ c (Proc.devRef .tc main_v29) = Cert.Spec.norm (aEi m c) :=
  (W4_of_ne m ρ c main_v29 (by decide)).trans (W3_v29 m ρ c)
theorem W4_arg3 : W4 m ρ c (Proc.devRef .tc main_arg3) = aB1 m c :=
  (W4_of_ne m ρ c main_arg3 (by decide)).trans (W3_arg3 m ρ c)
theorem W4_arg4 : W4 m ρ c (Proc.devRef .tc main_arg4) = aW2 m c :=
  (W4_of_ne m ρ c main_arg4 (by decide)).trans (W3_arg4 m ρ c)
theorem W4_arg5 : W4 m ρ c (Proc.devRef .tc main_arg5) = aB2 m c :=
  (W4_of_ne m ρ c main_arg5 (by decide)).trans (W3_arg5 m ρ c)
theorem W4_arg6 : W4 m ρ c (Proc.devRef .tc main_arg6) = aGamma m c :=
  (W4_of_ne m ρ c main_arg6 (by decide)).trans (W3_arg6 m ρ c)
theorem W4_arg7 : W4 m ρ c (Proc.devRef .tc main_arg7) = aBeta m c :=
  (W4_of_ne m ρ c main_arg7 (by decide)).trans (W3_arg7 m ρ c)

/-! ## After the stretch between the first two regions -/

/-- The aggregation of the first product over the edges. -/
theorem W5_v43 : W5 m ρ c (Proc.devRef .tc main_v43) = Cert.Spec.agg16 (aEi m c) (Cert.Spec.dot1 (aX m c) (aW1 m c)) :=
  ops1_v43 (W4 m ρ c) _ _ (W4_v5 m ρ c) (W4_v6 m ρ c) (W4_v29 m ρ c) (W4_v30 m ρ c)
/-- The first bias as a row. -/
theorem W5_v44 : W5 m ρ c (Proc.devRef .tc main_v44) = Cert.Spec.row16 (aB1 m c) :=
  ops1_v44 (W4 m ρ c) _ (W4_arg3 m ρ c)
theorem W5_v5 : W5 m ρ c (Proc.devRef .tc main_v5) = Cert.Spec.srcs (aEi m c) :=
  (keep1 _ (by decide)).trans (W4_v5 m ρ c)
theorem W5_v6 : W5 m ρ c (Proc.devRef .tc main_v6) = Cert.Spec.tgts (aEi m c) :=
  (keep1 _ (by decide)).trans (W4_v6 m ρ c)
theorem W5_v29 : W5 m ρ c (Proc.devRef .tc main_v29) = Cert.Spec.norm (aEi m c) :=
  (keep1 _ (by decide)).trans (W4_v29 m ρ c)
theorem W5_arg4 : W5 m ρ c (Proc.devRef .tc main_arg4) = aW2 m c :=
  (keep1 _ (by decide)).trans (W4_arg4 m ρ c)
theorem W5_arg5 : W5 m ρ c (Proc.devRef .tc main_arg5) = aB2 m c :=
  (keep1 _ (by decide)).trans (W4_arg5 m ρ c)
theorem W5_arg6 : W5 m ρ c (Proc.devRef .tc main_arg6) = aGamma m c :=
  (keep1 _ (by decide)).trans (W4_arg6 m ρ c)
theorem W5_arg7 : W5 m ρ c (Proc.devRef .tc main_arg7) = aBeta m c :=
  (keep1 _ (by decide)).trans (W4_arg7 m ρ c)

end Cert.KRun

end
-- ==== Proof.KFoldHostC.lean ====
/-
  The three stretches between the second and the third region, each read at its result buffers over ANY incoming
  contents V: the column means of the hidden array, its column variances (as the variance routine spells them), the
  inverse standard deviations, and the four per-column parameters laid out as rows.
-/
import proofs.«141803_j65068754534584_1_alg».proof.Proof.KFoldBase
import proofs.«141803_j65068754534584_1_alg».proof.Proof.Spec
import proofs.«141803_j65068754534584_1_alg».proof.Proof.LibRowCast

noncomputable section

namespace Cert.KRun

open Idealize.ShloMosaic Idealize.ShloMosaic.TcCoe Idealize.SL.Sem Cert.KernelIdeal Cert.KernelIdeal.Gen

/-- The results of the stretch. -/
abbrev written2 : List (Ref sig .tc) := [main_cst_9, main_v46, main_cst_10, main_v47, main_v48, main_c_11]
theorem writes2 : (hostOps2 (F := Ideal)).Forall fun op => op.writes ⊆ ((written2).map (Proc.devRef (τ := τ) .tc)).toFinset := by
  writes_in hostOps2
/-- A reference that is no result of the stretch keeps its contents. -/
theorem keep2 (V : Valuation τ sig (Elt Ideal)) {r : Ref sig .tc} (hr : r ∉ written2) :
    StableHlo.after (hostOps2 (F := Ideal)) V (Proc.devRef .tc r) = V (Proc.devRef .tc r) :=
  StableHlo.after_of_writes_sub _ V writes2 hr

/-- The results of the stretch. -/
abbrev written2_1 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v49]
theorem writes2_1 : (hostOps2_1 (F := Ideal)).Forall fun op => op.writes ⊆ ((written2_1).map (Proc.devRef (τ := τ) .tc)).toFinset := by
  writes_in hostOps2_1
/-- A reference that is no result of the stretch keeps its contents. -/
theorem keep2_1 (V : Valuation τ sig (Elt Ideal)) {r : Ref sig .tc} (hr : r ∉ written2_1) :
    StableHlo.after (hostOps2_1 (F := Ideal)) V (Proc.devRef .tc r) = V (Proc.devRef .tc r) :=
  StableHlo.after_of_writes_sub _ V writes2_1 hr

/-- The results of the stretch. -/
abbrev written2_2 : List (Ref sig .tc) := [main_cst_12, main_v50, main_v51, main_v52, main_v53, main_v54, main_v55, main_v56]
theorem writes2_2 : (hostOps2_2 (F := Ideal)).Forall fun op => op.writes ⊆ ((written2_2).map (Proc.devRef (τ := τ) .tc)).toFinset := by
  writes_in hostOps2_2
/-- A reference that is no result of the stretch keeps its contents. -/
theorem keep2_2 (V : Valuation τ sig (Elt Ideal)) {r : Ref sig .tc} (hr : r ∉ written2_2) :
    StableHlo.after (hostOps2_2 (F := Ideal)) V (Proc.devRef .tc r) = V (Proc.devRef .tc r) :=
  StableHlo.after_of_writes_sub _ V writes2_2 hr

variable (V : Valuation τ sig (Elt Ideal))

/-- The column means. -/
theorem ops2_v48 (a : FVec Ideal Cert.ReferenceIdeal.S100000x16 .f32) (h45 : V (Proc.devRef .tc main_v45) = a) :
    StableHlo.after (hostOps2 (F := Ideal)) V (Proc.devRef .tc main_v48) = Cert.Spec.colMean a := by
  after_results_simp
  rw [Cert.Spec.colMean, ← h45]
/-- The integer zero the variance routine is called with. -/
theorem ops2_c_11 : StableHlo.after (hostOps2 (F := Ideal)) V (Proc.devRef .tc main_c_11) = constantI Cert.ReferenceIdeal.S_ 32 0#32 := by
  after_results_simp <;> rfl

/-- The column variances. -/
theorem ops2_1_v49 (a : FVec Ideal Cert.ReferenceIdeal.S100000x16 .f32) (h45 : V (Proc.devRef .tc main_v45) = a)
    (hc : V (Proc.devRef .tc main_c_11) = constantI Cert.ReferenceIdeal.S_ 32 0#32) :
    StableHlo.after (hostOps2_1 (F := Ideal)) V (Proc.devRef .tc main_v49) = Cert.Spec.colVar a := by
  after_results_simp
  rw [Cert.Spec.colVar, Cert.Spec.varDenom, ← h45, ← hc]
  rfl

/-- The means as a row. -/
theorem ops2_2_v53 (mu : FVec Ideal Cert.ReferenceIdeal.S16 .f32) (h48 : V (Proc.devRef .tc main_v48) = mu) :
    StableHlo.after (hostOps2_2 (F := Ideal)) V (Proc.devRef .tc main_v53) = Cert.Spec.row16 mu := by
  after_results_simp; rw [h48]
  exact Cert.LibRowCast.shapeCast_n_1n_eq_bcastInDim _ _ _
/-- The inverse standard deviations as a row. -/
theorem ops2_2_v54 (a : FVec Ideal Cert.ReferenceIdeal.S100000x16 .f32) (h49 : V (Proc.devRef .tc main_v49) = Cert.Spec.colVar a) :
    StableHlo.after (hostOps2_2 (F := Ideal)) V (Proc.devRef .tc main_v54) = Cert.Spec.row16 (Cert.Spec.invStd a) := by
  after_results_simp; rw [h49]
  exact Cert.LibRowCast.shapeCast_n_1n_eq_bcastInDim _ _ _
/-- The scale as a row. -/
theorem ops2_2_v55 (g : FVec Ideal Cert.ReferenceIdeal.S16 .f32) (h6 : V (Proc.devRef .tc main_arg6) = g) :
    StableHlo.after (hostOps2_2 (F := Ideal)) V (Proc.devRef .tc main_v55) = Cert.Spec.row16 g := by
  after_results_simp; rw [h6]
  exact Cert.LibRowCast.shapeCast_n_1n_eq_bcastInDim _ _ _
/-- The shift as a row. -/
theorem ops2_2_v56 (b : FVec Ideal Cert.ReferenceIdeal.S16 .f32) (h7 : V (Proc.devRef .tc main_arg7) = b) :
    StableHlo.after (hostOps2_2 (F := Ideal)) V (Proc.devRef .tc main_v56) = Cert.Spec.row16 b := by
  after_results_simp; rw [h7]
  exact Cert.LibRowCast.shapeCast_n_1n_eq_bcastInDim _ _ _

end Cert.KRun

end
-- ==== Proof.BiasRelu.lean ====
/-
  The bias + ReLU stage. The grid has 50 points; point t stages rows 2000t … 2000t+1999 of the aggregated array and the
  whole bias row, and writes back max(a + b, 0), the row repeated down the block. Entry (2000t + p, q) of the output
  array therefore only depends on entry (2000t + p, q) of the aggregated array and on entry (0, q) of the row: what the
  host's spelling, with the row broadcast down all 100000 rows and a zero array, reads there. The 50 blocks tile the array.
-/
import proofs.«141803_j65068754534584_1_alg».proof.Proof.Gen.KernelIdeal.Frame
import proofs.«141803_j65068754534584_1_alg».proof.Proof.Spec
import proofs.«141803_j65068754534584_1_alg».proof.Proof.LibColumn
import Idealize.ShloMosaic.Lib.Pipeline.Value
import Idealize.ShloMosaic.Lib.ValueIdx
import Idealize.ShloMosaic.Lib.ValueLayout

noncomputable section

namespace Cert.BiasRelu

open Idealize.ShloMosaic Idealize.ShloMosaic.TcCoe Idealize.ShloMosaic.ValueIdx Idealize.SL.Sem Cert.KernelIdeal Cert.KernelIdeal.Gen

/-- The body's value at (p, q): max(x + b, 0), the row read at column q. -/
theorem body_apply (x0 : Vec Ideal S2000x16 .f32) (x1 : Vec Ideal S1x16 .f32) (p : Fin 2000) (q : Fin 16) :
    k1_pay1 (F := Ideal) x0 x1 (ix2 p q)
      = max (x0 (ix2 p q) + x1 (ix2 (0 : Fin 1) q)) (Ideal.ofBits .f32 0x00000000#32) := by
  unfold k1_pay1
  simp only [shapeCast_self]
  rw [maximumf_apply, addf_apply, broadcastTo_1b_ab_apply]
  rfl

/-- The host's spelling at (r, q): the same formula. -/
theorem host_apply (a : FVec Ideal ⟨2, ![100000, 16]⟩ .f32) (b : FVec Ideal ⟨2, ![1, 16]⟩ .f32) (r : Fin 100000) (q : Fin 16) :
    Cert.Spec.biasReluRow a b (ix2 r q)
      = max (a (ix2 r q) + b (ix2 (0 : Fin 1) q)) (Ideal.ofBits .f32 0x00000000#32) := by
  unfold Cert.Spec.biasReluRow Cert.Spec.spread16
  rw [maximumf_apply, addf_apply, Cert.LibColumn.bcastInDim_1b_ab_apply,
    Cert.LibColumn.bcastInDim_scalar_apply _ _ _ (fun d => d.elim0), constant_apply]

/-- Two numbers that are the entries the two spellings read give the host's value at (r, q). -/
theorem join_apply (a : FVec Ideal ⟨2, ![100000, 16]⟩ .f32) (b : FVec Ideal ⟨2, ![1, 16]⟩ .f32) (a0 a1 : EReal)
    (r : Fin 100000) (q : Fin 16) (h0 : a0 = a (ix2 r q)) (h1 : a1 = b (ix2 (0 : Fin 1) q)) :
    max (a0 + a1) (Ideal.ofBits .f32 0x00000000#32) = Cert.Spec.biasReluRow a b (ix2 r q) := by
  subst h0 h1
  exact (host_apply a b r q).symm

theorem hz : (![0, 0] : Fin 2 → Nat) = fun _ => 0 := funext fun a => by fin_cases a <;> rfl

/-- The block indices over the grid: the aggregated array's and the output's block is (t, 0); the row's block is (0, 0). -/
theorem idx_facts : ∀ t : Fin cfg1.N, win1_0.index t (0 : Fin 2) = t.val ∧ win1_0.index t (1 : Fin 2) = 0
    ∧ win1_2.index t (0 : Fin 2) = t.val ∧ win1_2.index t (1 : Fin 2) = 0
    ∧ win1_1.index t (0 : Fin 2) = 0 ∧ win1_1.index t (1 : Fin 2) = 0
    ∧ t.val < 50 :=
  (by decide +kernel : ∀ t : Fin grid1.N, _)

variable (V : (c : Dev nD) → (b : Ref sig .tc) → Buf (Elt Ideal) ((c : Thread nD τ).loc b)) (c : Dev nD)

/-- What the output array ends holding. -/
abbrev G : FVec Ideal ⟨2, ![100000, 16]⟩ .f32 := Cert.Spec.biasReluRow (V c main_v43) (V c main_v44)

/-- What point t writes back is block t of G. -/
theorem flushed_eq (t : Fin cfg1.N) :
    (dat1 (F := Ideal) V c).flushed 2 t = ((cfg1.win 2).blk t).view.read (Elt Ideal) (G V c) := by
  show (cfg1.win 2).cut (grid1.coords t) ((dat1 (F := Ideal) V c).after 2 t) = _
  rw [after1_2]
  unfold out1_2
  rw [View.canon_unit_zero hz]
  simp only [View.ld_unit_zero (S := S2000x16) hz, View.ld_unit_zero (S := S1x16) hz]
  obtain ⟨e00, e01, e20, e21, e10, e11, ht⟩ := idx_facts t
  funext j
  obtain ⟨p, q, rfl⟩ : ∃ (p : Fin 2000) (q : Fin 16), j = ix2 p q := ⟨j 0, j 1, eq_ix2 j⟩
  have hp : p.val < 2000 := p.isLt
  have hq : q.val < 16 := q.isLt
  refine (body_apply (iblk1 V c 0 t) (iblk1 V c 1 t) p q).trans ?_
  have hr : t.val * 2000 + p.val < 100000 := by omega
  have h2 : ((cfg1.win 2).blk t).view.emb (ix2 p q) = ix2 (⟨t.val * 2000 + p.val, hr⟩ : Fin 100000) q := by
    funext a; apply Fin.ext
    match a with
    | ⟨0, _⟩ => show win1_2.index t (0 : Fin 2) * 2000 + 1 * p.val = t.val * 2000 + p.val; omega
    | ⟨1, _⟩ => show win1_2.index t (1 : Fin 2) * 16 + 1 * q.val = q.val; omega
  have h0 : ((cfg1.win 0).blk t).view.emb (ix2 p q) = ix2 (⟨t.val * 2000 + p.val, hr⟩ : Fin 100000) q := by
    funext a; apply Fin.ext
    match a with
    | ⟨0, _⟩ => show win1_0.index t (0 : Fin 2) * 2000 + 1 * p.val = t.val * 2000 + p.val; omega
    | ⟨1, _⟩ => show win1_0.index t (1 : Fin 2) * 16 + 1 * q.val = q.val; omega
  have h1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 16 + 1 * q.val = q.val; omega
  have e0 : iblk1 V c 0 t (ix2 p q) = V c main_v43 (ix2 (⟨t.val * 2000 + p.val, hr⟩ : Fin 100000) q) := congrArg (V c main_v43) h0
  have e1 : iblk1 V c 1 t (ix2 (0 : Fin 1) q) = V c main_v44 (ix2 (0 : Fin 1) q) := congrArg (V c main_v44) h1
  refine (join_apply (V c main_v43) (V c main_v44) _ _ (⟨t.val * 2000 + p.val, hr⟩ : Fin 100000) q e0 e1).trans ?_
  exact (congrArg (G V c) h2).symm

/-- An index of the array is in point t's block iff each coordinate is in the block's range on its axis. -/
theorem mem_blk (t : Fin cfg1.N) (i : S100000x16.Idx) :
    i ∈ ((cfg1.win 2).blk t).view.set ↔ ∀ a : Fin 2, win1_2.index t a * S2000x16.size a ≤ (i a).val ∧ (i a).val < win1_2.index t a * S2000x16.size a + S2000x16.size a := by
  show i ∈ ((View.whole main_v45).slice (win1_2.rect t)).set ↔ _
  rw [View.set_slice_whole, Rect.mem_set_unit]
  exact Iff.rfl

/-- Every row r lies in the block of point r / 2000. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 50 := N_1
  let t : Fin cfg1.N := ⟨(i 0).val / 2000, by rw [hN]; omega⟩
  obtain ⟨-, -, e20, e21, -⟩ := idx_facts t
  have htv : t.val = (i 0).val / 2000 := rfl
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 16 ≤ (i 1).val ∧ (i 1).val < win1_2.index t (1 : Fin 2) * 16 + 16; omega

/-- After the 50 grid points the output array holds max(a + b, 0), the bias row repeated down the rows. -/
theorem array_eq :
    (dat1 (F := Ideal) V c).arrAt 2 cfg1.N = Cert.Spec.biasReluRow (V c main_v43) (V c main_v44) :=
  (dat1 (F := Ideal) V c).arrAt_eq_of_cover 2 (G V c) (fun t _ => flushed_eq V c t) (cover)

end Cert.BiasRelu

end
-- ==== Proof.KFoldW9.lean ====
/-
  The buffer contents from the second region's exit to the third region's entry: the hidden activations, their column
  means and variances, and the four per-column parameters of the normalisation as rows.
-/
import proofs.«141803_j65068754534584_1_alg».proof.Proof.KFoldW5
import proofs.«141803_j65068754534584_1_alg».proof.Proof.KFoldHostC
import proofs.«141803_j65068754534584_1_alg».proof.Proof.BiasRelu

noncomputable section

namespace Cert.KRun

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The first layer's activations on core `c`'s arguments. -/
abbrev hid : FVec Ideal Cert.ReferenceIdeal.S100000x16 .f32 := Cert.Spec.hidden (aX m c) (aEi m c) (aW1 m c) (aB1 m c)

/-! ## After the second region -/

/-- The region's output array holds the hidden activations. -/
theorem W6_v45 : W6 m ρ c (Proc.devRef .tc main_v45) = hid m c :=
  (W6_arr m ρ c 2).trans ((Cert.BiasRelu.array_eq (V5 m ρ) c).trans
    (congrArg₂ Cert.Spec.biasReluRow (W5_v43 m ρ c) (W5_v44 m ρ c)))
theorem W6_v5 : W6 m ρ c (Proc.devRef .tc main_v5) = Cert.Spec.srcs (aEi m c) :=
  (W6_of_ne m ρ c main_v5 (by decide)).trans (W5_v5 m ρ c)
theorem W6_v6 : W6 m ρ c (Proc.devRef .tc main_v6) = Cert.Spec.tgts (aEi m c) :=
  (W6_of_ne m ρ c main_v6 (by decide)).trans (W5_v6 m ρ c)
theorem W6_v29 : W6 m ρ c (Proc.devRef .tc main_v29) = Cert.Spec.norm (aEi m c) :=
  (W6_of_ne m ρ c main_v29 (by decide)).trans (W5_v29 m ρ c)
theorem W6_arg4 : W6 m ρ c (Proc.devRef .tc main_arg4) = aW2 m c :=
  (W6_of_ne m ρ c main_arg4 (by decide)).trans (W5_arg4 m ρ c)
theorem W6_arg5 : W6 m ρ c (Proc.devRef .tc main_arg5) = aB2 m c :=
  (W6_of_ne m ρ c main_arg5 (by decide)).trans (W5_arg5 m ρ c)
theorem W6_arg6 : W6 m ρ c (Proc.devRef .tc main_arg6) = aGamma m c :=
  (W6_of_ne m ρ c main_arg6 (by decide)).trans (W5_arg6 m ρ c)
theorem W6_arg7 : W6 m ρ c (Proc.devRef .tc main_arg7) = aBeta m c :=
  (W6_of_ne m ρ c main_arg7 (by decide)).trans (W5_arg7 m ρ c)

/-! ## After the column means -/

theorem W7_v48 : W7 m ρ c (Proc.devRef .tc main_v48) = Cert.Spec.colMean (hid m c) :=
  ops2_v48 (W6 m ρ c) _ (W6_v45 m ρ c)
theorem W7_c_11 : W7 m ρ c (Proc.devRef .tc main_c_11) = constantI Cert.ReferenceIdeal.S_ 32 0#32 :=
  ops2_c_11 (W6 m ρ c)
theorem W7_v45 : W7 m ρ c (Proc.devRef .tc main_v45) = hid m c :=
  (keep2 _ (by decide)).trans (W6_v45 m ρ c)
theorem W7_v5 : W7 m ρ c (Proc.devRef .tc main_v5) = Cert.Spec.srcs (aEi m c) :=
  (keep2 _ (by decide)).trans (W6_v5 m ρ c)
theorem W7_v6 : W7 m ρ c (Proc.devRef .tc main_v6) = Cert.Spec.tgts (aEi m c) :=
  (keep2 _ (by decide)).trans (W6_v6 m ρ c)
theorem W7_v29 : W7 m ρ c (Proc.devRef .tc main_v29) = Cert.Spec.norm (aEi m c) :=
  (keep2 _ (by decide)).trans (W6_v29 m ρ c)
theorem W7_arg4 : W7 m ρ c (Proc.devRef .tc main_arg4) = aW2 m c :=
  (keep2 _ (by decide)).trans (W6_arg4 m ρ c)
theorem W7_arg5 : W7 m ρ c (Proc.devRef .tc main_arg5) = aB2 m c :=
  (keep2 _ (by decide)).trans (W6_arg5 m ρ c)
theorem W7_arg6 : W7 m ρ c (Proc.devRef .tc main_arg6) = aGamma m c :=
  (keep2 _ (by decide)).trans (W6_arg6 m ρ c)
theorem W7_arg7 : W7 m ρ c (Proc.devRef .tc main_arg7) = aBeta m c :=
  (keep2 _ (by decide)).trans (W6_arg7 m ρ c)

/-! ## After the column variances -/

theorem W8_v49 : W8 m ρ c (Proc.devRef .tc main_v49) = Cert.Spec.colVar (hid m c) :=
  ops2_1_v49 (W7 m ρ c) _ (W7_v45 m ρ c) (W7_c_11 m ρ c)
theorem W8_v45 : W8 m ρ c (Proc.devRef .tc main_v45) = hid m c :=
  (keep2_1 _ (by decide)).trans (W7_v45 m ρ c)
theorem W8_v48 : W8 m ρ c (Proc.devRef .tc main_v48) = Cert.Spec.colMean (hid m c) :=
  (keep2_1 _ (by decide)).trans (W7_v48 m ρ c)
theorem W8_v5 : W8 m ρ c (Proc.devRef .tc main_v5) = Cert.Spec.srcs (aEi m c) :=
  (keep2_1 _ (by decide)).trans (W7_v5 m ρ c)
theorem W8_v6 : W8 m ρ c (Proc.devRef .tc main_v6) = Cert.Spec.tgts (aEi m c) :=
  (keep2_1 _ (by decide)).trans (W7_v6 m ρ c)
theorem W8_v29 : W8 m ρ c (Proc.devRef .tc main_v29) = Cert.Spec.norm (aEi m c) :=
  (keep2_1 _ (by decide)).trans (W7_v29 m ρ c)
theorem W8_arg4 : W8 m ρ c (Proc.devRef .tc main_arg4) = aW2 m c :=
  (keep2_1 _ (by decide)).trans (W7_arg4 m ρ c)
theorem W8_arg5 : W8 m ρ c (Proc.devRef .tc main_arg5) = aB2 m c :=
  (keep2_1 _ (by decide)).trans (W7_arg5 m ρ c)
theorem W8_arg6 : W8 m ρ c (Proc.devRef .tc main_arg6) = aGamma m c :=
  (keep2_1 _ (by decide)).trans (W7_arg6 m ρ c)
theorem W8_arg7 : W8 m ρ c (Proc.devRef .tc main_arg7) = aBeta m c :=
  (keep2_1 _ (by decide)).trans (W7_arg7 m ρ c)

/-! ## The third region's entry -/

theorem W9_v53 : W9 m ρ c (Proc.devRef .tc main_v53) = Cert.Spec.row16 (Cert.Spec.colMean (hid m c)) :=
  ops2_2_v53 (W8 m ρ c) _ (W8_v48 m ρ c)
theorem W9_v54 : W9 m ρ c (Proc.devRef .tc main_v54) = Cert.Spec.row16 (Cert.Spec.invStd (hid m c)) :=
  ops2_2_v54 (W8 m ρ c) _ (W8_v49 m ρ c)
theorem W9_v55 : W9 m ρ c (Proc.devRef .tc main_v55) = Cert.Spec.row16 (aGamma m c) :=
  ops2_2_v55 (W8 m ρ c) _ (W8_arg6 m ρ c)
theorem W9_v56 : W9 m ρ c (Proc.devRef .tc main_v56) = Cert.Spec.row16 (aBeta m c) :=
  ops2_2_v56 (W8 m ρ c) _ (W8_arg7 m ρ c)
theorem W9_v45 : W9 m ρ c (Proc.devRef .tc main_v45) = hid m c :=
  (keep2_2 _ (by decide)).trans (W8_v45 m ρ c)
theorem W9_v5 : W9 m ρ c (Proc.devRef .tc main_v5) = Cert.Spec.srcs (aEi m c) :=
  (keep2_2 _ (by decide)).trans (W8_v5 m ρ c)
theorem W9_v6 : W9 m ρ c (Proc.devRef .tc main_v6) = Cert.Spec.tgts (aEi m c) :=
  (keep2_2 _ (by decide)).trans (W8_v6 m ρ c)
theorem W9_v29 : W9 m ρ c (Proc.devRef .tc main_v29) = Cert.Spec.norm (aEi m c) :=
  (keep2_2 _ (by decide)).trans (W8_v29 m ρ c)
theorem W9_arg4 : W9 m ρ c (Proc.devRef .tc main_arg4) = aW2 m c :=
  (keep2_2 _ (by decide)).trans (W8_arg4 m ρ c)
theorem W9_arg5 : W9 m ρ c (Proc.devRef .tc main_arg5) = aB2 m c :=
  (keep2_2 _ (by decide)).trans (W8_arg5 m ρ c)

end Cert.KRun

end
-- ==== Proof.BatchNorm.lean ====
/-
  The batch-norm stage. The grid has 50 points; point t stages rows 2000t … 2000t+1999 of the activations and the
  whole of each of the four parameter rows, and writes back ((x - mean) * invstd) * gamma + beta, the rows repeated
  down the block. Entry (2000t + p, q) of the output array therefore only depends on entry (2000t + p, q) of the
  activations and on entry (0, q) of each row: exactly what the host's spelling with the rows broadcast down all
  100000 rows reads there. The 50 blocks tile the array.
-/
import proofs.«141803_j65068754534584_1_alg».proof.Proof.Gen.KernelIdeal.Frame
import proofs.«141803_j65068754534584_1_alg».proof.Proof.Spec
import proofs.«141803_j65068754534584_1_alg».proof.Proof.LibColumn
import Idealize.ShloMosaic.Lib.Pipeline.Value
import Idealize.ShloMosaic.Lib.ValueIdx
import Idealize.ShloMosaic.Lib.ValueLayout

noncomputable section

namespace Cert.BatchNorm

open Idealize.ShloMosaic Idealize.ShloMosaic.TcCoe Idealize.ShloMosaic.ValueIdx Idealize.SL.Sem Cert.KernelIdeal Cert.KernelIdeal.Gen

/-- The body's value at (p, q): ((x - mean) * invstd) * gamma + beta, each row read at column q. -/
theorem body_apply (x0 : Vec Ideal S2000x16 .f32) (x1 x2 x3 x4 : Vec Ideal S1x16 .f32) (p : Fin 2000) (q : Fin 16) :
    k2_pay1 (F := Ideal) x0 x1 x2 x3 x4 (ix2 p q)
      = ((x0 (ix2 p q) - x1 (ix2 (0 : Fin 1) q)) * x2 (ix2 (0 : Fin 1) q)) * x3 (ix2 (0 : Fin 1) q) + x4 (ix2 (0 : Fin 1) q) := by
  unfold k2_pay1
  simp only [shapeCast_self]
  rw [addf_apply, mulf_apply, mulf_apply, subf_apply, broadcastTo_1b_ab_apply, broadcastTo_1b_ab_apply, broadcastTo_1b_ab_apply,
    broadcastTo_1b_ab_apply]

/-- The host's spelling at (r, q): the same formula, the rows read at column q. -/
theorem host_apply (h : FVec Ideal ⟨2, ![100000, 16]⟩ .f32) (mr ir gr br : FVec Ideal ⟨2, ![1, 16]⟩ .f32) (r : Fin 100000) (q : Fin 16) :
    Cert.Spec.bnRows h mr ir gr br (ix2 r q)
      = ((h (ix2 r q) - mr (ix2 (0 : Fin 1) q)) * ir (ix2 (0 : Fin 1) q)) * gr (ix2 (0 : Fin 1) q) + br (ix2 (0 : Fin 1) q) := by
  unfold Cert.Spec.bnRows Cert.Spec.spread16
  rw [addf_apply, mulf_apply, mulf_apply, subf_apply, Cert.LibColumn.bcastInDim_1b_ab_apply, Cert.LibColumn.bcastInDim_1b_ab_apply,
    Cert.LibColumn.bcastInDim_1b_ab_apply, Cert.LibColumn.bcastInDim_1b_ab_apply]

/-- Five numbers that are the entries the two spellings read give the host's value at (r, q). -/
theorem join_apply (h : FVec Ideal ⟨2, ![100000, 16]⟩ .f32) (mr ir gr br : FVec Ideal ⟨2, ![1, 16]⟩ .f32) (a0 a1 a2 a3 a4 : EReal)
    (r : Fin 100000) (q : Fin 16) (h0 : a0 = h (ix2 r q)) (h1 : a1 = mr (ix2 (0 : Fin 1) q)) (h2 : a2 = ir (ix2 (0 : Fin 1) q))
    (h3 : a3 = gr (ix2 (0 : Fin 1) q)) (h4 : a4 = br (ix2 (0 : Fin 1) q)) :
    ((a0 - a1) * a2) * a3 + a4 = Cert.Spec.bnRows h mr ir gr br (ix2 r q) := by
  subst h0 h1 h2 h3 h4
  exact (host_apply h mr ir gr br r q).symm

theorem hz : (![0, 0] : Fin 2 → Nat) = fun _ => 0 := funext fun a => by fin_cases a <;> rfl

/-- The block indices over the grid: the activations' and the output's block is (t, 0); every row's block is (0, 0). -/
theorem idx_facts : ∀ t : Fin cfg2.N, win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ t.val < 50 :=
  (by decide +kernel : ∀ t : Fin grid2.N, _)

variable (V : (c : Dev nD) → (b : Ref sig .tc) → Buf (Elt Ideal) ((c : Thread nD τ).loc b)) (c : Dev nD)

/-- What the output array ends holding. -/
abbrev G : FVec Ideal ⟨2, ![100000, 16]⟩ .f32 :=
  Cert.Spec.bnRows (V c main_v45) (V c main_v53) (V c main_v54) (V c main_v55) (V c main_v56)

/-- What point t writes back is block t of G. -/
theorem flushed_eq (t : Fin cfg2.N) :
    (dat2 (F := Ideal) V c).flushed 5 t = ((cfg2.win 5).blk t).view.read (Elt Ideal) (G V c) := by
  show (cfg2.win 5).cut (grid2.coords t) ((dat2 (F := Ideal) V c).after 5 t) = _
  rw [after2_5]
  unfold out2_5
  rw [View.canon_unit_zero hz]
  simp only [View.ld_unit_zero (S := S2000x16) hz, View.ld_unit_zero (S := S1x16) hz]
  obtain ⟨e00, e01, e50, e51, e10, e11, e20, e21, e30, e31, e40, e41, ht⟩ := idx_facts t
  funext j
  obtain ⟨p, q, rfl⟩ : ∃ (p : Fin 2000) (q : Fin 16), j = ix2 p q := ⟨j 0, j 1, eq_ix2 j⟩
  have hp : p.val < 2000 := p.isLt
  have hq : q.val < 16 := q.isLt
  refine (body_apply (iblk2 V c 0 t) (iblk2 V c 1 t) (iblk2 V c 2 t) (iblk2 V c 3 t) (iblk2 V c 4 t) p q).trans ?_
  have hr : t.val * 2000 + p.val < 100000 := by omega
  have h5 : ((cfg2.win 5).blk t).view.emb (ix2 p q) = ix2 (⟨t.val * 2000 + p.val, hr⟩ : Fin 100000) q := by
    funext a; apply Fin.ext
    match a with
    | ⟨0, _⟩ => show win2_5.index t (0 : Fin 2) * 2000 + 1 * p.val = t.val * 2000 + p.val; omega
    | ⟨1, _⟩ => show win2_5.index t (1 : Fin 2) * 16 + 1 * q.val = q.val; omega
  have h0 : ((cfg2.win 0).blk t).view.emb (ix2 p q) = ix2 (⟨t.val * 2000 + p.val, hr⟩ : Fin 100000) q := by
    funext a; apply Fin.ext
    match a with
    | ⟨0, _⟩ => show win2_0.index t (0 : Fin 2) * 2000 + 1 * p.val = t.val * 2000 + p.val; omega
    | ⟨1, _⟩ => show win2_0.index t (1 : Fin 2) * 16 + 1 * q.val = q.val; omega
  have h1 : ((cfg2.win 1).blk t).view.emb (ix2 (0 : Fin 1) q) = ix2 (0 : Fin 1) q := by
    funext a; apply Fin.ext
    match a with
    | ⟨0, _⟩ => show win2_1.index t (0 : Fin 2) * 1 + 1 * 0 = 0; omega
    | ⟨1, _⟩ => show win2_1.index t (1 : Fin 2) * 16 + 1 * q.val = q.val; omega
  have h2 : ((cfg2.win 2).blk t).view.emb (ix2 (0 : Fin 1) q) = ix2 (0 : Fin 1) q := by
    funext a; apply Fin.ext
    match a with
    | ⟨0, _⟩ => show win2_2.index t (0 : Fin 2) * 1 + 1 * 0 = 0; omega
    | ⟨1, _⟩ => show win2_2.index t (1 : Fin 2) * 16 + 1 * q.val = q.val; omega
  have h3 : ((cfg2.win 3).blk t).view.emb (ix2 (0 : Fin 1) q) = ix2 (0 : Fin 1) q := by
    funext a; apply Fin.ext
    match a with
    | ⟨0, _⟩ => show win2_3.index t (0 : Fin 2) * 1 + 1 * 0 = 0; omega
    | ⟨1, _⟩ => show win2_3.index t (1 : Fin 2) * 16 + 1 * q.val = q.val; omega
  have h4 : ((cfg2.win 4).blk t).view.emb (ix2 (0 : Fin 1) q) = ix2 (0 : Fin 1) q := by
    funext a; apply Fin.ext
    match a with
    | ⟨0, _⟩ => show win2_4.index t (0 : Fin 2) * 1 + 1 * 0 = 0; omega
    | ⟨1, _⟩ => show win2_4.index t (1 : Fin 2) * 16 + 1 * q.val = q.val; omega
  have e0 : iblk2 V c 0 t (ix2 p q) = V c main_v45 (ix2 (⟨t.val * 2000 + p.val, hr⟩ : Fin 100000) q) := congrArg (V c main_v45) h0
  have e1 : iblk2 V c 1 t (ix2 (0 : Fin 1) q) = V c main_v53 (ix2 (0 : Fin 1) q) := congrArg (V c main_v53) h1
  have e2 : iblk2 V c 2 t (ix2 (0 : Fin 1) q) = V c main_v54 (ix2 (0 : Fin 1) q) := congrArg (V c main_v54) h2
  have e3 : iblk2 V c 3 t (ix2 (0 : Fin 1) q) = V c main_v55 (ix2 (0 : Fin 1) q) := congrArg (V c main_v55) h3
  have e4 : iblk2 V c 4 t (ix2 (0 : Fin 1) q) = V c main_v56 (ix2 (0 : Fin 1) q) := congrArg (V c main_v56) h4
  refine (join_apply (V c main_v45) (V c main_v53) (V c main_v54) (V c main_v55) (V c main_v56) _ _ _ _ _
    (⟨t.val * 2000 + p.val, hr⟩ : Fin 100000) q e0 e1 e2 e3 e4).trans ?_
  exact (congrArg (G V c) h5).symm

/-- An index of the array is in point t's block iff each coordinate is in the block's range on its axis. -/
theorem mem_blk (t : Fin cfg2.N) (i : S100000x16.Idx) :
    i ∈ ((cfg2.win 5).blk t).view.set ↔ ∀ a : Fin 2, win2_5.index t a * S2000x16.size a ≤ (i a).val ∧ (i a).val < win2_5.index t a * S2000x16.size a + S2000x16.size a := by
  show i ∈ ((View.whole main_v57).slice (win2_5.rect t)).set ↔ _
  rw [View.set_slice_whole, Rect.mem_set_unit]
  exact Iff.rfl

/-- Every row r lies in the block of point r / 2000. -/
theorem cover (i : S100000x16.Idx) : ∃ t : Fin cfg2.N, (cfg2.win 5).flush t = true ∧ i ∈ ((cfg2.win 5).blk t).view.set := by
  have hi0 : (i 0).val < 100000 := (i 0).isLt
  have hi1 : (i 1).val < 16 := (i 1).isLt
  have hN : cfg2.N = 50 := N_2
  let t : Fin cfg2.N := ⟨(i 0).val / 2000, by rw [hN]; omega⟩
  obtain ⟨-, -, e50, e51, -⟩ := idx_facts t
  have htv : t.val = (i 0).val / 2000 := rfl
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 16 ≤ (i 1).val ∧ (i 1).val < win2_5.index t (1 : Fin 2) * 16 + 16; omega

/-- After the 50 grid points the output array holds (h - mean) * invstd * gamma + beta, the four rows repeated down the rows. -/
theorem array_eq :
    (dat2 (F := Ideal) V c).arrAt 5 cfg2.N = Cert.Spec.bnRows (V c main_v45) (V c main_v53) (V c main_v54) (V c main_v55) (V c main_v56) :=
  (dat2 (F := Ideal) V c).arrAt_eq_of_cover 5 (G V c) (fun t _ => flushed_eq V c t) (cover)

end Cert.BatchNorm

end
-- ==== Proof.MatmulB.lean ====
/-
  The second matrix product, from blocks to the array.

  The region runs over 50 grid points. At point t the body multiplies rows 2000 t … 2000 t + 1999 of the [100000, 16]
  left operand (a reshape to the same shape first, the identity) with the whole [16, 40] right operand into a zero
  accumulator and stores the [2000, 40] result, which is written back as block t of the output. Entry (p, q) of that block
  product is the sum over k of h(2000 t + p, k) · w(k, q): entry (2000 t + p, q) of the whole product. The 50 blocks cover
  the output, row r in the block of point r / 2000, so the output array ends holding the whole product.
-/
import proofs.«141803_j65068754534584_1_alg».proof.Proof.Gen.KernelIdeal.Frame
import proofs.«141803_j65068754534584_1_alg».proof.Proof.Spec
import proofs.«141803_j65068754534584_1_alg».proof.Proof.LibBlockDot
import Idealize.ShloMosaic.Lib.Pipeline.Value

noncomputable section

namespace Cert.MatmulB

open Idealize.ShloMosaic Idealize.ShloMosaic.TcCoe Idealize.SL.Sem Cert.KernelIdeal Cert.KernelIdeal.Gen
open Idealize.ShloMosaic.ValueIdx
open Idealize.ShloMosaic.Pipeline (Dat)

/-- Entry (p, q) of the product of a block of 2000 rows with the whole right operand is entry (P, q) of the whole
    product, when the block's row p is the array's row P. -/
theorem pay_apply (x0 : Vec Ideal S2000x16 .f32) (x1 : Vec Ideal S16x40 .f32)
    (X : FVec Ideal Cert.ReferenceIdeal.S100000x16 .f32) (W : FVec Ideal Cert.ReferenceIdeal.S16x40 .f32)
    (p : Fin 2000) (P : Fin 100000) (q : Fin 40)
    (h0 : ∀ k : Fin 16, (x0 (ix2 p k) : EReal) = X (ix2 P k))
    (h1 : ∀ k : Fin 16, (x1 (ix2 k q) : EReal) = W (ix2 k q)) :
    k3_pay1 (F := Ideal) x0 x1 (ix2 p q) = Cert.Spec.dot2 X W (ix2 P q) := by
  unfold k3_pay1 Cert.Spec.dot2
  rw [shapeCast_self]
  exact Cert.LibBlockDot.matmul_block_apply dot_S2000x16_S16x40_S2000x40_1_0_0_1_n_n rfl rfl rfl rfl rfl rfl
    Cert.ReferenceIdeal.Facts₀.dot_S100000x16_S16x40_S100000x40_1_0_0_1_n_n_wf none none x0 x1 X W p P q h0 h1

/-- The same at an index j of the block and an index i of the array in the same column, the block's row j₀ being the
    array's row i₀. -/
theorem pay_at (x0 : Vec Ideal S2000x16 .f32) (x1 : Vec Ideal S16x40 .f32)
    (X : FVec Ideal Cert.ReferenceIdeal.S100000x16 .f32) (W : FVec Ideal Cert.ReferenceIdeal.S16x40 .f32)
    (j : S2000x40.Idx) (i : S100000x40.Idx) (hi1 : (i 1).val = (j 1).val)
    (h0 : ∀ k : Fin 16, (x0 (ix2 (j 0) k) : EReal) = X (ix2 (i 0) k))
    (h1 : ∀ (k : Fin 16) (q : Fin 40), (x1 (ix2 k q) : EReal) = W (ix2 k q)) :
    k3_pay1 (F := Ideal) x0 x1 j = Cert.Spec.dot2 X W i := by
  have ej : j = ix2 (j 0) (j 1) := eq_ix2 j
  have ei : i = ix2 (i 0) (j 1) := by rw [← show i 1 = j 1 from Fin.ext hi1]; exact eq_ix2 i
  rw [ej, ei]
  exact pay_apply x0 x1 X W (j 0) (i 0) (j 1) h0 (fun k => h1 k (j 1))

theorem hz : (![0, 0] : Fin 2 → Nat) = fun _ => 0 := funext fun a => by fin_cases a <;> rfl

/-- The printed index maps over the grid: the left operand's and the output's row blocks move with the point, the right
    operand stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section

variable (V : (c : Dev nD) → (b : Ref sig .tc) → Buf (Elt Ideal) ((c : Thread nD τ).loc b))

/-- The left operand's block at point t is rows 2000 t … 2000 t + 1999 of the array. -/
theorem iblk_lhs_apply (c : Dev nD) (t : Fin cfg3.N) (y : S2000x16.Idx) (i : S100000x16.Idx)
    (h0 : (i 0).val = t.val * 2000 + (y 0).val) (h1 : (i 1).val = (y 1).val) :
    (iblk3 V c 0 t : Vec Ideal S2000x16 .f32) y = (V c main_v57 : S100000x16.Idx → Elt Ideal .f32) i := by
  obtain ⟨e0, e1, -⟩ := idx_facts t
  unfold iblk3
  rw [View.read_apply]
  show V c main_v57 _ = V c main_v57 _
  congr 1
  funext a
  apply Fin.ext
  match a with
  | ⟨0, _⟩ => show win3_0.index t (0 : Fin 2) * 2000 + 1 * (y 0).val = (i 0).val; rw [e0, h0]; omega
  | ⟨1, _⟩ => show win3_0.index t (1 : Fin 2) * 16 + 1 * (y 1).val = (i 1).val; rw [e1, h1]; omega

/-- The right operand's one block is the whole array. -/
theorem iblk_rhs_apply (c : Dev nD) (t : Fin cfg3.N) (y : S16x40.Idx) :
    (iblk3 V c 1 t : Vec Ideal S16x40 .f32) y = (V c main_arg4 : S16x40.Idx → Elt Ideal .f32) y := by
  obtain ⟨-, -, e2, e3, -⟩ := idx_facts t
  unfold iblk3
  rw [View.read_apply]
  show V c main_arg4 _ = V c main_arg4 _
  congr 1
  funext a
  apply Fin.ext
  match a with
  | ⟨0, _⟩ => show win3_1.index t (0 : Fin 2) * 16 + 1 * (y 0).val = (y 0).val; rw [e2]; omega
  | ⟨1, _⟩ => show win3_1.index t (1 : Fin 2) * 40 + 1 * (y 1).val = (y 1).val; rw [e3]; omega

/-- What point t writes back is block t of the whole product. -/
theorem flushed_eq (c : Dev nD) (t : Fin cfg3.N) :
    (dat3 (F := Ideal) V c).flushed 2 t
      = ((cfg3.win 2).blk t).view.read (Elt Ideal) (Cert.Spec.dot2 (V c main_v57) (V c main_arg4)) := by
  show (cfg3.win 2).cut (grid3.coords t) ((dat3 V c).after 2 t) = _
  rw [after3_2]
  unfold out3_2
  rw [View.canon_unit_zero hz]
  simp only [View.ld_unit_zero (S := S2000x16) hz, View.ld_unit_zero (S := S16x40) hz]
  obtain ⟨-, -, -, -, e4, e5⟩ := idx_facts t
  funext j
  refine pay_at (iblk3 V c 0 t) (iblk3 V c 1 t) (V c main_v57) (V c main_arg4) ((cfg3.win 2).xinj (grid3.coords t) j) (((cfg3.win 2).blk t).view.emb j) ?_ ?_ ?_
  · show win3_2.index t (1 : Fin 2) * 40 + 1 * (j 1).val = (j 1).val
    rw [e5]; omega
  · intro k
    refine iblk_lhs_apply V c t _ _ ?_ rfl
    show win3_2.index t (0 : Fin 2) * 2000 + 1 * (j 0).val = t.val * 2000 + (j 0).val
    rw [e4]; omega
  · intro k q
    exact iblk_rhs_apply V c t _

/-- An index of the array is in point t's block iff each coordinate is in the block's range on its axis. -/
theorem mem_blk (t : Fin cfg3.N) (i : S100000x40.Idx) :
    i ∈ ((cfg3.win 2).blk t).view.set ↔ ∀ a : Fin 2, win3_2.index t a * S2000x40.size a ≤ (i a).val
      ∧ (i a).val < win3_2.index t a * S2000x40.size a + S2000x40.size a := by
  show i ∈ ((View.whole main_v58).slice (win3_2.rect t)).set ↔ _
  rw [View.set_slice_whole, Rect.mem_set_unit]
  exact Iff.rfl

/-- Row r of the array is in the block of point r / 2000. -/
theorem cover (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  have hN : cfg3.N = 50 := N_3
  obtain ⟨t, ht⟩ : ∃ t : Fin cfg3.N, t.val = (i 0).val / 2000 := ⟨⟨(i 0).val / 2000, by rw [hN]; omega⟩, rfl⟩
  obtain ⟨-, -, -, -, e4, e5⟩ := idx_facts t
  refine ⟨t, flush3_2 t, ?_⟩
  rw [mem_blk]
  intro a
  match a with
  | ⟨0, _⟩ =>
    show win3_2.index t (0 : Fin 2) * 2000 ≤ (i 0).val ∧ (i 0).val < win3_2.index t (0 : Fin 2) * 2000 + 2000
    rw [e4, ht]; omega
  | ⟨1, _⟩ =>
    show win3_2.index t (1 : Fin 2) * 40 ≤ (i 1).val ∧ (i 1).val < win3_2.index t (1 : Fin 2) * 40 + 40
    rw [e5]; omega

end

/-- After the 50 grid points the output array of the second product holds h · W2. -/
theorem array_eq (V : (c : Dev nD) → (b : Ref sig .tc) → Buf (Elt Ideal) ((c : Thread nD τ).loc b)) (c : Dev nD) :
    (dat3 (F := Ideal) V c).arrAt 2 cfg3.N = Cert.Spec.dot2 (V c main_v57) (V c main_arg4) :=
  (dat3 (F := Ideal) V c).arrAt_eq_of_cover 2 (Cert.Spec.dot2 (V c main_v57) (V c main_arg4))
    (fun t _ => flushed_eq V c t) cover

end Cert.MatmulB

end
-- ==== Proof.LogSoftmaxRow.lean ====
/-
  The log-softmax of one row of 40 extended reals, entry by entry: with M the maximum of the row (the fold of max from
  minus infinity), entry q is (x q - M) - log (sum over k of exp (x k - M)).
-/
import Idealize.ShloMosaic.PureOps.Ideal

noncomputable section

namespace Cert.LogSoftmaxRow

open Idealize.ShloMosaic

/-- The maximum of a row: the fold of max over its 40 entries from the value of the word of minus infinity. -/
def rowMax (x : Fin 40 → EReal) : EReal :=
  (Finset.univ : Finset (Fin 40)).fold max (Ideal.ofBits .f32 0xFF800000#32) x

/-- The log-softmax of a row at entry q. -/
def rowLogSoftmax (x : Fin 40 → EReal) (q : Fin 40) : EReal :=
  (x q - rowMax x) - Ideal.log (∑ k : Fin 40, Ideal.exp (x k - rowMax x))

end Cert.LogSoftmaxRow

end
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«141803_j65068754534584_1_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.LibRowF32.lean ====
/-
  The vector unit's single-precision lane sum and lane maximum along the second axis, read at a row, with the side
  condition on the initial word spelt as the literal equation a printed reduction carries (`0#32 = 0#32`,
  `0xFF800000#32 = 0xFF800000#32`), so that a rewrite matches the printed term as it stands. For any extents.
-/
import proofs.«141803_j65068754534584_1_alg».proof.Proof.LibRowReduce
import Idealize.ShloMosaic.PureOps.Ideal
import Idealize.ShloMosaic.PureOps.Ideal.Laws
import Idealize.ShloMosaic.Lib.ValueIdx

noncomputable section

namespace Cert.LibRowF32

open Idealize.ShloMosaic Idealize.ShloMosaic.ValueIdx Cert.LibRowReduce

variable {a b : ℕ}

/-- A single-precision lane sum along the second axis, started from the zero word, at row `p`: the plain sum of the row. -/
theorem rowSum_f32 (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = 0x00000000#32) (p : Fin a) :
    multiReduction .add [(1 : Fin 2)] ⟨1, ![a]⟩ src 0x00000000#32 h hφ hacc (ix1 p) = ∑ k : Fin b, src (ix2 p k) :=
  rowSum_apply src _ h hφ hacc p

/-- A single-precision lane maximum along the second axis, started from the word of minus infinity, at row `p`: the
    fold of `max` over the row from that word's value. -/
theorem rowMax_f32 (src : FVec Ideal ⟨2, ![a, b]⟩ .f32)
    (h : (⟨2, ![a, b]⟩ : Shape).Reduces [(1 : Fin 2)] ⟨1, ![a]⟩) (hφ : FKind.Formats .f32)
    (hacc : (0xFF800000#32 : BitVec 32) = 0xFF800000#32) (p : Fin a) :
    multiReduction .maximumf [(1 : Fin 2)] ⟨1, ![a]⟩ src 0xFF800000#32 h hφ hacc (ix1 p)
      = (Finset.univ : Finset (Fin b)).fold max (Ideal.ofBits .f32 0xFF800000#32) (fun k => src (ix2 p k)) :=
  rowMax_apply src _ h hφ hacc p

end Cert.LibRowF32

end
-- ==== Proof.LogSoftmaxPay.lean ====
/-
  The bias + log-softmax body's stored block at an index: entry (p, q) is the log-softmax, at q, of row p of the
  loaded block with the bias row added.
-/
import proofs.«141803_j65068754534584_1_alg».proof.Proof.Gen.KernelIdeal.Skeleton
import proofs.«141803_j65068754534584_1_alg».proof.Proof.LogSoftmaxRow
import proofs.«141803_j65068754534584_1_alg».proof.Proof.LibRowF32
import proofs.«141803_j65068754534584_1_alg».proof.Proof.LibColumn
import Idealize.ShloMosaic.Lib.ValueLayout
import Idealize.ShloMosaic.Lib.ValueIdx
import Idealize.ShloMosaic.Lib.Pipeline.Value
import Idealize.ShloMosaic.PureOps.Ideal

noncomputable section

namespace Cert.LogSoftmaxPay

open Idealize.ShloMosaic Idealize.ShloMosaic.ValueIdx Cert.KernelIdeal Cert.KernelIdeal.Gen Cert.LogSoftmaxRow

/-- The vector unit's exponential and logarithm read at an index. -/
theorem exp_apply {s : Shape} {φ : FTy} (v : FVec Ideal s φ) (i : s.Idx) : exp v i = Ideal.exp (v i) := rfl
theorem log_apply {s : Shape} {φ : FTy} (v : FVec Ideal s φ) (i : s.Idx) : log v i = Ideal.log (v i) := rfl

/-- THE STORED BLOCK at (p, q): the lane maximum and the lane sum of row p are the fold of max and the plain sum over
    the row's 40 entries, the kept column and its broadcast read the row's one value, and the bias row is read at q. -/
theorem pay_apply (x0 : Vec Ideal S2000x40 .f32) (x1 : Vec Ideal S1x40 .f32) (p : Fin 2000) (q : Fin 40) :
    k4_pay1 (F := Ideal) x0 x1 (ix2 p q) = rowLogSoftmax (fun k => x0 (ix2 p k) + x1 (ix2 (0 : Fin 1) k)) q := by
  unfold k4_pay1
  simp only [subf_apply, addf_apply, exp_apply, log_apply, shapeCast_self,
    Cert.LibColumn.broadcastTo_a1_ab_apply, Cert.LibColumn.shapeCast_a_a1_apply,
    broadcastTo_1b_ab_apply]
  rw [Cert.LibRowF32.rowMax_f32, Cert.LibRowF32.rowSum_f32]
  simp only [subf_apply, addf_apply, exp_apply, log_apply, shapeCast_self,
    Cert.LibColumn.broadcastTo_a1_ab_apply, Cert.LibColumn.shapeCast_a_a1_apply,
    broadcastTo_1b_ab_apply]
  rw [Cert.LibRowF32.rowMax_f32]
  simp only [addf_apply, broadcastTo_1b_ab_apply]
  rfl

end Cert.LogSoftmaxPay

end
-- ==== Proof.LibHostRowMax.lean ====
/-
  The host's maximum along the second axis of an a×b array of extended reals, read at row p: the fold of `max` over
  the row from the initial value. For any extents; the reducing function is given up to an equation with `max`, so that
  an instance's own spelling of the maximum fits.
-/
import proofs.«141803_j65068754534584_1_alg».proof.Proof.LibRowReduce
import Idealize.ShloMosaic.PureOps.Reduce
import Idealize.ShloMosaic.PureOps.Ideal
import Idealize.ShloMosaic.Lib.ValueIdx

noncomputable section

namespace Cert.LibHostRowMax

open Idealize.ShloMosaic Idealize.ShloMosaic.ValueIdx Cert.LibRowReduce

variable {a b : ℕ}

/-- THE HOST'S ROW MAXIMUM at row `p`. -/
theorem hostRowMax_apply (f : EReal → EReal → EReal) (hf : f = max) (x : (⟨2, ![a, b]⟩ : Shape).Idx → EReal)
    (init : (⟨0, ![]⟩ : Shape).Idx → EReal)
    (h' : (⟨2, ![a, b]⟩ : Shape).ReducesTo [(1 : Fin 2)] ⟨1, ![a]⟩)
    (h : (⟨2, ![a, b]⟩ : Shape).Reduces [(1 : Fin 2)] ⟨1, ![a]⟩) (hu : 0 < (⟨0, ![]⟩ : Shape).numel) (p : Fin a) :
    Host.reduce f x init h' hu (ix1 p)
      = (Finset.univ : Finset (Fin b)).fold max (init (Shape.Idx.first hu)) (fun k => x (ix2 p k)) := by
  subst hf
  rw [Host.reduce_eq_fold_single max x init h' h hu (ix1 p)]
  exact congrArg (fun g : Fin b → EReal => (Finset.univ : Finset (Fin b)).fold max (init (Shape.Idx.first hu)) g)
    (funext fun k => congrArg x (lift_row h p k))

end Cert.LibHostRowMax

end
-- ==== Proof.LibRowMin.lean ====
/- The lane MINIMUM along the second axis of a two-axis array, read at row p over the extended reals: min folded over the row
   from the initial word; the host's sum along that axis as the initial value plus the plain sum over the row; and a length-n vector viewed as an a × b array (n = a·b, rows of length b laid end to end), read at
   (p, k) as the vector's entry p·b + k. For any extents and element type. Names no program. -/
import proofs.«141803_j65068754534584_1_alg».proof.Proof.LibRowReduce
import Idealize.ShloMosaic.PureOps.Ideal
import Idealize.ShloMosaic.PureOps.Ideal.Laws
import Idealize.ShloMosaic.Lib.Pipeline.Value
import Idealize.ShloMosaic.Lib.ValueIdx

noncomputable section

namespace Cert.LibRowMin

open Idealize.ShloMosaic Idealize.ShloMosaic.ValueIdx

variable {a b : ℕ}

/-- The lane minimum of row p: min folded over the row from the initial word. -/
theorem rowMin_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.minimumf.neutral φ hφ) (p : Fin a) :
    multiReduction .minimumf [(1 : Fin 2)] ⟨1, ![a]⟩ src acc h hφ hacc (ix1 p)
      = (Finset.univ : Finset (Fin b)).fold min (FloatOps.ofBits (F := Ideal) φ acc) (fun k => src (ix2 p k)) := by
  rw [multiReduction_minimumf_eq_fold]
  refine (h.fold_filter_drop_single _ _ src (ix1 p)).trans ?_
  exact congrArg (fun f => (Finset.univ : Finset (Fin b)).fold min (FloatOps.ofBits (F := Ideal) φ acc) f)
    (funext fun k => congrArg src (Cert.LibRowReduce.lift_row h p k))

/-- The lane sum of row p of an f32 array from the zero word, with the side condition on the initial word spelt as an
    equation between the two literal words (the form a printed reduction carries). -/
theorem rowSum_f32 (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = 0x00000000#32) (p : Fin a) :
    multiReduction .add [(1 : Fin 2)] ⟨1, ![a]⟩ src 0x00000000#32 h hφ hacc (ix1 p) = ∑ k : Fin b, src (ix2 p k) :=
  Cert.LibRowReduce.rowSum_apply src 0x00000000#32 h hφ hacc p

/-- The lane minimum of row p of an f32 array from the word of +∞, the side condition spelt the same way. -/
theorem rowMin_f32 (src : FVec Ideal ⟨2, ![a, b]⟩ .f32)
    (h : (⟨2, ![a, b]⟩ : Shape).Reduces [(1 : Fin 2)] ⟨1, ![a]⟩) (hφ : FKind.Formats .f32)
    (hacc : (0x7F800000#32 : BitVec 32) = 0x7F800000#32) (p : Fin a) :
    multiReduction .minimumf [(1 : Fin 2)] ⟨1, ![a]⟩ src 0x7F800000#32 h hφ hacc (ix1 p)
      = (Finset.univ : Finset (Fin b)).fold min (Ideal.ofBits .f32 0x7F800000#32) (fun k => src (ix2 p k)) :=
  rowMin_apply src 0x7F800000#32 h hφ hacc p

/-- The HOST's sum along the second axis at row p: the initial value plus the plain sum over the row. -/
theorem hostRowSum_apply (x : (⟨2, ![a, b]⟩ : Shape).Idx → EReal) (init : EReal)
    (h' : (⟨2, ![a, b]⟩ : Shape).ReducesTo [(1 : Fin 2)] ⟨1, ![a]⟩) (h : (⟨2, ![a, b]⟩ : Shape).Reduces [(1 : Fin 2)] ⟨1, ![a]⟩)
    (p : Fin a) : Ideal.hostReduceAdd h' x init (ix1 p) = init + ∑ k : Fin b, x (ix2 p k) :=
  (Ideal.hostReduceAdd_single h' h x init (ix1 p)).trans
    (congrArg (fun z => init + z) (Finset.sum_congr rfl fun k _ => congrArg x (Cert.LibRowReduce.lift_row h p k)))

variable {α : Type}

/-- A vector of length n cast to an a × b array reads, at (p, k), the vector's entry q whenever q = p·b + k. -/
theorem shapeCast_n_ab_apply {n : ℕ} (v : (⟨1, ![n]⟩ : Shape).Idx → α)
    (h : (⟨1, ![n]⟩ : Shape).ShapeCasts ⟨2, ![a, b]⟩) (p : Fin a) (k : Fin b) (q : Fin n) (hq : q.val = p.val * b + k.val) :
    shapeCast ⟨2, ![a, b]⟩ v h (ix2 p k) = v (ix1 q) :=
  shapeCast_apply v h _ _ (by
    rw [Shape.rowMajor_val_two, Shape.rowMajor_val_one]
    exact hq)

end Cert.LibRowMin

end
-- ==== Proof.LogSoftmaxSpec.lean ====
/-
  The specification's bias + log-softmax read at an index: entry (r, q) is the log-softmax, at q, of row r of the
  array with the bias row added. The host's row maximum is the fold of max from minus infinity (its guard, a maximum with
  minus infinity, changes nothing), its row sum starts from zero, and its exponential and logarithm are the vector unit's.
-/
import proofs.«141803_j65068754534584_1_alg».proof.Proof.Spec
import proofs.«141803_j65068754534584_1_alg».proof.Proof.LogSoftmaxRow
import proofs.«141803_j65068754534584_1_alg».proof.Proof.LibHostRowMax
import proofs.«141803_j65068754534584_1_alg».proof.Proof.LibRowMin
import proofs.«141803_j65068754534584_1_alg».proof.Proof.LibColumn
import Idealize.ShloMosaic.Lib.ValueLayout
import Idealize.ShloMosaic.Lib.ValueIdx
import Idealize.ShloMosaic.PureOps.Ideal
import Idealize.ShloMosaic.PureOps.Ideal.Laws

noncomputable section

namespace Cert.LogSoftmaxSpec

open Idealize.ShloMosaic Idealize.ShloMosaic.ValueIdx Cert.ReferenceIdeal Cert.ReferenceIdeal.Facts₀ Cert.ReferenceIdeal.Facts
open Cert.LogSoftmaxRow Cert.LibColumn

/-- The host's exponential and logarithm read at an index: the same functions as the vector unit's. -/
theorem hexp_apply {s : Shape} {φ : FTy} (v : FVec Ideal s φ) (i : s.Idx) : Host.exp v i = Ideal.exp (v i) := rfl
theorem hlog_apply {s : Shape} {φ : FTy} (v : FVec Ideal s φ) (i : s.Idx) : Host.log v i = Ideal.log (v i) := rfl

/-- The host's row maximum (guarded by a maximum with minus infinity) at row r is the row's maximum. -/
theorem hostMax_apply (z : FVec Ideal S100000x40 .f32) (r : Fin 100000) :
    (maximumf (broadcastInDim S100000 ![] bcast_S_S100000 (constant (F := Ideal) S_ .f32 0xFF800000#32))
        (Host.reduce (FloatOps.maximumf (F := Ideal)) z (constant (F := Ideal) S_ .f32 0xFF800000#32) reducesTo_S100000x40_S100000_d1 h_S_)) (ix1 r)
      = rowMax (fun k => z (ix2 r k)) := by
  rw [maximumf_apply, bcastInDim_scalar_apply _ _ _ ix0, constant_apply,
    Cert.LibHostRowMax.hostRowMax_apply (FloatOps.maximumf (F := Ideal) (φ := .f32)) rfl _ _ _ (by decide) _ r, constant_apply]
  exact max_eq_right ((Finset.le_fold_max _).mpr (Or.inl le_rfl))

/-- That maximum kept as a column and stretched along the row, read at (r, k). -/
theorem hostMaxCol_apply (z : FVec Ideal S100000x40 .f32) (r : Fin 100000) (k : Fin 40) :
    (broadcastInDim S100000x40 ![0, 1] bcast_S100000x1_S100000x40_0_1 (broadcastInDim S100000x1 ![0] bcast_S100000_S100000x1_0
      (maximumf (broadcastInDim S100000 ![] bcast_S_S100000 (constant (F := Ideal) S_ .f32 0xFF800000#32))
        (Host.reduce (FloatOps.maximumf (F := Ideal)) z (constant (F := Ideal) S_ .f32 0xFF800000#32) reducesTo_S100000x40_S100000_d1 h_S_)))) (ix2 r k)
      = rowMax (fun k => z (ix2 r k)) := by
  rw [bcastInDim_a1_ab_apply, bcastInDim_a_a1_apply, hostMax_apply]

theorem logSoftmax_apply (z : FVec Ideal S100000x40 .f32) (r : Fin 100000) (q : Fin 40) :
    Cert.Spec.logSoftmax z (ix2 r q) = rowLogSoftmax (fun k => z (ix2 r k)) q := by
  unfold Cert.Spec.logSoftmax
  rw [subf_apply, subf_apply, hostMaxCol_apply, bcastInDim_a1_ab_apply, hlog_apply, bcastInDim_a_a1_apply]
  unfold Host.reduceAdd
  rw [Ideal.hostReduceAdd_def, Cert.LibRowMin.hostRowSum_apply _ _ _ (by decide) r, constant_apply, Ideal.ofBits_zero_f32, zero_add]
  show _ = (z (ix2 r q) - rowMax fun k => z (ix2 r k))
      - Ideal.log (∑ k : Fin 40, Ideal.exp (z (ix2 r k) - rowMax fun k => z (ix2 r k)))
  refine congrArg (fun s => (z (ix2 r q) - rowMax fun k => z (ix2 r k)) - Ideal.log s) (Finset.sum_congr rfl fun k _ => ?_)
  rw [hexp_apply, subf_apply, hostMaxCol_apply]

/-- The biased input at (r, k). -/
theorem biased_apply (a : FVec Ideal S100000x40 .f32) (b : FVec Ideal S1x40 .f32) (r : Fin 100000) (k : Fin 40) :
    addf a (Cert.Spec.spread40 b) (ix2 r k) = a (ix2 r k) + b (ix2 (0 : Fin 1) k) := by
  rw [addf_apply]; unfold Cert.Spec.spread40; rw [bcastInDim_1b_ab_apply]

theorem spec_apply (a : FVec Ideal S100000x40 .f32) (b : FVec Ideal S1x40 .f32) (r : Fin 100000) (q : Fin 40) :
    Cert.Spec.biasLogSoftmaxRow a b (ix2 r q) = rowLogSoftmax (fun k => a (ix2 r k) + b (ix2 (0 : Fin 1) k)) q := by
  unfold Cert.Spec.biasLogSoftmaxRow
  rw [logSoftmax_apply]
  simp only [biased_apply]

end Cert.LogSoftmaxSpec

end
-- ==== Proof.LogSoftmax.lean ====
/-
  The bias + log-softmax stage. The grid has 50 points; point t stages rows 2000t … 2000t+1999 of the input and the
  whole bias row, and writes back, row by row, the log-softmax of the row with the bias added. Row 2000t + p of the
  output array therefore only depends on row 2000t + p of the input and on the bias row: exactly what the host's
  spelling, with the bias broadcast down all 100000 rows and the row maximum and row sum taken along the second axis,
  reads there. The 50 blocks tile the array.
-/
import proofs.«141803_j65068754534584_1_alg».proof.Proof.Gen.KernelIdeal.Frame
import proofs.«141803_j65068754534584_1_alg».proof.Proof.Spec
import proofs.«141803_j65068754534584_1_alg».proof.Proof.LogSoftmaxRow
import proofs.«141803_j65068754534584_1_alg».proof.Proof.LogSoftmaxPay
import proofs.«141803_j65068754534584_1_alg».proof.Proof.LogSoftmaxSpec
import Idealize.ShloMosaic.Lib.Pipeline.Value
import Idealize.ShloMosaic.Lib.ValueIdx

noncomputable section

namespace Cert.LogSoftmax

open Idealize.ShloMosaic Idealize.ShloMosaic.TcCoe Idealize.ShloMosaic.ValueIdx Idealize.SL.Sem Cert.KernelIdeal Cert.KernelIdeal.Gen
open Cert.LogSoftmaxRow

/-- Two rows of numbers that are the entries the two spellings read — row r of the input and the bias row — give the
    host's value at (r, q). -/
theorem join_apply (a : FVec Ideal ⟨2, ![100000, 40]⟩ .f32) (b : FVec Ideal ⟨2, ![1, 40]⟩ .f32) (u w : Fin 40 → EReal)
    (r : Fin 100000) (q : Fin 40) (hu : ∀ k, u k = a (ix2 r k)) (hw : ∀ k, w k = b (ix2 (0 : Fin 1) k)) :
    rowLogSoftmax (fun k => u k + w k) q = Cert.Spec.biasLogSoftmaxRow a b (ix2 r q) := by
  obtain rfl : u = fun k => a (ix2 r k) := funext hu
  obtain rfl : w = fun k => b (ix2 (0 : Fin 1) k) := funext hw
  exact (Cert.LogSoftmaxSpec.spec_apply a b r q).symm

theorem hz : (![0, 0] : Fin 2 → Nat) = fun _ => 0 := funext fun a => by fin_cases a <;> rfl

/-- The block indices over the grid: the input's and the output's block is (t, 0); the bias row's block is (0, 0). -/
theorem idx_facts : ∀ t : Fin cfg4.N, win4_0.index t (0 : Fin 2) = t.val ∧ win4_0.index t (1 : Fin 2) = 0
    ∧ win4_2.index t (0 : Fin 2) = t.val ∧ win4_2.index t (1 : Fin 2) = 0
    ∧ win4_1.index t (0 : Fin 2) = 0 ∧ win4_1.index t (1 : Fin 2) = 0
    ∧ t.val < 50 :=
  (by decide +kernel : ∀ t : Fin grid4.N, _)

variable (V : (c : Dev nD) → (b : Ref sig .tc) → Buf (Elt Ideal) ((c : Thread nD τ).loc b)) (c : Dev nD)

/-- What the output array ends holding. -/
abbrev G : FVec Ideal ⟨2, ![100000, 40]⟩ .f32 :=
  Cert.Spec.biasLogSoftmaxRow (V c main_v71) (V c main_v72)

/-- What point t writes back is block t of G. -/
theorem flushed_eq (t : Fin cfg4.N) :
    (dat4 (F := Ideal) V c).flushed 2 t = ((cfg4.win 2).blk t).view.read (Elt Ideal) (G V c) := by
  show (cfg4.win 2).cut (grid4.coords t) ((dat4 (F := Ideal) V c).after 2 t) = _
  rw [after4_2]
  unfold out4_2
  rw [View.canon_unit_zero hz]
  simp only [View.ld_unit_zero (S := S2000x40) hz, View.ld_unit_zero (S := S1x40) hz]
  obtain ⟨e00, e01, e20, e21, e10, e11, ht⟩ := idx_facts t
  funext j
  obtain ⟨p, q, rfl⟩ : ∃ (p : Fin 2000) (q : Fin 40), j = ix2 p q := ⟨j 0, j 1, eq_ix2 j⟩
  have hp : p.val < 2000 := p.isLt
  refine (Cert.LogSoftmaxPay.pay_apply (iblk4 V c 0 t) (iblk4 V c 1 t) p q).trans ?_
  have hr : t.val * 2000 + p.val < 100000 := by omega
  have h2 : ((cfg4.win 2).blk t).view.emb (ix2 p q) = ix2 (⟨t.val * 2000 + p.val, hr⟩ : Fin 100000) q := by
    funext a; apply Fin.ext
    match a with
    | ⟨0, _⟩ => show win4_2.index t (0 : Fin 2) * 2000 + 1 * p.val = t.val * 2000 + p.val; omega
    | ⟨1, _⟩ => show win4_2.index t (1 : Fin 2) * 40 + 1 * q.val = q.val; omega
  have h0 : ∀ k : Fin 40, ((cfg4.win 0).blk t).view.emb (ix2 p k) = ix2 (⟨t.val * 2000 + p.val, hr⟩ : Fin 100000) k := fun k => by
    funext a; apply Fin.ext
    match a with
    | ⟨0, _⟩ => show win4_0.index t (0 : Fin 2) * 2000 + 1 * p.val = t.val * 2000 + p.val; omega
    | ⟨1, _⟩ => show win4_0.index t (1 : Fin 2) * 40 + 1 * k.val = k.val; omega
  have h1 : ∀ k : Fin 40, ((cfg4.win 1).blk t).view.emb (ix2 (0 : Fin 1) k) = ix2 (0 : Fin 1) k := fun k => by
    funext a; apply Fin.ext
    match a with
    | ⟨0, _⟩ => show win4_1.index t (0 : Fin 2) * 1 + 1 * 0 = 0; omega
    | ⟨1, _⟩ => show win4_1.index t (1 : Fin 2) * 40 + 1 * k.val = k.val; omega
  have e0 : ∀ k : Fin 40, iblk4 V c 0 t (ix2 p k) = V c main_v71 (ix2 (⟨t.val * 2000 + p.val, hr⟩ : Fin 100000) k) :=
    fun k => congrArg (V c main_v71) (h0 k)
  have e1 : ∀ k : Fin 40, iblk4 V c 1 t (ix2 (0 : Fin 1) k) = V c main_v72 (ix2 (0 : Fin 1) k) :=
    fun k => congrArg (V c main_v72) (h1 k)
  refine (join_apply (V c main_v71) (V c main_v72) (fun k => iblk4 V c 0 t (ix2 p k)) (fun k => iblk4 V c 1 t (ix2 (0 : Fin 1) k))
    (⟨t.val * 2000 + p.val, hr⟩ : Fin 100000) q e0 e1).trans ?_
  exact (congrArg (G V c) h2).symm

/-- An index of the array is in point t's block iff each coordinate is in the block's range on its axis. -/
theorem mem_blk (t : Fin cfg4.N) (i : S100000x40.Idx) :
    i ∈ ((cfg4.win 2).blk t).view.set ↔ ∀ a : Fin 2, win4_2.index t a * S2000x40.size a ≤ (i a).val ∧ (i a).val < win4_2.index t a * S2000x40.size a + S2000x40.size a := by
  show i ∈ ((View.whole main_v73).slice (win4_2.rect t)).set ↔ _
  rw [View.set_slice_whole, Rect.mem_set_unit]
  exact Iff.rfl

/-- Every row r lies in the block of point r / 2000. -/
theorem cover (i : S100000x40.Idx) : ∃ t : Fin cfg4.N, (cfg4.win 2).flush t = true ∧ i ∈ ((cfg4.win 2).blk t).view.set := by
  have hi0 : (i 0).val < 100000 := (i 0).isLt
  have hi1 : (i 1).val < 40 := (i 1).isLt
  have hN : cfg4.N = 50 := N_4
  let t : Fin cfg4.N := ⟨(i 0).val / 2000, by rw [hN]; omega⟩
  obtain ⟨-, -, e20, e21, -⟩ := idx_facts t
  have htv : t.val = (i 0).val / 2000 := rfl
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 40 ≤ (i 1).val ∧ (i 1).val < win4_2.index t (1 : Fin 2) * 40 + 40; omega

/-- After the 50 grid points the output array holds the row-wise log-softmax of a + b, the bias row repeated down the rows. -/
theorem array_eq :
    (dat4 (F := Ideal) V c).arrAt 2 cfg4.N = Cert.Spec.biasLogSoftmaxRow (V c main_v71) (V c main_v72) :=
  (dat4 (F := Ideal) V c).arrAt_eq_of_cover 2 (G V c) (fun t _ => flushed_eq V c t) (cover)

end Cert.LogSoftmax

end
-- ==== Proof.KFoldW13.lean ====
/-
  The buffer contents from the third region's exit to the end of the run: the normalised activations, the second
  matrix product, its aggregation over the edges with the second bias as a row, and the log-softmax — the whole
  computation on the launch contents of the arguments.
-/
import proofs.«141803_j65068754534584_1_alg».proof.Proof.KFoldW9
import proofs.«141803_j65068754534584_1_alg».proof.Proof.BatchNorm
import proofs.«141803_j65068754534584_1_alg».proof.Proof.MatmulB
import proofs.«141803_j65068754534584_1_alg».proof.Proof.LogSoftmax

noncomputable section

namespace Cert.KRun

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The normalisation stage at equal arguments. -/
theorem bnRows_congr {a a' : FVec Ideal Cert.ReferenceIdeal.S100000x16 .f32} {p p' q q' r r' s s' : FVec Ideal Cert.ReferenceIdeal.S1x16 .f32}
    (ha : a = a') (hp : p = p') (hq : q = q') (hr : r = r') (hs : s = s') :
    Cert.Spec.bnRows a p q r s = Cert.Spec.bnRows a' p' q' r' s' := by
  rw [ha, hp, hq, hr, hs]

/-- The normalised activations on core `c`'s arguments. -/
abbrev nrm : FVec Ideal Cert.ReferenceIdeal.S100000x16 .f32 := Cert.Spec.normed (hid m c) (aGamma m c) (aBeta m c)

/-! ## After the third region -/

/-- The region's output array holds the normalised activations. -/
theorem W10_v57 : W10 m ρ c (Proc.devRef .tc main_v57) = nrm m c :=
  (W10_arr m ρ c 5).trans ((Cert.BatchNorm.array_eq (V9 m ρ) c).trans
    (bnRows_congr (W9_v45 m ρ c) (W9_v53 m ρ c) (W9_v54 m ρ c) (W9_v55 m ρ c) (W9_v56 m ρ c)))
theorem W10_v5 : W10 m ρ c (Proc.devRef .tc main_v5) = Cert.Spec.srcs (aEi m c) :=
  (W10_of_ne m ρ c main_v5 (by decide)).trans (W9_v5 m ρ c)
theorem W10_v6 : W10 m ρ c (Proc.devRef .tc main_v6) = Cert.Spec.tgts (aEi m c) :=
  (W10_of_ne m ρ c main_v6 (by decide)).trans (W9_v6 m ρ c)
theorem W10_v29 : W10 m ρ c (Proc.devRef .tc main_v29) = Cert.Spec.norm (aEi m c) :=
  (W10_of_ne m ρ c main_v29 (by decide)).trans (W9_v29 m ρ c)
theorem W10_arg4 : W10 m ρ c (Proc.devRef .tc main_arg4) = aW2 m c :=
  (W10_of_ne m ρ c main_arg4 (by decide)).trans (W9_arg4 m ρ c)
theorem W10_arg5 : W10 m ρ c (Proc.devRef .tc main_arg5) = aB2 m c :=
  (W10_of_ne m ρ c main_arg5 (by decide)).trans (W9_arg5 m ρ c)

/-! ## After the fourth region -/

/-- The region's output array holds the second matrix product. -/
theorem W11_v58 : W11 m ρ c (Proc.devRef .tc main_v58) = Cert.Spec.dot2 (nrm m c) (aW2 m c) :=
  (W11_arr m ρ c 2).trans ((Cert.MatmulB.array_eq (V10 m ρ) c).trans
    (congrArg₂ Cert.Spec.dot2 (W10_v57 m ρ c) (W10_arg4 m ρ c)))
theorem W11_v5 : W11 m ρ c (Proc.devRef .tc main_v5) = Cert.Spec.srcs (aEi m c) :=
  (W11_of_ne m ρ c main_v5 (by decide)).trans (W10_v5 m ρ c)
theorem W11_v6 : W11 m ρ c (Proc.devRef .tc main_v6) = Cert.Spec.tgts (aEi m c) :=
  (W11_of_ne m ρ c main_v6 (by decide)).trans (W10_v6 m ρ c)
theorem W11_v29 : W11 m ρ c (Proc.devRef .tc main_v29) = Cert.Spec.norm (aEi m c) :=
  (W11_of_ne m ρ c main_v29 (by decide)).trans (W10_v29 m ρ c)
theorem W11_arg5 : W11 m ρ c (Proc.devRef .tc main_arg5) = aB2 m c :=
  (W11_of_ne m ρ c main_arg5 (by decide)).trans (W10_arg5 m ρ c)

/-! ## The fifth region's entry -/

/-- The aggregation of the second product over the edges. -/
theorem W12_v71 : W12 m ρ c (Proc.devRef .tc main_v71) = Cert.Spec.agg40 (aEi m c) (Cert.Spec.dot2 (nrm m c) (aW2 m c)) :=
  ops4_v71 (W11 m ρ c) _ _ (W11_v5 m ρ c) (W11_v6 m ρ c) (W11_v29 m ρ c) (W11_v58 m ρ c)
/-- The second bias as a row. -/
theorem W12_v72 : W12 m ρ c (Proc.devRef .tc main_v72) = Cert.Spec.row40 (aB2 m c) :=
  ops4_v72 (W11 m ρ c) _ (W11_arg5 m ρ c)

/-! ## The end of the run -/

/-- The output buffer holds the whole computation on the arguments as launched. -/
theorem W13_v73 : W13 m ρ c (Proc.devRef .tc main_v73)
    = Cert.Spec.result (aX m c) (aEi m c) (aW1 m c) (aB1 m c) (aW2 m c) (aB2 m c) (aGamma m c) (aBeta m c) :=
  (W13_arr m ρ c 2).trans ((Cert.LogSoftmax.array_eq (V12 m ρ) c).trans
    (congrArg₂ Cert.Spec.biasLogSoftmaxRow (W12_v71 m ρ c) (W12_v72 m ρ c)))

end Cert.KRun

end
-- ==== Proof.KRun.lean ====
/-
  The kernel program's run: from any launch memory every execution on the TensorCores terminates, the output buffer
  holds the two-layer graph convolution (with the batch normalisation between the layers and the row-wise log-softmax
  at the end) of the arguments as launched, and the arguments are unchanged.
-/
import proofs.«141803_j65068754534584_1_alg».proof.Proof.KFoldFrame
import proofs.«141803_j65068754534584_1_alg».proof.Proof.KFoldW13

noncomputable section

namespace Cert.KRun

open Idealize.ShloMosaic Idealize.ShloMosaic.TcCoe Idealize.SL.Sem Cert.KernelIdeal Cert.KernelIdeal.Gen

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v73) = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_fold m ρ
    (fun c => Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
    (fun c => W13_v73 m ρ c)

end Cert.KRun

end
-- ==== Proof.RefValOps.lean ====
/-
  The reference program's @main as literal lists of its host operations: a table re-spelling the printed program's own
  lines (each statement without its hlo wrapper; each outlined function's lines written out at its call site over that
  call's arguments and buffer record), once cut as the printed windows (ops0, ops1, ops2) and once cut by what the
  operations compute (sA … sE), with the buffers each of those stages writes (sA_W … sE_W). Lists only; every statement about them is proved elsewhere.
-/
import proofs.«141803_j65068754534584_1_alg».proof.Proof.Gen.ReferenceIdeal
import Idealize.ShloMosaic.Lib.StableHlo.Run

noncomputable section

namespace Cert.RefRun

open Idealize.ShloMosaic Idealize.ShloMosaic.TcCoe Idealize.SL.Sem Cert.ReferenceIdeal Cert.ReferenceIdeal.Facts₀ Cert.ReferenceIdeal.Facts

variable {F : FTy → Type} [FloatOps F]

/-- @main's statements 1 … 60 (_where and relu written out): 64 operations. -/
abbrev ops0 : List (HloOp τ sig (Elt F)) :=
  [ StableHlo.binary main_arg0 main_arg2 main_v0 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    StableHlo.nullary main_v1 (iotaInDim S100000 32 0),
    StableHlo.unary main_arg1 main_v2 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v2 main_v3 rfl shapeCasts_S1x3200000_S3200000,
    StableHlo.binary main_v3 main_v1 main_v4 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg1 main_v5 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v5 main_v6 rfl shapeCasts_S1x3200000_S3200000,
    StableHlo.binary main_v6 main_v1 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v8 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S3300000x1 ![0] bcast_S3300000_S3300000x1_0 : (⟨S3300000, .i32⟩ : BufTy).Contents (Elt F) → (⟨S3300000x1, .i32⟩ : BufTy).Contents (Elt F)),
    StableHlo.ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v13 : StableHlo.TRef sig ⟨S100000, .i1⟩) (.of main_v14 : StableHlo.TRef sig ⟨S100000, .f32⟩) main_call0.v1 main_call0.v2 select,
    StableHlo.nullary main_c (constantI S_ 32 0#32),
    StableHlo.unary main_c main_v16 (broadcastInDim S3300000 ![] bcast_S_S3300000 : (⟨S_, .i32⟩ : BufTy).Contents (Elt F) → (⟨S3300000, .i32⟩ : BufTy).Contents (Elt F)),
    StableHlo.binary main_v4 main_v16 main_v17 (cmpi .slt : (⟨S3300000, .i32⟩ : BufTy).Contents (Elt F) → (⟨S3300000, .i32⟩ : BufTy).Contents (Elt F) → (⟨S3300000, .i1⟩ : BufTy).Contents (Elt F)),
    StableHlo.nullary main_c_3 (constantI S_ 32 100000#32),
    StableHlo.unary main_c_3 main_v18 (broadcastInDim S3300000 ![] bcast_S_S3300000 : (⟨S_, .i32⟩ : BufTy).Contents (Elt F) → (⟨S3300000, .i32⟩ : BufTy).Contents (Elt F)),
    StableHlo.binary main_v4 main_v18 main_v19 (addi : (⟨S3300000, .i32⟩ : BufTy).Contents (Elt F) → (⟨S3300000, .i32⟩ : BufTy).Contents (Elt F) → (⟨S3300000, .i32⟩ : BufTy).Contents (Elt F)),
    StableHlo.ternary main_v17 main_v19 main_v4 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v20 main_v21 (broadcastInDim S3300000x1 ![0] bcast_S3300000_S3300000x1_0 : (⟨S3300000, .i32⟩ : BufTy).Contents (Elt F) → (⟨S3300000x1, .i32⟩ : BufTy).Contents (Elt F)),
    StableHlo.binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_4 (constantI S_ 32 0#32),
    StableHlo.unary main_c_4 main_v23 (broadcastInDim S3300000 ![] bcast_S_S3300000 : (⟨S_, .i32⟩ : BufTy).Contents (Elt F) → (⟨S3300000, .i32⟩ : BufTy).Contents (Elt F)),
    StableHlo.binary main_v7 main_v23 main_v24 (cmpi .slt : (⟨S3300000, .i32⟩ : BufTy).Contents (Elt F) → (⟨S3300000, .i32⟩ : BufTy).Contents (Elt F) → (⟨S3300000, .i1⟩ : BufTy).Contents (Elt F)),
    StableHlo.nullary main_c_5 (constantI S_ 32 100000#32),
    StableHlo.unary main_c_5 main_v25 (broadcastInDim S3300000 ![] bcast_S_S3300000 : (⟨S_, .i32⟩ : BufTy).Contents (Elt F) → (⟨S3300000, .i32⟩ : BufTy).Contents (Elt F)),
    StableHlo.binary main_v7 main_v25 main_v26 (addi : (⟨S3300000, .i32⟩ : BufTy).Contents (Elt F) → (⟨S3300000, .i32⟩ : BufTy).Contents (Elt F) → (⟨S3300000, .i32⟩ : BufTy).Contents (Elt F)),
    StableHlo.ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v27 main_v28 (broadcastInDim S3300000x1 ![0] bcast_S3300000_S3300000x1_0 : (⟨S3300000, .i32⟩ : BufTy).Contents (Elt F) → (⟨S3300000x1, .i32⟩ : BufTy).Contents (Elt F)),
    StableHlo.binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v22 main_v29 main_v30 (mulf : (⟨S3300000, .f32⟩ : BufTy).Contents (Elt F) → (⟨S3300000, .f32⟩ : BufTy).Contents (Elt F) → (⟨S3300000, .f32⟩ : BufTy).Contents (Elt F)),
    StableHlo.unary main_v30 main_v31 (broadcastInDim S3300000x1 ![0] bcast_S3300000_S3300000x1_0 : (⟨S3300000, .f32⟩ : BufTy).Contents (Elt F) → (⟨S3300000x1, .f32⟩ : BufTy).Contents (Elt F)),
    StableHlo.nullary main_c_6 (constantI S_ 32 0#32),
    StableHlo.unary main_c_6 main_v32 (broadcastInDim S3300000 ![] bcast_S_S3300000 : (⟨S_, .i32⟩ : BufTy).Contents (Elt F) → (⟨S3300000, .i32⟩ : BufTy).Contents (Elt F)),
    StableHlo.binary main_v4 main_v32 main_v33 (cmpi .slt : (⟨S3300000, .i32⟩ : BufTy).Contents (Elt F) → (⟨S3300000, .i32⟩ : BufTy).Contents (Elt F) → (⟨S3300000, .i1⟩ : BufTy).Contents (Elt F)),
    StableHlo.nullary main_c_7 (constantI S_ 32 100000#32),
    StableHlo.unary main_c_7 main_v34 (broadcastInDim S3300000 ![] bcast_S_S3300000 : (⟨S_, .i32⟩ : BufTy).Contents (Elt F) → (⟨S3300000, .i32⟩ : BufTy).Contents (Elt F)),
    StableHlo.binary main_v4 main_v34 main_v35 (addi : (⟨S3300000, .i32⟩ : BufTy).Contents (Elt F) → (⟨S3300000, .i32⟩ : BufTy).Contents (Elt F) → (⟨S3300000, .i32⟩ : BufTy).Contents (Elt F)),
    StableHlo.ternary main_v33 main_v35 main_v4 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v36 main_v37 (broadcastInDim S3300000x1 ![0] bcast_S3300000_S3300000x1_0 : (⟨S3300000, .i32⟩ : BufTy).Contents (Elt F) → (⟨S3300000x1, .i32⟩ : BufTy).Contents (Elt F)),
    StableHlo.binary main_v0 main_v37 main_v38 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    StableHlo.unary main_v31 main_v39 (broadcastInDim S3300000x16 ![0, 1] bcast_S3300000x1_S3300000x16_0_1 : (⟨S3300000x1, .f32⟩ : BufTy).Contents (Elt F) → (⟨S3300000x16, .f32⟩ : BufTy).Contents (Elt F)),
    StableHlo.binary main_v39 main_v38 main_v40 (mulf : (⟨S3300000x16, .f32⟩ : BufTy).Contents (Elt F) → (⟨S3300000x16, .f32⟩ : BufTy).Contents (Elt F) → (⟨S3300000x16, .f32⟩ : BufTy).Contents (Elt F)),
    StableHlo.nullary main_cst_8 (constant S_ .f32 0x00000000#32),
    StableHlo.unary main_cst_8 main_v41 (broadcastInDim S100000x16 ![] bcast_S_S100000x16 : (⟨S_, .f32⟩ : BufTy).Contents (Elt F) → (⟨S100000x16, .f32⟩ : BufTy).Contents (Elt F)),
    StableHlo.unary main_v7 main_v42 (broadcastInDim S3300000x1 ![0] bcast_S3300000_S3300000x1_0 : (⟨S3300000, .i32⟩ : BufTy).Contents (Elt F) → (⟨S3300000x1, .i32⟩ : BufTy).Contents (Elt F)),
    StableHlo.ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    StableHlo.unary main_arg3 main_v44 (broadcastInDim S1x16 ![1] bcast_S16_S1x16_1 : (⟨S16, .f32⟩ : BufTy).Contents (Elt F) → (⟨S1x16, .f32⟩ : BufTy).Contents (Elt F)),
    StableHlo.unary main_v44 main_v45 (broadcastInDim S100000x16 ![0, 1] bcast_S1x16_S100000x16_0_1 : (⟨S1x16, .f32⟩ : BufTy).Contents (Elt F) → (⟨S100000x16, .f32⟩ : BufTy).Contents (Elt F)),
    StableHlo.binary main_v43 main_v45 main_v46 (addf : (⟨S100000x16, .f32⟩ : BufTy).Contents (Elt F) → (⟨S100000x16, .f32⟩ : BufTy).Contents (Elt F) → (⟨S100000x16, .f32⟩ : BufTy).Contents (Elt F)),
    StableHlo.TRef.nullary main_call1.cst (constant S_ .f32 0x00000000#32),
    StableHlo.TRef.unary main_call1.cst main_call1.v0 (broadcastInDim S100000x16 ![] bcast_S_S100000x16),
    StableHlo.TRef.binary (.of main_v46 : StableHlo.TRef sig ⟨S100000x16, .f32⟩) main_call1.v0 main_call1.v1 maximumf,
    StableHlo.nullary main_cst_9 (constant S_ .f32 0x00000000#32) ]

/-- @main's statements 61 … 120 (_var with its _where_0, and _where, written out): 83 operations. -/
abbrev ops1 : List (HloOp τ sig (Elt F)) :=
  [ StableHlo.binary main_v47 main_cst_9 main_v48 ((fun x v => Host.reduceAdd x v reducesTo_S100000x16_S16_d0 h_S_) : (⟨S100000x16, .f32⟩ : BufTy).Contents (Elt F) → (⟨S_, .f32⟩ : BufTy).Contents (Elt F) → (⟨S16, .f32⟩ : BufTy).Contents (Elt F)),
    StableHlo.nullary main_cst_10 (constant S_ .f32 0x47C35000#32),
    StableHlo.unary main_cst_10 main_v49 (broadcastInDim S16 ![] bcast_S_S16 : (⟨S_, .f32⟩ : BufTy).Contents (Elt F) → (⟨S16, .f32⟩ : BufTy).Contents (Elt F)),
    StableHlo.binary main_v48 main_v49 main_v50 (Host.divf : (⟨S16, .f32⟩ : BufTy).Contents (Elt F) → (⟨S16, .f32⟩ : BufTy).Contents (Elt F) → (⟨S16, .f32⟩ : BufTy).Contents (Elt F)),
    StableHlo.nullary main_c_11 (constantI S_ 32 0#32),
    StableHlo.TRef.nullary main_call2.cst (constant S_ .f32 0x00000000#32),
    StableHlo.TRef.binary (.of main_v47 : StableHlo.TRef sig ⟨S100000x16, .f32⟩) main_call2.cst main_call2.v0 (fun x v => Host.reduceAdd x v reducesTo_S100000x16_S16_d0 h_S_),
    StableHlo.TRef.unary main_call2.v0 main_call2.v1 (broadcastInDim S1x16 ![1] bcast_S16_S1x16_1),
    StableHlo.TRef.nullary main_call2.cst_0 (constant S_ .f32 0x47C35000#32),
    StableHlo.TRef.unary main_call2.cst_0 main_call2.v2 (broadcastInDim S1x16 ![] bcast_S_S1x16),
    StableHlo.TRef.binary main_call2.v1 main_call2.v2 main_call2.v3 Host.divf,
    StableHlo.TRef.unary main_call2.v3 main_call2.v4 (broadcastInDim S100000x16 ![0, 1] bcast_S1x16_S100000x16_0_1),
    StableHlo.TRef.binary (.of main_v47 : StableHlo.TRef sig ⟨S100000x16, .f32⟩) main_call2.v4 main_call2.v5 subf,
    StableHlo.TRef.binary main_call2.v5 main_call2.v5 main_call2.v6 mulf,
    StableHlo.TRef.unary (.of main_c_11 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x16_S16_d0 h_S_),
    StableHlo.TRef.unary main_call2.v8 main_call2.v10 (broadcastInDim S16 ![] bcast_S_S16),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S16 ![] bcast_S_S16),
    StableHlo.TRef.ternary main_call2.v12 main_call2.v11 main_call2.call0.v1 main_call2.call0.v2 (fun p a b => select (broadcastInDim S16 ![] bcast_S_S16 p) a b),
    StableHlo.unary main_v50 main_v52 (broadcastInDim S1x16 ![1] bcast_S16_S1x16_1 : (⟨S16, .f32⟩ : BufTy).Contents (Elt F) → (⟨S1x16, .f32⟩ : BufTy).Contents (Elt F)),
    StableHlo.unary main_v52 main_v53 (broadcastInDim S100000x16 ![0, 1] bcast_S1x16_S100000x16_0_1 : (⟨S1x16, .f32⟩ : BufTy).Contents (Elt F) → (⟨S100000x16, .f32⟩ : BufTy).Contents (Elt F)),
    StableHlo.binary main_v47 main_v53 main_v54 (subf : (⟨S100000x16, .f32⟩ : BufTy).Contents (Elt F) → (⟨S100000x16, .f32⟩ : BufTy).Contents (Elt F) → (⟨S100000x16, .f32⟩ : BufTy).Contents (Elt F)),
    StableHlo.nullary main_cst_12 (constant S_ .f32 0x3727C5AC#32),
    StableHlo.unary main_cst_12 main_v55 (broadcastInDim S16 ![] bcast_S_S16 : (⟨S_, .f32⟩ : BufTy).Contents (Elt F) → (⟨S16, .f32⟩ : BufTy).Contents (Elt F)),
    StableHlo.binary main_v51 main_v55 main_v56 (addf : (⟨S16, .f32⟩ : BufTy).Contents (Elt F) → (⟨S16, .f32⟩ : BufTy).Contents (Elt F) → (⟨S16, .f32⟩ : BufTy).Contents (Elt F)),
    StableHlo.unary main_v56 main_v57 (Host.rsqrt : (⟨S16, .f32⟩ : BufTy).Contents (Elt F) → (⟨S16, .f32⟩ : BufTy).Contents (Elt F)),
    StableHlo.unary main_v57 main_v58 (broadcastInDim S1x16 ![1] bcast_S16_S1x16_1 : (⟨S16, .f32⟩ : BufTy).Contents (Elt F) → (⟨S1x16, .f32⟩ : BufTy).Contents (Elt F)),
    StableHlo.unary main_v58 main_v59 (broadcastInDim S100000x16 ![0, 1] bcast_S1x16_S100000x16_0_1 : (⟨S1x16, .f32⟩ : BufTy).Contents (Elt F) → (⟨S100000x16, .f32⟩ : BufTy).Contents (Elt F)),
    StableHlo.binary main_v54 main_v59 main_v60 (mulf : (⟨S100000x16, .f32⟩ : BufTy).Contents (Elt F) → (⟨S100000x16, .f32⟩ : BufTy).Contents (Elt F) → (⟨S100000x16, .f32⟩ : BufTy).Contents (Elt F)),
    StableHlo.unary main_arg6 main_v61 (broadcastInDim S1x16 ![1] bcast_S16_S1x16_1 : (⟨S16, .f32⟩ : BufTy).Contents (Elt F) → (⟨S1x16, .f32⟩ : BufTy).Contents (Elt F)),
    StableHlo.unary main_v61 main_v62 (broadcastInDim S100000x16 ![0, 1] bcast_S1x16_S100000x16_0_1 : (⟨S1x16, .f32⟩ : BufTy).Contents (Elt F) → (⟨S100000x16, .f32⟩ : BufTy).Contents (Elt F)),
    StableHlo.binary main_v60 main_v62 main_v63 (mulf : (⟨S100000x16, .f32⟩ : BufTy).Contents (Elt F) → (⟨S100000x16, .f32⟩ : BufTy).Contents (Elt F) → (⟨S100000x16, .f32⟩ : BufTy).Contents (Elt F)),
    StableHlo.unary main_arg7 main_v64 (broadcastInDim S1x16 ![1] bcast_S16_S1x16_1 : (⟨S16, .f32⟩ : BufTy).Contents (Elt F) → (⟨S1x16, .f32⟩ : BufTy).Contents (Elt F)),
    StableHlo.unary main_v64 main_v65 (broadcastInDim S100000x16 ![0, 1] bcast_S1x16_S100000x16_0_1 : (⟨S1x16, .f32⟩ : BufTy).Contents (Elt F) → (⟨S100000x16, .f32⟩ : BufTy).Contents (Elt F)),
    StableHlo.binary main_v63 main_v65 main_v66 (addf : (⟨S100000x16, .f32⟩ : BufTy).Contents (Elt F) → (⟨S100000x16, .f32⟩ : BufTy).Contents (Elt F) → (⟨S100000x16, .f32⟩ : BufTy).Contents (Elt F)),
    StableHlo.binary main_v66 main_arg4 main_v67 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    StableHlo.nullary main_v68 (iotaInDim S100000 32 0),
    StableHlo.unary main_arg1 main_v69 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v69 main_v70 rfl shapeCasts_S1x3200000_S3200000,
    StableHlo.binary main_v70 main_v68 main_v71 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg1 main_v72 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v72 main_v73 rfl shapeCasts_S1x3200000_S3200000,
    StableHlo.binary main_v73 main_v68 main_v74 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst_13 (constant S_ .f32 0x3F800000#32),
    StableHlo.unary main_cst_13 main_v75 (broadcastInDim S3300000 ![] bcast_S_S3300000 : (⟨S_, .f32⟩ : BufTy).Contents (Elt F) → (⟨S3300000, .f32⟩ : BufTy).Contents (Elt F)),
    StableHlo.nullary main_cst_14 (constant S_ .f32 0x00000000#32),
    StableHlo.unary main_cst_14 main_v76 (broadcastInDim S100000 ![] bcast_S_S100000 : (⟨S_, .f32⟩ : BufTy).Contents (Elt F) → (⟨S100000, .f32⟩ : BufTy).Contents (Elt F)),
    StableHlo.unary main_v74 main_v77 (broadcastInDim S3300000x1 ![0] bcast_S3300000_S3300000x1_0 : (⟨S3300000, .i32⟩ : BufTy).Contents (Elt F) → (⟨S3300000x1, .i32⟩ : BufTy).Contents (Elt F)),
    StableHlo.ternary main_v76 main_v77 main_v75 main_v78 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_15 (constant S_ .f32 0x00000000#32),
    StableHlo.unary main_cst_15 main_v79 (broadcastInDim S100000 ![] bcast_S_S100000 : (⟨S_, .f32⟩ : BufTy).Contents (Elt F) → (⟨S100000, .f32⟩ : BufTy).Contents (Elt F)),
    StableHlo.binary main_v78 main_v79 main_v80 (cmpf .ogt : (⟨S100000, .f32⟩ : BufTy).Contents (Elt F) → (⟨S100000, .f32⟩ : BufTy).Contents (Elt F) → (⟨S100000, .i1⟩ : BufTy).Contents (Elt F)),
    StableHlo.unary main_v78 main_v81 (Host.rsqrt : (⟨S100000, .f32⟩ : BufTy).Contents (Elt F) → (⟨S100000, .f32⟩ : BufTy).Contents (Elt F)),
    StableHlo.nullary main_cst_16 (constant S_ .f32 0x00000000#32),
    StableHlo.TRef.unary (.of main_cst_16 : StableHlo.TRef sig ⟨S_, .f32⟩) main_call3.v0 id,
    StableHlo.TRef.unary main_call3.v0 main_call3.v1 (broadcastInDim S100000 ![] bcast_S_S100000),
    StableHlo.TRef.ternary (.of main_v80 : StableHlo.TRef sig ⟨S100000, .i1⟩) (.of main_v81 : StableHlo.TRef sig ⟨S100000, .f32⟩) main_call3.v1 main_call3.v2 select,
    StableHlo.nullary main_c_17 (constantI S_ 32 0#32),
    StableHlo.unary main_c_17 main_v83 (broadcastInDim S3300000 ![] bcast_S_S3300000 : (⟨S_, .i32⟩ : BufTy).Contents (Elt F) → (⟨S3300000, .i32⟩ : BufTy).Contents (Elt F)),
    StableHlo.binary main_v71 main_v83 main_v84 (cmpi .slt : (⟨S3300000, .i32⟩ : BufTy).Contents (Elt F) → (⟨S3300000, .i32⟩ : BufTy).Contents (Elt F) → (⟨S3300000, .i1⟩ : BufTy).Contents (Elt F)),
    StableHlo.nullary main_c_18 (constantI S_ 32 100000#32),
    StableHlo.unary main_c_18 main_v85 (broadcastInDim S3300000 ![] bcast_S_S3300000 : (⟨S_, .i32⟩ : BufTy).Contents (Elt F) → (⟨S3300000, .i32⟩ : BufTy).Contents (Elt F)),
    StableHlo.binary main_v71 main_v85 main_v86 (addi : (⟨S3300000, .i32⟩ : BufTy).Contents (Elt F) → (⟨S3300000, .i32⟩ : BufTy).Contents (Elt F) → (⟨S3300000, .i32⟩ : BufTy).Contents (Elt F)),
    StableHlo.ternary main_v84 main_v86 main_v71 main_v87 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v87 main_v88 (broadcastInDim S3300000x1 ![0] bcast_S3300000_S3300000x1_0 : (⟨S3300000, .i32⟩ : BufTy).Contents (Elt F) → (⟨S3300000x1, .i32⟩ : BufTy).Contents (Elt F)),
    StableHlo.binary main_v82 main_v88 main_v89 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_19 (constantI S_ 32 0#32),
    StableHlo.unary main_c_19 main_v90 (broadcastInDim S3300000 ![] bcast_S_S3300000 : (⟨S_, .i32⟩ : BufTy).Contents (Elt F) → (⟨S3300000, .i32⟩ : BufTy).Contents (Elt F)),
    StableHlo.binary main_v74 main_v90 main_v91 (cmpi .slt : (⟨S3300000, .i32⟩ : BufTy).Contents (Elt F) → (⟨S3300000, .i32⟩ : BufTy).Contents (Elt F) → (⟨S3300000, .i1⟩ : BufTy).Contents (Elt F)),
    StableHlo.nullary main_c_20 (constantI S_ 32 100000#32),
    StableHlo.unary main_c_20 main_v92 (broadcastInDim S3300000 ![] bcast_S_S3300000 : (⟨S_, .i32⟩ : BufTy).Contents (Elt F) → (⟨S3300000, .i32⟩ : BufTy).Contents (Elt F)),
    StableHlo.binary main_v74 main_v92 main_v93 (addi : (⟨S3300000, .i32⟩ : BufTy).Contents (Elt F) → (⟨S3300000, .i32⟩ : BufTy).Contents (Elt F) → (⟨S3300000, .i32⟩ : BufTy).Contents (Elt F)),
    StableHlo.ternary main_v91 main_v93 main_v74 main_v94 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v94 main_v95 (broadcastInDim S3300000x1 ![0] bcast_S3300000_S3300000x1_0 : (⟨S3300000, .i32⟩ : BufTy).Contents (Elt F) → (⟨S3300000x1, .i32⟩ : BufTy).Contents (Elt F)),
    StableHlo.binary main_v82 main_v95 main_v96 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)) ]

/-- @main's statements 121 … 142 (log_softmax written out): 35 operations. -/
abbrev ops2 : List (HloOp τ sig (Elt F)) :=
  [ StableHlo.binary main_v89 main_v96 main_v97 (mulf : (⟨S3300000, .f32⟩ : BufTy).Contents (Elt F) → (⟨S3300000, .f32⟩ : BufTy).Contents (Elt F) → (⟨S3300000, .f32⟩ : BufTy).Contents (Elt F)),
    StableHlo.unary main_v97 main_v98 (broadcastInDim S3300000x1 ![0] bcast_S3300000_S3300000x1_0 : (⟨S3300000, .f32⟩ : BufTy).Contents (Elt F) → (⟨S3300000x1, .f32⟩ : BufTy).Contents (Elt F)),
    StableHlo.nullary main_c_21 (constantI S_ 32 0#32),
    StableHlo.unary main_c_21 main_v99 (broadcastInDim S3300000 ![] bcast_S_S3300000 : (⟨S_, .i32⟩ : BufTy).Contents (Elt F) → (⟨S3300000, .i32⟩ : BufTy).Contents (Elt F)),
    StableHlo.binary main_v71 main_v99 main_v100 (cmpi .slt : (⟨S3300000, .i32⟩ : BufTy).Contents (Elt F) → (⟨S3300000, .i32⟩ : BufTy).Contents (Elt F) → (⟨S3300000, .i1⟩ : BufTy).Contents (Elt F)),
    StableHlo.nullary main_c_22 (constantI S_ 32 100000#32),
    StableHlo.unary main_c_22 main_v101 (broadcastInDim S3300000 ![] bcast_S_S3300000 : (⟨S_, .i32⟩ : BufTy).Contents (Elt F) → (⟨S3300000, .i32⟩ : BufTy).Contents (Elt F)),
    StableHlo.binary main_v71 main_v101 main_v102 (addi : (⟨S3300000, .i32⟩ : BufTy).Contents (Elt F) → (⟨S3300000, .i32⟩ : BufTy).Contents (Elt F) → (⟨S3300000, .i32⟩ : BufTy).Contents (Elt F)),
    StableHlo.ternary main_v100 main_v102 main_v71 main_v103 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v103 main_v104 (broadcastInDim S3300000x1 ![0] bcast_S3300000_S3300000x1_0 : (⟨S3300000, .i32⟩ : BufTy).Contents (Elt F) → (⟨S3300000x1, .i32⟩ : BufTy).Contents (Elt F)),
    StableHlo.binary main_v67 main_v104 main_v105 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    StableHlo.unary main_v98 main_v106 (broadcastInDim S3300000x40 ![0, 1] bcast_S3300000x1_S3300000x40_0_1 : (⟨S3300000x1, .f32⟩ : BufTy).Contents (Elt F) → (⟨S3300000x40, .f32⟩ : BufTy).Contents (Elt F)),
    StableHlo.binary main_v106 main_v105 main_v107 (mulf : (⟨S3300000x40, .f32⟩ : BufTy).Contents (Elt F) → (⟨S3300000x40, .f32⟩ : BufTy).Contents (Elt F) → (⟨S3300000x40, .f32⟩ : BufTy).Contents (Elt F)),
    StableHlo.nullary main_cst_23 (constant S_ .f32 0x00000000#32),
    StableHlo.unary main_cst_23 main_v108 (broadcastInDim S100000x40 ![] bcast_S_S100000x40 : (⟨S_, .f32⟩ : BufTy).Contents (Elt F) → (⟨S100000x40, .f32⟩ : BufTy).Contents (Elt F)),
    StableHlo.unary main_v74 main_v109 (broadcastInDim S3300000x1 ![0] bcast_S3300000_S3300000x1_0 : (⟨S3300000, .i32⟩ : BufTy).Contents (Elt F) → (⟨S3300000x1, .i32⟩ : BufTy).Contents (Elt F)),
    StableHlo.ternary main_v108 main_v109 main_v107 main_v110 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    StableHlo.unary main_arg5 main_v111 (broadcastInDim S1x40 ![1] bcast_S40_S1x40_1 : (⟨S40, .f32⟩ : BufTy).Contents (Elt F) → (⟨S1x40, .f32⟩ : BufTy).Contents (Elt F)),
    StableHlo.unary main_v111 main_v112 (broadcastInDim S100000x40 ![0, 1] bcast_S1x40_S100000x40_0_1 : (⟨S1x40, .f32⟩ : BufTy).Contents (Elt F) → (⟨S100000x40, .f32⟩ : BufTy).Contents (Elt F)),
    StableHlo.binary main_v110 main_v112 main_v113 (addf : (⟨S100000x40, .f32⟩ : BufTy).Contents (Elt F) → (⟨S100000x40, .f32⟩ : BufTy).Contents (Elt F) → (⟨S100000x40, .f32⟩ : BufTy).Contents (Elt F)),
    StableHlo.TRef.nullary main_call4.cst (constant S_ .f32 0xFF800000#32),
    StableHlo.TRef.binary (.of main_v113 : StableHlo.TRef sig ⟨S100000x40, .f32⟩) main_call4.cst main_call4.v0 (fun x v => Host.reduce FloatOps.maximumf x v reducesTo_S100000x40_S100000_d1 h_S_),
    StableHlo.TRef.nullary main_call4.cst_0 (constant S_ .f32 0xFF800000#32),
    StableHlo.TRef.unary main_call4.cst_0 main_call4.v1 (broadcastInDim S100000 ![] bcast_S_S100000),
    StableHlo.TRef.binary main_call4.v1 main_call4.v0 main_call4.v2 maximumf,
    StableHlo.TRef.unary main_call4.v2 main_call4.v3 (broadcastInDim S100000x1 ![0] bcast_S100000_S100000x1_0),
    StableHlo.TRef.unary main_call4.v3 main_call4.v4 (broadcastInDim S100000x40 ![0, 1] bcast_S100000x1_S100000x40_0_1),
    StableHlo.TRef.binary (.of main_v113 : StableHlo.TRef sig ⟨S100000x40, .f32⟩) main_call4.v4 main_call4.v5 subf,
    StableHlo.TRef.unary main_call4.v5 main_call4.v6 Host.exp,
    StableHlo.TRef.nullary main_call4.cst_1 (constant S_ .f32 0x00000000#32),
    StableHlo.TRef.binary main_call4.v6 main_call4.cst_1 main_call4.v7 (fun x v => Host.reduceAdd x v reducesTo_S100000x40_S100000_d1 h_S_),
    StableHlo.TRef.unary main_call4.v7 main_call4.v8 (broadcastInDim S100000x1 ![0] bcast_S100000_S100000x1_0),
    StableHlo.TRef.unary main_call4.v8 main_call4.v9 Host.log,
    StableHlo.TRef.unary main_call4.v9 main_call4.v10 (broadcastInDim S100000x40 ![0, 1] bcast_S100000x1_S100000x40_0_1),
    StableHlo.TRef.binary main_call4.v5 main_call4.v10 main_call4.v11 subf ]

/-- All 182 operations of @main, in order. -/
abbrev ops : List (HloOp τ sig (Elt F)) := ops0 ++ ops1 ++ ops2

/-- %0 … %31: the first matrix product, the edge lists, the degrees, their inverse square roots (the call of _where written out) and the edge weights. -/
abbrev sA : List (HloOp τ sig (Elt F)) :=
  [ StableHlo.binary main_arg0 main_arg2 main_v0 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    StableHlo.nullary main_v1 (iotaInDim S100000 32 0),
    StableHlo.unary main_arg1 main_v2 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v2 main_v3 rfl shapeCasts_S1x3200000_S3200000,
    StableHlo.binary main_v3 main_v1 main_v4 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg1 main_v5 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v5 main_v6 rfl shapeCasts_S1x3200000_S3200000,
    StableHlo.binary main_v6 main_v1 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v8 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S3300000x1 ![0] bcast_S3300000_S3300000x1_0 : (⟨S3300000, .i32⟩ : BufTy).Contents (Elt F) → (⟨S3300000x1, .i32⟩ : BufTy).Contents (Elt F)),
    StableHlo.ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v13 : StableHlo.TRef sig ⟨S100000, .i1⟩) (.of main_v14 : StableHlo.TRef sig ⟨S100000, .f32⟩) main_call0.v1 main_call0.v2 select,
    StableHlo.nullary main_c (constantI S_ 32 0#32),
    StableHlo.unary main_c main_v16 (broadcastInDim S3300000 ![] bcast_S_S3300000 : (⟨S_, .i32⟩ : BufTy).Contents (Elt F) → (⟨S3300000, .i32⟩ : BufTy).Contents (Elt F)),
    StableHlo.binary main_v4 main_v16 main_v17 (cmpi .slt : (⟨S3300000, .i32⟩ : BufTy).Contents (Elt F) → (⟨S3300000, .i32⟩ : BufTy).Contents (Elt F) → (⟨S3300000, .i1⟩ : BufTy).Contents (Elt F)),
    StableHlo.nullary main_c_3 (constantI S_ 32 100000#32),
    StableHlo.unary main_c_3 main_v18 (broadcastInDim S3300000 ![] bcast_S_S3300000 : (⟨S_, .i32⟩ : BufTy).Contents (Elt F) → (⟨S3300000, .i32⟩ : BufTy).Contents (Elt F)),
    StableHlo.binary main_v4 main_v18 main_v19 (addi : (⟨S3300000, .i32⟩ : BufTy).Contents (Elt F) → (⟨S3300000, .i32⟩ : BufTy).Contents (Elt F) → (⟨S3300000, .i32⟩ : BufTy).Contents (Elt F)),
    StableHlo.ternary main_v17 main_v19 main_v4 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v20 main_v21 (broadcastInDim S3300000x1 ![0] bcast_S3300000_S3300000x1_0 : (⟨S3300000, .i32⟩ : BufTy).Contents (Elt F) → (⟨S3300000x1, .i32⟩ : BufTy).Contents (Elt F)),
    StableHlo.binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_4 (constantI S_ 32 0#32),
    StableHlo.unary main_c_4 main_v23 (broadcastInDim S3300000 ![] bcast_S_S3300000 : (⟨S_, .i32⟩ : BufTy).Contents (Elt F) → (⟨S3300000, .i32⟩ : BufTy).Contents (Elt F)),
    StableHlo.binary main_v7 main_v23 main_v24 (cmpi .slt : (⟨S3300000, .i32⟩ : BufTy).Contents (Elt F) → (⟨S3300000, .i32⟩ : BufTy).Contents (Elt F) → (⟨S3300000, .i1⟩ : BufTy).Contents (Elt F)),
    StableHlo.nullary main_c_5 (constantI S_ 32 100000#32),
    StableHlo.unary main_c_5 main_v25 (broadcastInDim S3300000 ![] bcast_S_S3300000 : (⟨S_, .i32⟩ : BufTy).Contents (Elt F) → (⟨S3300000, .i32⟩ : BufTy).Contents (Elt F)),
    StableHlo.binary main_v7 main_v25 main_v26 (addi : (⟨S3300000, .i32⟩ : BufTy).Contents (Elt F) → (⟨S3300000, .i32⟩ : BufTy).Contents (Elt F) → (⟨S3300000, .i32⟩ : BufTy).Contents (Elt F)),
    StableHlo.ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v27 main_v28 (broadcastInDim S3300000x1 ![0] bcast_S3300000_S3300000x1_0 : (⟨S3300000, .i32⟩ : BufTy).Contents (Elt F) → (⟨S3300000x1, .i32⟩ : BufTy).Contents (Elt F)),
    StableHlo.binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v22 main_v29 main_v30 (mulf : (⟨S3300000, .f32⟩ : BufTy).Contents (Elt F) → (⟨S3300000, .f32⟩ : BufTy).Contents (Elt F) → (⟨S3300000, .f32⟩ : BufTy).Contents (Elt F)),
    StableHlo.unary main_v30 main_v31 (broadcastInDim S3300000x1 ![0] bcast_S3300000_S3300000x1_0 : (⟨S3300000, .f32⟩ : BufTy).Contents (Elt F) → (⟨S3300000x1, .f32⟩ : BufTy).Contents (Elt F)) ]

/-- %c_6 … %47: the first aggregation, the bias and relu written out. -/
abbrev sB : List (HloOp τ sig (Elt F)) :=
  [ StableHlo.nullary main_c_6 (constantI S_ 32 0#32),
    StableHlo.unary main_c_6 main_v32 (broadcastInDim S3300000 ![] bcast_S_S3300000 : (⟨S_, .i32⟩ : BufTy).Contents (Elt F) → (⟨S3300000, .i32⟩ : BufTy).Contents (Elt F)),
    StableHlo.binary main_v4 main_v32 main_v33 (cmpi .slt : (⟨S3300000, .i32⟩ : BufTy).Contents (Elt F) → (⟨S3300000, .i32⟩ : BufTy).Contents (Elt F) → (⟨S3300000, .i1⟩ : BufTy).Contents (Elt F)),
    StableHlo.nullary main_c_7 (constantI S_ 32 100000#32),
    StableHlo.unary main_c_7 main_v34 (broadcastInDim S3300000 ![] bcast_S_S3300000 : (⟨S_, .i32⟩ : BufTy).Contents (Elt F) → (⟨S3300000, .i32⟩ : BufTy).Contents (Elt F)),
    StableHlo.binary main_v4 main_v34 main_v35 (addi : (⟨S3300000, .i32⟩ : BufTy).Contents (Elt F) → (⟨S3300000, .i32⟩ : BufTy).Contents (Elt F) → (⟨S3300000, .i32⟩ : BufTy).Contents (Elt F)),
    StableHlo.ternary main_v33 main_v35 main_v4 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v36 main_v37 (broadcastInDim S3300000x1 ![0] bcast_S3300000_S3300000x1_0 : (⟨S3300000, .i32⟩ : BufTy).Contents (Elt F) → (⟨S3300000x1, .i32⟩ : BufTy).Contents (Elt F)),
    StableHlo.binary main_v0 main_v37 main_v38 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    StableHlo.unary main_v31 main_v39 (broadcastInDim S3300000x16 ![0, 1] bcast_S3300000x1_S3300000x16_0_1 : (⟨S3300000x1, .f32⟩ : BufTy).Contents (Elt F) → (⟨S3300000x16, .f32⟩ : BufTy).Contents (Elt F)),
    StableHlo.binary main_v39 main_v38 main_v40 (mulf : (⟨S3300000x16, .f32⟩ : BufTy).Contents (Elt F) → (⟨S3300000x16, .f32⟩ : BufTy).Contents (Elt F) → (⟨S3300000x16, .f32⟩ : BufTy).Contents (Elt F)),
    StableHlo.nullary main_cst_8 (constant S_ .f32 0x00000000#32),
    StableHlo.unary main_cst_8 main_v41 (broadcastInDim S100000x16 ![] bcast_S_S100000x16 : (⟨S_, .f32⟩ : BufTy).Contents (Elt F) → (⟨S100000x16, .f32⟩ : BufTy).Contents (Elt F)),
    StableHlo.unary main_v7 main_v42 (broadcastInDim S3300000x1 ![0] bcast_S3300000_S3300000x1_0 : (⟨S3300000, .i32⟩ : BufTy).Contents (Elt F) → (⟨S3300000x1, .i32⟩ : BufTy).Contents (Elt F)),
    StableHlo.ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    StableHlo.unary main_arg3 main_v44 (broadcastInDim S1x16 ![1] bcast_S16_S1x16_1 : (⟨S16, .f32⟩ : BufTy).Contents (Elt F) → (⟨S1x16, .f32⟩ : BufTy).Contents (Elt F)),
    StableHlo.unary main_v44 main_v45 (broadcastInDim S100000x16 ![0, 1] bcast_S1x16_S100000x16_0_1 : (⟨S1x16, .f32⟩ : BufTy).Contents (Elt F) → (⟨S100000x16, .f32⟩ : BufTy).Contents (Elt F)),
    StableHlo.binary main_v43 main_v45 main_v46 (addf : (⟨S100000x16, .f32⟩ : BufTy).Contents (Elt F) → (⟨S100000x16, .f32⟩ : BufTy).Contents (Elt F) → (⟨S100000x16, .f32⟩ : BufTy).Contents (Elt F)),
    StableHlo.TRef.nullary main_call1.cst (constant S_ .f32 0x00000000#32),
    StableHlo.TRef.unary main_call1.cst main_call1.v0 (broadcastInDim S100000x16 ![] bcast_S_S100000x16),
    StableHlo.TRef.binary (.of main_v46 : StableHlo.TRef sig ⟨S100000x16, .f32⟩) main_call1.v0 main_call1.v1 maximumf ]

/-- %cst_9 … %66: the batch statistics (_var and its _where_0 written out) and the normalisation. -/
abbrev sC : List (HloOp τ sig (Elt F)) :=
  [ StableHlo.nullary main_cst_9 (constant S_ .f32 0x00000000#32),
    StableHlo.binary main_v47 main_cst_9 main_v48 ((fun x v => Host.reduceAdd x v reducesTo_S100000x16_S16_d0 h_S_) : (⟨S100000x16, .f32⟩ : BufTy).Contents (Elt F) → (⟨S_, .f32⟩ : BufTy).Contents (Elt F) → (⟨S16, .f32⟩ : BufTy).Contents (Elt F)),
    StableHlo.nullary main_cst_10 (constant S_ .f32 0x47C35000#32),
    StableHlo.unary main_cst_10 main_v49 (broadcastInDim S16 ![] bcast_S_S16 : (⟨S_, .f32⟩ : BufTy).Contents (Elt F) → (⟨S16, .f32⟩ : BufTy).Contents (Elt F)),
    StableHlo.binary main_v48 main_v49 main_v50 (Host.divf : (⟨S16, .f32⟩ : BufTy).Contents (Elt F) → (⟨S16, .f32⟩ : BufTy).Contents (Elt F) → (⟨S16, .f32⟩ : BufTy).Contents (Elt F)),
    StableHlo.nullary main_c_11 (constantI S_ 32 0#32),
    StableHlo.TRef.nullary main_call2.cst (constant S_ .f32 0x00000000#32),
    StableHlo.TRef.binary (.of main_v47 : StableHlo.TRef sig ⟨S100000x16, .f32⟩) main_call2.cst main_call2.v0 (fun x v => Host.reduceAdd x v reducesTo_S100000x16_S16_d0 h_S_),
    StableHlo.TRef.unary main_call2.v0 main_call2.v1 (broadcastInDim S1x16 ![1] bcast_S16_S1x16_1),
    StableHlo.TRef.nullary main_call2.cst_0 (constant S_ .f32 0x47C35000#32),
    StableHlo.TRef.unary main_call2.cst_0 main_call2.v2 (broadcastInDim S1x16 ![] bcast_S_S1x16),
    StableHlo.TRef.binary main_call2.v1 main_call2.v2 main_call2.v3 Host.divf,
    StableHlo.TRef.unary main_call2.v3 main_call2.v4 (broadcastInDim S100000x16 ![0, 1] bcast_S1x16_S100000x16_0_1),
    StableHlo.TRef.binary (.of main_v47 : StableHlo.TRef sig ⟨S100000x16, .f32⟩) main_call2.v4 main_call2.v5 subf,
    StableHlo.TRef.binary main_call2.v5 main_call2.v5 main_call2.v6 mulf,
    StableHlo.TRef.unary (.of main_c_11 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x16_S16_d0 h_S_),
    StableHlo.TRef.unary main_call2.v8 main_call2.v10 (broadcastInDim S16 ![] bcast_S_S16),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S16 ![] bcast_S_S16),
    StableHlo.TRef.ternary main_call2.v12 main_call2.v11 main_call2.call0.v1 main_call2.call0.v2 (fun p a b => select (broadcastInDim S16 ![] bcast_S_S16 p) a b),
    StableHlo.unary main_v50 main_v52 (broadcastInDim S1x16 ![1] bcast_S16_S1x16_1 : (⟨S16, .f32⟩ : BufTy).Contents (Elt F) → (⟨S1x16, .f32⟩ : BufTy).Contents (Elt F)),
    StableHlo.unary main_v52 main_v53 (broadcastInDim S100000x16 ![0, 1] bcast_S1x16_S100000x16_0_1 : (⟨S1x16, .f32⟩ : BufTy).Contents (Elt F) → (⟨S100000x16, .f32⟩ : BufTy).Contents (Elt F)),
    StableHlo.binary main_v47 main_v53 main_v54 (subf : (⟨S100000x16, .f32⟩ : BufTy).Contents (Elt F) → (⟨S100000x16, .f32⟩ : BufTy).Contents (Elt F) → (⟨S100000x16, .f32⟩ : BufTy).Contents (Elt F)),
    StableHlo.nullary main_cst_12 (constant S_ .f32 0x3727C5AC#32),
    StableHlo.unary main_cst_12 main_v55 (broadcastInDim S16 ![] bcast_S_S16 : (⟨S_, .f32⟩ : BufTy).Contents (Elt F) → (⟨S16, .f32⟩ : BufTy).Contents (Elt F)),
    StableHlo.binary main_v51 main_v55 main_v56 (addf : (⟨S16, .f32⟩ : BufTy).Contents (Elt F) → (⟨S16, .f32⟩ : BufTy).Contents (Elt F) → (⟨S16, .f32⟩ : BufTy).Contents (Elt F)),
    StableHlo.unary main_v56 main_v57 (Host.rsqrt : (⟨S16, .f32⟩ : BufTy).Contents (Elt F) → (⟨S16, .f32⟩ : BufTy).Contents (Elt F)),
    StableHlo.unary main_v57 main_v58 (broadcastInDim S1x16 ![1] bcast_S16_S1x16_1 : (⟨S16, .f32⟩ : BufTy).Contents (Elt F) → (⟨S1x16, .f32⟩ : BufTy).Contents (Elt F)),
    StableHlo.unary main_v58 main_v59 (broadcastInDim S100000x16 ![0, 1] bcast_S1x16_S100000x16_0_1 : (⟨S1x16, .f32⟩ : BufTy).Contents (Elt F) → (⟨S100000x16, .f32⟩ : BufTy).Contents (Elt F)),
    StableHlo.binary main_v54 main_v59 main_v60 (mulf : (⟨S100000x16, .f32⟩ : BufTy).Contents (Elt F) → (⟨S100000x16, .f32⟩ : BufTy).Contents (Elt F) → (⟨S100000x16, .f32⟩ : BufTy).Contents (Elt F)),
    StableHlo.unary main_arg6 main_v61 (broadcastInDim S1x16 ![1] bcast_S16_S1x16_1 : (⟨S16, .f32⟩ : BufTy).Contents (Elt F) → (⟨S1x16, .f32⟩ : BufTy).Contents (Elt F)),
    StableHlo.unary main_v61 main_v62 (broadcastInDim S100000x16 ![0, 1] bcast_S1x16_S100000x16_0_1 : (⟨S1x16, .f32⟩ : BufTy).Contents (Elt F) → (⟨S100000x16, .f32⟩ : BufTy).Contents (Elt F)),
    StableHlo.binary main_v60 main_v62 main_v63 (mulf : (⟨S100000x16, .f32⟩ : BufTy).Contents (Elt F) → (⟨S100000x16, .f32⟩ : BufTy).Contents (Elt F) → (⟨S100000x16, .f32⟩ : BufTy).Contents (Elt F)),
    StableHlo.unary main_arg7 main_v64 (broadcastInDim S1x16 ![1] bcast_S16_S1x16_1 : (⟨S16, .f32⟩ : BufTy).Contents (Elt F) → (⟨S1x16, .f32⟩ : BufTy).Contents (Elt F)),
    StableHlo.unary main_v64 main_v65 (broadcastInDim S100000x16 ![0, 1] bcast_S1x16_S100000x16_0_1 : (⟨S1x16, .f32⟩ : BufTy).Contents (Elt F) → (⟨S100000x16, .f32⟩ : BufTy).Contents (Elt F)),
    StableHlo.binary main_v63 main_v65 main_v66 (addf : (⟨S100000x16, .f32⟩ : BufTy).Contents (Elt F) → (⟨S100000x16, .f32⟩ : BufTy).Contents (Elt F) → (⟨S100000x16, .f32⟩ : BufTy).Contents (Elt F)) ]

/-- %67 … %98: the second matrix product, and the edge lists, degrees and edge weights a second time (_where written out). -/
abbrev sD : List (HloOp τ sig (Elt F)) :=
  [ StableHlo.binary main_v66 main_arg4 main_v67 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    StableHlo.nullary main_v68 (iotaInDim S100000 32 0),
    StableHlo.unary main_arg1 main_v69 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v69 main_v70 rfl shapeCasts_S1x3200000_S3200000,
    StableHlo.binary main_v70 main_v68 main_v71 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg1 main_v72 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v72 main_v73 rfl shapeCasts_S1x3200000_S3200000,
    StableHlo.binary main_v73 main_v68 main_v74 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst_13 (constant S_ .f32 0x3F800000#32),
    StableHlo.unary main_cst_13 main_v75 (broadcastInDim S3300000 ![] bcast_S_S3300000 : (⟨S_, .f32⟩ : BufTy).Contents (Elt F) → (⟨S3300000, .f32⟩ : BufTy).Contents (Elt F)),
    StableHlo.nullary main_cst_14 (constant S_ .f32 0x00000000#32),
    StableHlo.unary main_cst_14 main_v76 (broadcastInDim S100000 ![] bcast_S_S100000 : (⟨S_, .f32⟩ : BufTy).Contents (Elt F) → (⟨S100000, .f32⟩ : BufTy).Contents (Elt F)),
    StableHlo.unary main_v74 main_v77 (broadcastInDim S3300000x1 ![0] bcast_S3300000_S3300000x1_0 : (⟨S3300000, .i32⟩ : BufTy).Contents (Elt F) → (⟨S3300000x1, .i32⟩ : BufTy).Contents (Elt F)),
    StableHlo.ternary main_v76 main_v77 main_v75 main_v78 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_15 (constant S_ .f32 0x00000000#32),
    StableHlo.unary main_cst_15 main_v79 (broadcastInDim S100000 ![] bcast_S_S100000 : (⟨S_, .f32⟩ : BufTy).Contents (Elt F) → (⟨S100000, .f32⟩ : BufTy).Contents (Elt F)),
    StableHlo.binary main_v78 main_v79 main_v80 (cmpf .ogt : (⟨S100000, .f32⟩ : BufTy).Contents (Elt F) → (⟨S100000, .f32⟩ : BufTy).Contents (Elt F) → (⟨S100000, .i1⟩ : BufTy).Contents (Elt F)),
    StableHlo.unary main_v78 main_v81 (Host.rsqrt : (⟨S100000, .f32⟩ : BufTy).Contents (Elt F) → (⟨S100000, .f32⟩ : BufTy).Contents (Elt F)),
    StableHlo.nullary main_cst_16 (constant S_ .f32 0x00000000#32),
    StableHlo.TRef.unary (.of main_cst_16 : StableHlo.TRef sig ⟨S_, .f32⟩) main_call3.v0 id,
    StableHlo.TRef.unary main_call3.v0 main_call3.v1 (broadcastInDim S100000 ![] bcast_S_S100000),
    StableHlo.TRef.ternary (.of main_v80 : StableHlo.TRef sig ⟨S100000, .i1⟩) (.of main_v81 : StableHlo.TRef sig ⟨S100000, .f32⟩) main_call3.v1 main_call3.v2 select,
    StableHlo.nullary main_c_17 (constantI S_ 32 0#32),
    StableHlo.unary main_c_17 main_v83 (broadcastInDim S3300000 ![] bcast_S_S3300000 : (⟨S_, .i32⟩ : BufTy).Contents (Elt F) → (⟨S3300000, .i32⟩ : BufTy).Contents (Elt F)),
    StableHlo.binary main_v71 main_v83 main_v84 (cmpi .slt : (⟨S3300000, .i32⟩ : BufTy).Contents (Elt F) → (⟨S3300000, .i32⟩ : BufTy).Contents (Elt F) → (⟨S3300000, .i1⟩ : BufTy).Contents (Elt F)),
    StableHlo.nullary main_c_18 (constantI S_ 32 100000#32),
    StableHlo.unary main_c_18 main_v85 (broadcastInDim S3300000 ![] bcast_S_S3300000 : (⟨S_, .i32⟩ : BufTy).Contents (Elt F) → (⟨S3300000, .i32⟩ : BufTy).Contents (Elt F)),
    StableHlo.binary main_v71 main_v85 main_v86 (addi : (⟨S3300000, .i32⟩ : BufTy).Contents (Elt F) → (⟨S3300000, .i32⟩ : BufTy).Contents (Elt F) → (⟨S3300000, .i32⟩ : BufTy).Contents (Elt F)),
    StableHlo.ternary main_v84 main_v86 main_v71 main_v87 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v87 main_v88 (broadcastInDim S3300000x1 ![0] bcast_S3300000_S3300000x1_0 : (⟨S3300000, .i32⟩ : BufTy).Contents (Elt F) → (⟨S3300000x1, .i32⟩ : BufTy).Contents (Elt F)),
    StableHlo.binary main_v82 main_v88 main_v89 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_19 (constantI S_ 32 0#32),
    StableHlo.unary main_c_19 main_v90 (broadcastInDim S3300000 ![] bcast_S_S3300000 : (⟨S_, .i32⟩ : BufTy).Contents (Elt F) → (⟨S3300000, .i32⟩ : BufTy).Contents (Elt F)),
    StableHlo.binary main_v74 main_v90 main_v91 (cmpi .slt : (⟨S3300000, .i32⟩ : BufTy).Contents (Elt F) → (⟨S3300000, .i32⟩ : BufTy).Contents (Elt F) → (⟨S3300000, .i1⟩ : BufTy).Contents (Elt F)),
    StableHlo.nullary main_c_20 (constantI S_ 32 100000#32),
    StableHlo.unary main_c_20 main_v92 (broadcastInDim S3300000 ![] bcast_S_S3300000 : (⟨S_, .i32⟩ : BufTy).Contents (Elt F) → (⟨S3300000, .i32⟩ : BufTy).Contents (Elt F)),
    StableHlo.binary main_v74 main_v92 main_v93 (addi : (⟨S3300000, .i32⟩ : BufTy).Contents (Elt F) → (⟨S3300000, .i32⟩ : BufTy).Contents (Elt F) → (⟨S3300000, .i32⟩ : BufTy).Contents (Elt F)),
    StableHlo.ternary main_v91 main_v93 main_v74 main_v94 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v94 main_v95 (broadcastInDim S3300000x1 ![0] bcast_S3300000_S3300000x1_0 : (⟨S3300000, .i32⟩ : BufTy).Contents (Elt F) → (⟨S3300000x1, .i32⟩ : BufTy).Contents (Elt F)),
    StableHlo.binary main_v82 main_v95 main_v96 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v89 main_v96 main_v97 (mulf : (⟨S3300000, .f32⟩ : BufTy).Contents (Elt F) → (⟨S3300000, .f32⟩ : BufTy).Contents (Elt F) → (⟨S3300000, .f32⟩ : BufTy).Contents (Elt F)),
    StableHlo.unary main_v97 main_v98 (broadcastInDim S3300000x1 ![0] bcast_S3300000_S3300000x1_0 : (⟨S3300000, .f32⟩ : BufTy).Contents (Elt F) → (⟨S3300000x1, .f32⟩ : BufTy).Contents (Elt F)) ]

/-- %c_21 … %114: the second aggregation, the bias and log_softmax written out. -/
abbrev sE : List (HloOp τ sig (Elt F)) :=
  [ StableHlo.nullary main_c_21 (constantI S_ 32 0#32),
    StableHlo.unary main_c_21 main_v99 (broadcastInDim S3300000 ![] bcast_S_S3300000 : (⟨S_, .i32⟩ : BufTy).Contents (Elt F) → (⟨S3300000, .i32⟩ : BufTy).Contents (Elt F)),
    StableHlo.binary main_v71 main_v99 main_v100 (cmpi .slt : (⟨S3300000, .i32⟩ : BufTy).Contents (Elt F) → (⟨S3300000, .i32⟩ : BufTy).Contents (Elt F) → (⟨S3300000, .i1⟩ : BufTy).Contents (Elt F)),
    StableHlo.nullary main_c_22 (constantI S_ 32 100000#32),
    StableHlo.unary main_c_22 main_v101 (broadcastInDim S3300000 ![] bcast_S_S3300000 : (⟨S_, .i32⟩ : BufTy).Contents (Elt F) → (⟨S3300000, .i32⟩ : BufTy).Contents (Elt F)),
    StableHlo.binary main_v71 main_v101 main_v102 (addi : (⟨S3300000, .i32⟩ : BufTy).Contents (Elt F) → (⟨S3300000, .i32⟩ : BufTy).Contents (Elt F) → (⟨S3300000, .i32⟩ : BufTy).Contents (Elt F)),
    StableHlo.ternary main_v100 main_v102 main_v71 main_v103 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v103 main_v104 (broadcastInDim S3300000x1 ![0] bcast_S3300000_S3300000x1_0 : (⟨S3300000, .i32⟩ : BufTy).Contents (Elt F) → (⟨S3300000x1, .i32⟩ : BufTy).Contents (Elt F)),
    StableHlo.binary main_v67 main_v104 main_v105 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    StableHlo.unary main_v98 main_v106 (broadcastInDim S3300000x40 ![0, 1] bcast_S3300000x1_S3300000x40_0_1 : (⟨S3300000x1, .f32⟩ : BufTy).Contents (Elt F) → (⟨S3300000x40, .f32⟩ : BufTy).Contents (Elt F)),
    StableHlo.binary main_v106 main_v105 main_v107 (mulf : (⟨S3300000x40, .f32⟩ : BufTy).Contents (Elt F) → (⟨S3300000x40, .f32⟩ : BufTy).Contents (Elt F) → (⟨S3300000x40, .f32⟩ : BufTy).Contents (Elt F)),
    StableHlo.nullary main_cst_23 (constant S_ .f32 0x00000000#32),
    StableHlo.unary main_cst_23 main_v108 (broadcastInDim S100000x40 ![] bcast_S_S100000x40 : (⟨S_, .f32⟩ : BufTy).Contents (Elt F) → (⟨S100000x40, .f32⟩ : BufTy).Contents (Elt F)),
    StableHlo.unary main_v74 main_v109 (broadcastInDim S3300000x1 ![0] bcast_S3300000_S3300000x1_0 : (⟨S3300000, .i32⟩ : BufTy).Contents (Elt F) → (⟨S3300000x1, .i32⟩ : BufTy).Contents (Elt F)),
    StableHlo.ternary main_v108 main_v109 main_v107 main_v110 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    StableHlo.unary main_arg5 main_v111 (broadcastInDim S1x40 ![1] bcast_S40_S1x40_1 : (⟨S40, .f32⟩ : BufTy).Contents (Elt F) → (⟨S1x40, .f32⟩ : BufTy).Contents (Elt F)),
    StableHlo.unary main_v111 main_v112 (broadcastInDim S100000x40 ![0, 1] bcast_S1x40_S100000x40_0_1 : (⟨S1x40, .f32⟩ : BufTy).Contents (Elt F) → (⟨S100000x40, .f32⟩ : BufTy).Contents (Elt F)),
    StableHlo.binary main_v110 main_v112 main_v113 (addf : (⟨S100000x40, .f32⟩ : BufTy).Contents (Elt F) → (⟨S100000x40, .f32⟩ : BufTy).Contents (Elt F) → (⟨S100000x40, .f32⟩ : BufTy).Contents (Elt F)),
    StableHlo.TRef.nullary main_call4.cst (constant S_ .f32 0xFF800000#32),
    StableHlo.TRef.binary (.of main_v113 : StableHlo.TRef sig ⟨S100000x40, .f32⟩) main_call4.cst main_call4.v0 (fun x v => Host.reduce FloatOps.maximumf x v reducesTo_S100000x40_S100000_d1 h_S_),
    StableHlo.TRef.nullary main_call4.cst_0 (constant S_ .f32 0xFF800000#32),
    StableHlo.TRef.unary main_call4.cst_0 main_call4.v1 (broadcastInDim S100000 ![] bcast_S_S100000),
    StableHlo.TRef.binary main_call4.v1 main_call4.v0 main_call4.v2 maximumf,
    StableHlo.TRef.unary main_call4.v2 main_call4.v3 (broadcastInDim S100000x1 ![0] bcast_S100000_S100000x1_0),
    StableHlo.TRef.unary main_call4.v3 main_call4.v4 (broadcastInDim S100000x40 ![0, 1] bcast_S100000x1_S100000x40_0_1),
    StableHlo.TRef.binary (.of main_v113 : StableHlo.TRef sig ⟨S100000x40, .f32⟩) main_call4.v4 main_call4.v5 subf,
    StableHlo.TRef.unary main_call4.v5 main_call4.v6 Host.exp,
    StableHlo.TRef.nullary main_call4.cst_1 (constant S_ .f32 0x00000000#32),
    StableHlo.TRef.binary main_call4.v6 main_call4.cst_1 main_call4.v7 (fun x v => Host.reduceAdd x v reducesTo_S100000x40_S100000_d1 h_S_),
    StableHlo.TRef.unary main_call4.v7 main_call4.v8 (broadcastInDim S100000x1 ![0] bcast_S100000_S100000x1_0),
    StableHlo.TRef.unary main_call4.v8 main_call4.v9 Host.log,
    StableHlo.TRef.unary main_call4.v9 main_call4.v10 (broadcastInDim S100000x40 ![0, 1] bcast_S100000x1_S100000x40_0_1),
    StableHlo.TRef.binary main_call4.v5 main_call4.v10 main_call4.v11 subf ]

/-- The buffers the operations of sA write, in order. -/
abbrev sA_W : List (Ref sig .tc) :=
  [main_v0, main_v1, main_v2, main_v3, main_v4, main_v5, main_v6, main_v7, main_cst, main_v8, main_cst_0, main_v9, main_v10, main_v11, main_cst_1, main_v12, main_v13, main_v14, main_cst_2, main_call0_v0, main_call0_v1, main_v15, main_c, main_v16, main_v17, main_c_3, main_v18, main_v19, main_v20, main_v21, main_v22, main_c_4, main_v23, main_v24, main_c_5, main_v25, main_v26, main_v27, main_v28, main_v29, main_v30, main_v31]

/-- The buffers the operations of sB write, in order. -/
abbrev sB_W : List (Ref sig .tc) :=
  [main_c_6, main_v32, main_v33, main_c_7, main_v34, main_v35, main_v36, main_v37, main_v38, main_v39, main_v40, main_cst_8, main_v41, main_v42, main_v43, main_v44, main_v45, main_v46, main_call1_cst, main_call1_v0, main_v47]

/-- The buffers the operations of sC write, in order. -/
abbrev sC_W : List (Ref sig .tc) :=
  [main_cst_9, main_v48, main_cst_10, main_v49, main_v50, main_c_11, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v51, main_v52, main_v53, main_v54, main_cst_12, main_v55, main_v56, main_v57, main_v58, main_v59, main_v60, main_v61, main_v62, main_v63, main_v64, main_v65, main_v66]

/-- The buffers the operations of sD write, in order. -/
abbrev sD_W : List (Ref sig .tc) :=
  [main_v67, main_v68, main_v69, main_v70, main_v71, main_v72, main_v73, main_v74, main_cst_13, main_v75, main_cst_14, main_v76, main_v77, main_v78, main_cst_15, main_v79, main_v80, main_v81, main_cst_16, main_call3_v0, main_call3_v1, main_v82, main_c_17, main_v83, main_v84, main_c_18, main_v85, main_v86, main_v87, main_v88, main_v89, main_c_19, main_v90, main_v91, main_c_20, main_v92, main_v93, main_v94, main_v95, main_v96, main_v97, main_v98]

/-- The buffers the operations of sE write, in order. -/
abbrev sE_W : List (Ref sig .tc) :=
  [main_c_21, main_v99, main_v100, main_c_22, main_v101, main_v102, main_v103, main_v104, main_v105, main_v106, main_v107, main_cst_23, main_v108, main_v109, main_v110, main_v111, main_v112, main_v113, main_call4_cst, main_call4_v0, main_call4_cst_0, main_call4_v1, main_call4_v2, main_call4_v3, main_call4_v4, main_call4_v5, main_call4_v6, main_call4_cst_1, main_call4_v7, main_call4_v8, main_call4_v9, main_call4_v10, main_v114]

end Cert.RefRun

end
-- ==== Proof.RefValMain.lean ====
/-
  The reference program's @main is the straight line of its 182 host operations: each printed window is the line of
  its own operations once the outlined functions' definitions are unfolded at their calls and the sequencing is
  reassociated, and the three windows run in order are the concatenation run as one. Every operation touches
  TensorCore buffers only and determines its result; the signature scopes no buffer and no semaphore.
-/
import proofs.«141803_j65068754534584_1_alg».proof.Proof.RefValOps

noncomputable section

namespace Cert.RefRun

open Idealize.ShloMosaic Idealize.ShloMosaic.TcCoe Idealize.SL.Sem Cert.ReferenceIdeal Cert.ReferenceIdeal.Facts₀ Cert.ReferenceIdeal.Facts

variable {F : FTy → Type} [FloatOps F]

/-! ## @main as the line of operations -/

set_option maxRecDepth 8192 in
/-- Statements 1 … 60: `_where` and `relu` unfold at their calls to their three operations each. -/
theorem part0_eq (c : Dev nD) : main_part0 (F := F) c = StableHlo.seq ops0 := by
  simp only [main_part0, fn_where.body, fn_relu.body, StableHlo.seq, bind_assoc, pure_bind]
  rfl

set_option maxRecDepth 8192 in
/-- Statements 61 … 120: `_var` unfolds to its twenty operations and `_where_0`'s three, `_where` to its three. -/
theorem part1_eq (c : Dev nD) : main_part1 (F := F) c = StableHlo.seq ops1 := by
  simp only [main_part1, fn_var.body, fn_where_0.body, fn_where.body, StableHlo.seq, bind_assoc, pure_bind]
  rfl

set_option maxRecDepth 8192 in
/-- Statements 121 … 142: `log_softmax` unfolds to its fifteen operations. -/
theorem part2_eq (c : Dev nD) : main_part2 (F := F) c = StableHlo.seq ops2 := by
  simp only [main_part2, fn_log_softmax.body, StableHlo.seq, bind_assoc, pure_bind]

/-- @main runs the three windows in order: the concatenation of their lines run as one. -/
theorem main_eq (c : Dev nD) : main (F := F) c = StableHlo.seq ops := by
  show main (F := F) c = StableHlo.seq (ops0 ++ ops1 ++ ops2)
  rw [StableHlo.seq_append, StableHlo.seq_append, bind_assoc, ← part0_eq c, ← part1_eq c, ← part2_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem ops1_sub : (ops1 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem ops2_sub : (ops2 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]

/-- A property of every operation of the three windows is one of every operation of @main. -/
theorem forall_ops {p : HloOp τ sig (Elt F) → Prop} (h0 : (ops0 : List (HloOp τ sig (Elt F))).Forall p)
    (h1 : (ops1 : List (HloOp τ sig (Elt F))).Forall p) (h2 : (ops2 : List (HloOp τ sig (Elt F))).Forall p) :
    ∀ op ∈ (ops : List (HloOp τ sig (Elt F))), p op := by
  intro op h
  rcases List.mem_append.1 h with h | h
  · rcases List.mem_append.1 h with h | h
    · exact List.forall_iff_forall_mem.1 h0 op h
    · exact List.forall_iff_forall_mem.1 h1 op h
  · exact List.forall_iff_forall_mem.1 h2 op h

theorem ops_sub : (ops : List (HloOp τ sig (Elt F))).Forall fun op => op.bufs ⊆ StableHlo.tcRefs τ sig :=
  List.forall_iff_forall_mem.2 (forall_ops ops0_sub ops1_sub ops2_sub)

theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor

/-- No operation allocates: each determines the buffer it writes. -/
theorem ops_fresh : ∀ op ∈ (ops : List (HloOp τ sig (Elt F))), op.fresh = ∅ :=
  forall_ops ops0_fresh ops1_fresh ops2_fresh

end Cert.RefRun

end
-- ==== Proof.RefValTac.lean ====
/-
  One tactic for reading a line of host operations back: the loop that rewrites each operation's result at the buffer
  it writes to its function's value, and at any other buffer to what was there before, outermost first. It finishes
  what a single simplification pass leaves under an operand list (the two operands of a concatenation).
-/
import Idealize.ShloMosaic.Lib.StableHlo.Run

namespace Cert.RefRun

open Idealize.ShloMosaic Idealize.ShloMosaic.StableHlo

/-- Rewrites `(op).result V b` for the builders' operations over literal references until none is left. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

end Cert.RefRun
-- ==== Proof.RefValA.lean ====
/-
  Stage A of the reference's run, over any contents W of the buffers before it (operations %0 … %31): the first
  matrix product, the two edge lists with their self loops, and the edge weights — the in-degrees by a scatter-add of
  ones along the targets, their inverse square roots where positive (zero elsewhere), gathered at both ends of every
  edge and multiplied — are the specification's named terms of the arguments; a buffer the stage does not write keeps
  its contents.
-/
import proofs.«141803_j65068754534584_1_alg».proof.Proof.RefValOps
import proofs.«141803_j65068754534584_1_alg».proof.Proof.RefValTac
import proofs.«141803_j65068754534584_1_alg».proof.Proof.Spec
import Idealize.ShloMosaic.Lib.Pipeline.Frame

noncomputable section

namespace Cert.RefRun

open Idealize.ShloMosaic Idealize.ShloMosaic.TcCoe Idealize.SL.Sem Idealize.ShloMosaic.StableHlo Cert.ReferenceIdeal Cert.ReferenceIdeal.Facts₀ Cert.ReferenceIdeal.Facts

local notation "𝔽" => Ideal

/-- A change of type along an equation between one type and itself changes nothing. -/
private theorem cast_self {α : Sort _} (h : α = α) (a : α) : cast h a = a := eq_of_heq (cast_heq h a)

/-! ## Stage A: the first matrix product, the edge lists, the edge weights -/

attribute [local irreducible] Host.reduce Host.reduceAdd Host.gather Host.scatterAdd cmpf in
/-- %0 is the first matrix product of the arguments. -/
theorem A_v0 (W : Valuation τ sig (Elt 𝔽)) :
    after (sA (F := 𝔽)) W (main_v0 : DevRef τ sig) = Cert.Spec.dot1 (W (main_arg0 : DevRef τ sig)) (W (main_arg2 : DevRef τ sig)) := by
  after_results_simp
  rfl

attribute [local irreducible] Host.reduce Host.reduceAdd Host.gather Host.scatterAdd cmpf in
/-- %4 is the sources of all edges. -/
theorem A_v4 (W : Valuation τ sig (Elt 𝔽)) :
    after (sA (F := 𝔽)) W (main_v4 : DevRef τ sig) = Cert.Spec.srcs (W (main_arg1 : DevRef τ sig)) := by
  after_results_simp
  results_rw
  simp only [TRef.toBuf, TRef.ofBuf, cast_self]
  rfl

attribute [local irreducible] Host.reduce Host.reduceAdd Host.gather Host.scatterAdd cmpf in
/-- %7 is the targets of all edges. -/
theorem A_v7 (W : Valuation τ sig (Elt 𝔽)) :
    after (sA (F := 𝔽)) W (main_v7 : DevRef τ sig) = Cert.Spec.tgts (W (main_arg1 : DevRef τ sig)) := by
  after_results_simp
  results_rw
  simp only [TRef.toBuf, TRef.ofBuf, cast_self]
  rfl

attribute [local irreducible] Host.reduce Host.reduceAdd Host.gather Host.scatterAdd cmpf in
/-- %31 is the edge weights as a column. -/
theorem A_v31 (W : Valuation τ sig (Elt 𝔽)) :
    after (sA (F := 𝔽)) W (main_v31 : DevRef τ sig) = Cert.Spec.normCol (W (main_arg1 : DevRef τ sig)) := by
  after_results_simp
  results_rw
  simp only [TRef.toBuf, TRef.ofBuf, cast_self]
  rfl

theorem sA_writes : (sA (F := 𝔽)).Forall fun op => op.writes ⊆ (sA_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- A buffer stage A does not write keeps its contents through it. -/
theorem A_keep (W : Valuation τ sig (Elt 𝔽)) (r : Ref sig .tc) (h : r ∉ sA_W) :
    after (sA (F := 𝔽)) W (Proc.devRef .tc r) = W (Proc.devRef .tc r) :=
  after_of_writes_sub sA W sA_writes h

end Cert.RefRun

end
-- ==== Proof.RefValB.lean ====
/-
  Stage B of the reference's run, over any contents W of the buffers before it (operations %c_6 … %47): the first
  aggregation — the rows of the first product gathered at the edges' sources, scaled by the edge weights, scatter-added
  at the targets into zeros —, the bias and the rectifier, as the specification's terms of the buffers the stage reads;
  a buffer the stage does not write keeps its contents.
-/
import proofs.«141803_j65068754534584_1_alg».proof.Proof.RefValOps
import proofs.«141803_j65068754534584_1_alg».proof.Proof.RefValTac
import proofs.«141803_j65068754534584_1_alg».proof.Proof.Spec
import Idealize.ShloMosaic.Lib.Pipeline.Frame

noncomputable section

namespace Cert.RefRun

open Idealize.ShloMosaic Idealize.ShloMosaic.TcCoe Idealize.SL.Sem Idealize.ShloMosaic.StableHlo Cert.ReferenceIdeal Cert.ReferenceIdeal.Facts₀ Cert.ReferenceIdeal.Facts

local notation "𝔽" => Ideal

/-- A change of type along an equation between one type and itself changes nothing. -/
private theorem cast_self {α : Sort _} (h : α = α) (a : α) : cast h a = a := eq_of_heq (cast_heq h a)

/-! ## Stage B: the first aggregation, the bias, the rectifier -/

/-- The aggregation over 16 columns from given edge lists and edge weights. -/
def agg16' (s t : IVec S3300000 32) (nc : FVec 𝔽 S3300000x1 .f32) (xw : FVec 𝔽 S100000x16 .f32) : FVec 𝔽 S100000x16 .f32 :=
  Host.scatterAdd (F := 𝔽) scatter_S100000x16_S3300000x1_S3300000x16_1_0_0_1
    (broadcastInDim S100000x16 ![] bcast_S_S100000x16 (constant (F := 𝔽) S_ .f32 0x00000000#32))
    (Cert.Spec.col t)
    (mulf (broadcastInDim S3300000x16 ![0, 1] bcast_S3300000x1_S3300000x16_0_1 nc)
          (Host.gather gather_S100000x16_S3300000x1_S3300000x16_1_0_n_n_0_1_116 xw (Cert.Spec.wrap s)))

/-- The specification's aggregation is this one at the edge list's own sources, targets and weights. -/
theorem agg16_eq (ei : IVec S2x3200000 32) (xw : FVec 𝔽 S100000x16 .f32) :
    Cert.Spec.agg16 ei xw = agg16' (Cert.Spec.srcs ei) (Cert.Spec.tgts ei) (Cert.Spec.normCol ei) xw := rfl

attribute [local irreducible] Host.reduce Host.reduceAdd Host.gather Host.scatterAdd cmpf in
/-- %47 is the rectified, biased aggregation of %0 along the edges %4 → %7 with the weights %31. -/
theorem B_v47 (W : Valuation τ sig (Elt 𝔽)) :
    after (sB (F := 𝔽)) W (main_v47 : DevRef τ sig) = Cert.Spec.biasReluRow (agg16' (W (main_v4 : DevRef τ sig)) (W (main_v7 : DevRef τ sig)) (W (main_v31 : DevRef τ sig)) (W (main_v0 : DevRef τ sig))) (Cert.Spec.row16 (W (main_arg3 : DevRef τ sig))) := by
  after_results_simp
  results_rw
  simp only [TRef.toBuf, TRef.ofBuf, cast_self]
  rfl

theorem sB_writes : (sB (F := 𝔽)).Forall fun op => op.writes ⊆ (sB_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- A buffer stage B does not write keeps its contents through it. -/
theorem B_keep (W : Valuation τ sig (Elt 𝔽)) (r : Ref sig .tc) (h : r ∉ sB_W) :
    after (sB (F := 𝔽)) W (Proc.devRef .tc r) = W (Proc.devRef .tc r) :=
  after_of_writes_sub sB W sB_writes h

end Cert.RefRun

end
-- ==== Proof.RefValC.lean ====
/-
  Stage C of the reference's run, over any contents W of the buffers before it (operations %cst_9 … %66): the column
  means, the column variances (the mean of the squared deviations, selected against the not-a-number constant by the
  comparison of the divisor with zero, which is kept as the folded term it is) and the normalisation with its scale and
  shift, as the specification's term of the buffers the stage reads; a buffer the stage does not write keeps its contents.
-/
import proofs.«141803_j65068754534584_1_alg».proof.Proof.RefValOps
import proofs.«141803_j65068754534584_1_alg».proof.Proof.RefValTac
import proofs.«141803_j65068754534584_1_alg».proof.Proof.Spec
import Idealize.ShloMosaic.Lib.Pipeline.Frame

noncomputable section

namespace Cert.RefRun

open Idealize.ShloMosaic Idealize.ShloMosaic.TcCoe Idealize.SL.Sem Idealize.ShloMosaic.StableHlo Cert.ReferenceIdeal Cert.ReferenceIdeal.Facts₀ Cert.ReferenceIdeal.Facts

local notation "𝔽" => Ideal

/-- A change of type along an equation between one type and itself changes nothing. -/
private theorem cast_self {α : Sort _} (h : α = α) (a : α) : cast h a = a := eq_of_heq (cast_heq h a)

/-! ## Stage C: the batch statistics and the normalisation -/

attribute [local irreducible] Host.reduce Host.reduceAdd Host.gather Host.scatterAdd cmpf in
/-- %66 is %47 normalised by its column means and variances, scaled and shifted by the two parameter vectors. -/
theorem C_v66 (W : Valuation τ sig (Elt 𝔽)) :
    after (sC (F := 𝔽)) W (main_v66 : DevRef τ sig) = Cert.Spec.normed (W (main_v47 : DevRef τ sig)) (W (main_arg6 : DevRef τ sig)) (W (main_arg7 : DevRef τ sig)) := by
  after_results_simp
  results_rw
  simp only [TRef.toBuf, TRef.ofBuf, cast_self]
  rfl

theorem sC_writes : (sC (F := 𝔽)).Forall fun op => op.writes ⊆ (sC_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- A buffer stage C does not write keeps its contents through it. -/
theorem C_keep (W : Valuation τ sig (Elt 𝔽)) (r : Ref sig .tc) (h : r ∉ sC_W) :
    after (sC (F := 𝔽)) W (Proc.devRef .tc r) = W (Proc.devRef .tc r) :=
  after_of_writes_sub sC W sC_writes h

end Cert.RefRun

end
-- ==== Proof.RefValD.lean ====
/-
  Stage D of the reference's run, over any contents W of the buffers before it (operations %67 … %98): the second
  matrix product, and — computed a second time by the same operations — the two edge lists with their self loops and the
  edge weights are the specification's named terms of the buffers the stage reads; a buffer the stage does not write
  keeps its contents.
-/
import proofs.«141803_j65068754534584_1_alg».proof.Proof.RefValOps
import proofs.«141803_j65068754534584_1_alg».proof.Proof.RefValTac
import proofs.«141803_j65068754534584_1_alg».proof.Proof.Spec
import Idealize.ShloMosaic.Lib.Pipeline.Frame

noncomputable section

namespace Cert.RefRun

open Idealize.ShloMosaic Idealize.ShloMosaic.TcCoe Idealize.SL.Sem Idealize.ShloMosaic.StableHlo Cert.ReferenceIdeal Cert.ReferenceIdeal.Facts₀ Cert.ReferenceIdeal.Facts

local notation "𝔽" => Ideal

/-- A transport along an equation between one type and itself is the identity. -/
private theorem cast_self {α : Sort _} (h : α = α) (a : α) : cast h a = a := eq_of_heq (cast_heq h a)

/-! ## Stage D: the second matrix product; the edge lists and weights once more -/

attribute [local irreducible] Host.reduce Host.reduceAdd Host.gather Host.scatterAdd cmpf in
/-- %67 is the second matrix product. -/
theorem D_v67 (W : Valuation τ sig (Elt 𝔽)) :
    after (sD (F := 𝔽)) W (main_v67 : DevRef τ sig) = Cert.Spec.dot2 (W (main_v66 : DevRef τ sig)) (W (main_arg4 : DevRef τ sig)) := by
  after_results_simp
  results_rw
  rfl

attribute [local irreducible] Host.reduce Host.reduceAdd Host.gather Host.scatterAdd cmpf in
/-- %71 is the sources of all edges, computed again. -/
theorem D_v71 (W : Valuation τ sig (Elt 𝔽)) :
    after (sD (F := 𝔽)) W (main_v71 : DevRef τ sig) = Cert.Spec.srcs (W (main_arg1 : DevRef τ sig)) := by
  after_results_simp
  results_rw
  rfl

attribute [local irreducible] Host.reduce Host.reduceAdd Host.gather Host.scatterAdd cmpf in
/-- %74 is the targets of all edges, computed again. -/
theorem D_v74 (W : Valuation τ sig (Elt 𝔽)) :
    after (sD (F := 𝔽)) W (main_v74 : DevRef τ sig) = Cert.Spec.tgts (W (main_arg1 : DevRef τ sig)) := by
  after_results_simp
  results_rw
  rfl

attribute [local irreducible] Host.reduce Host.reduceAdd Host.gather Host.scatterAdd cmpf in
/-- %98 is the edge weights as a column, computed again. -/
theorem D_v98 (W : Valuation τ sig (Elt 𝔽)) :
    after (sD (F := 𝔽)) W (main_v98 : DevRef τ sig) = Cert.Spec.normCol (W (main_arg1 : DevRef τ sig)) := by
  after_results_simp
  results_rw
  simp only [TRef.toBuf, TRef.ofBuf, cast_self]
  rfl

theorem sD_writes : (sD (F := 𝔽)).Forall fun op => op.writes ⊆ (sD_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- A buffer stage D does not write keeps its contents through it. -/
theorem D_keep (W : Valuation τ sig (Elt 𝔽)) (r : Ref sig .tc) (h : r ∉ sD_W) :
    after (sD (F := 𝔽)) W (Proc.devRef .tc r) = W (Proc.devRef .tc r) :=
  after_of_writes_sub sD W sD_writes h

end Cert.RefRun

end
-- ==== Proof.RefValE.lean ====
/-
  Stage E of the reference's run, over any contents W of the buffers before it (operations %c_21 … %114): the second
  aggregation — the rows of the second product gathered at the edges' sources, scaled by the edge weights, scatter-added
  at the targets into zeros —, the bias and the row-wise log-softmax, as the specification's terms of the buffers the
  stage reads; a buffer the stage does not write keeps its contents.
-/
import proofs.«141803_j65068754534584_1_alg».proof.Proof.RefValOps
import proofs.«141803_j65068754534584_1_alg».proof.Proof.RefValTac
import proofs.«141803_j65068754534584_1_alg».proof.Proof.Spec
import Idealize.ShloMosaic.Lib.Pipeline.Frame

noncomputable section

namespace Cert.RefRun

open Idealize.ShloMosaic Idealize.ShloMosaic.TcCoe Idealize.SL.Sem Idealize.ShloMosaic.StableHlo Cert.ReferenceIdeal Cert.ReferenceIdeal.Facts₀ Cert.ReferenceIdeal.Facts

local notation "𝔽" => Ideal

/-- A cast along an equation of a type with itself is the identity: as a proposition, not by unfolding. -/
private theorem cast_self {α : Sort _} (h : α = α) (a : α) : cast h a = a := eq_of_heq (cast_heq h a)

/-! ## Stage E: the second aggregation, the bias, the row-wise log-softmax -/

/-- The aggregation over 40 columns from given edge lists and edge weights. -/
def agg40' (s t : IVec S3300000 32) (nc : FVec 𝔽 S3300000x1 .f32) (xw : FVec 𝔽 S100000x40 .f32) : FVec 𝔽 S100000x40 .f32 :=
  Host.scatterAdd (F := 𝔽) scatter_S100000x40_S3300000x1_S3300000x40_1_0_0_1
    (broadcastInDim S100000x40 ![] bcast_S_S100000x40 (constant (F := 𝔽) S_ .f32 0x00000000#32))
    (Cert.Spec.col t)
    (mulf (broadcastInDim S3300000x40 ![0, 1] bcast_S3300000x1_S3300000x40_0_1 nc)
          (Host.gather gather_S100000x40_S3300000x1_S3300000x40_1_0_n_n_0_1_140 xw (Cert.Spec.wrap s)))

/-- The specification's aggregation is this one at the edge list's own sources, targets and weights. -/
theorem agg40_eq (ei : IVec S2x3200000 32) (xw : FVec 𝔽 S100000x40 .f32) :
    Cert.Spec.agg40 ei xw = agg40' (Cert.Spec.srcs ei) (Cert.Spec.tgts ei) (Cert.Spec.normCol ei) xw := rfl

attribute [local irreducible] Host.reduce Host.reduceAdd Host.gather Host.scatterAdd cmpf in
/-- %114 is the row-wise log-softmax of the biased aggregation of %67 along the edges %71 → %74 with the weights %98. -/
theorem E_v114 (W : Valuation τ sig (Elt 𝔽)) :
    after (sE (F := 𝔽)) W (main_v114 : DevRef τ sig) = Cert.Spec.biasLogSoftmaxRow (agg40' (W (main_v71 : DevRef τ sig)) (W (main_v74 : DevRef τ sig)) (W (main_v98 : DevRef τ sig)) (W (main_v67 : DevRef τ sig))) (Cert.Spec.row40 (W (main_arg5 : DevRef τ sig))) := by
  after_results_simp
  results_rw
  simp only [TRef.toBuf, TRef.ofBuf, cast_self]
  rfl

theorem sE_writes : (sE (F := 𝔽)).Forall fun op => op.writes ⊆ (sE_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- A buffer stage E does not write keeps its contents through it. -/
theorem E_keep (W : Valuation τ sig (Elt 𝔽)) (r : Ref sig .tc) (h : r ∉ sE_W) :
    after (sE (F := 𝔽)) W (Proc.devRef .tc r) = W (Proc.devRef .tc r) :=
  after_of_writes_sub sE W sE_writes h

end Cert.RefRun

end
-- ==== Proof.RefRun.lean ====
/-
  The reference program's run: on every device, from any memory with zero counters, every weakly fair execution of
  @main terminates with the result buffer at the specification's term of the eight argument arrays and the arguments
  unchanged. @main is the straight line of its 182 host operations, so every buffer ends at the operations' fold over
  the launch contents; the fold is cut into five stages — the first matrix product with the edge lists and edge weights,
  the first aggregation with its bias and rectifier, the batch normalisation, the second matrix product with the edge
  lists and weights computed again, the second aggregation with its bias and log-softmax — each of which takes the
  buffers it reads to the specification's block of them, whatever the contents before it, and leaves the buffers it does
  not write alone. Chained, the result buffer holds the specification's `result`; no stage writes an argument.
-/
import proofs.«141803_j65068754534584_1_alg».proof.Proof.RefValMain
import proofs.«141803_j65068754534584_1_alg».proof.Proof.RefValA
import proofs.«141803_j65068754534584_1_alg».proof.Proof.RefValB
import proofs.«141803_j65068754534584_1_alg».proof.Proof.RefValC
import proofs.«141803_j65068754534584_1_alg».proof.Proof.RefValD
import proofs.«141803_j65068754534584_1_alg».proof.Proof.RefValE

noncomputable section

namespace Cert.RefRun

open Idealize.ShloMosaic Idealize.ShloMosaic.TcCoe Idealize.SL.Sem Cert.ReferenceIdeal

local notation "𝔽" => Ideal

/-- The 182 operations are the five stages in order. -/
theorem ops_stages : (ops (F := 𝔽)) = sA ++ sB ++ sC ++ sD ++ sE := rfl

/-- The fold over all operations is the stages' folds, one after the other. -/
theorem after_ops (V : Valuation τ sig (Elt 𝔽)) :
    StableHlo.after (ops (F := 𝔽)) V
      = StableHlo.after sE (StableHlo.after sD (StableHlo.after sC (StableHlo.after sB (StableHlo.after sA V)))) := by
  rw [ops_stages, StableHlo.after_append, StableHlo.after_append, StableHlo.after_append, StableHlo.after_append]

/-- The result buffer after all operations is the specification's result of the arguments' contents: stage E's block of
    what stage D left, which is stage D's blocks of what stage C left, and so on down to the launch contents; the
    arguments each stage reads pass through the stages before it unchanged. -/
theorem value (V : Valuation τ sig (Elt 𝔽)) :
    StableHlo.after (ops (F := 𝔽)) V (main_v114 : DevRef τ sig)
      = Cert.Spec.result (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  rw [after_ops]
  rw [E_v114, D_v67, D_v71, D_v74, D_v98, D_keep _ main_arg5 (by decide)]
  rw [C_v66, C_keep _ main_arg4 (by decide), C_keep _ main_arg1 (by decide), C_keep _ main_arg5 (by decide)]
  rw [B_v47, B_keep _ main_arg6 (by decide), B_keep _ main_arg7 (by decide), B_keep _ main_arg4 (by decide),
    B_keep _ main_arg1 (by decide), B_keep _ main_arg5 (by decide)]
  rw [A_v0, A_v4, A_v7, A_v31, A_keep _ main_arg3 (by decide), A_keep _ main_arg6 (by decide), A_keep _ main_arg7 (by decide),
    A_keep _ main_arg4 (by decide), A_keep _ main_arg1 (by decide), A_keep _ main_arg5 (by decide)]
  rfl

/-- A buffer no stage writes holds at the end what it held at launch. -/
theorem kept (V : Valuation τ sig (Elt 𝔽)) (r : Ref sig .tc) (hA : r ∉ sA_W) (hB : r ∉ sB_W) (hC : r ∉ sC_W)
    (hD : r ∉ sD_W) (hE : r ∉ sE_W) :
    StableHlo.after (ops (F := 𝔽)) V (Proc.devRef .tc r) = V (Proc.devRef .tc r) := by
  rw [after_ops, E_keep _ r hE, D_keep _ r hD, C_keep _ r hC, B_keep _ r hB, A_keep _ r hA]

/-- On every device, at the extended reals, from any memory with zero counters: every weakly fair execution of @main
    terminates with the result at the specification's term of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v114) = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v114).trans (value (StableHlo.launchContents m c)),
      (h c main_arg0).trans (kept (StableHlo.launchContents m c) main_arg0 (by decide) (by decide) (by decide) (by decide) (by decide)),
      (h c main_arg1).trans (kept (StableHlo.launchContents m c) main_arg1 (by decide) (by decide) (by decide) (by decide) (by decide)),
      (h c main_arg2).trans (kept (StableHlo.launchContents m c) main_arg2 (by decide) (by decide) (by decide) (by decide) (by decide)),
      (h c main_arg3).trans (kept (StableHlo.launchContents m c) main_arg3 (by decide) (by decide) (by decide) (by decide) (by decide)),
      (h c main_arg4).trans (kept (StableHlo.launchContents m c) main_arg4 (by decide) (by decide) (by decide) (by decide) (by decide)),
      (h c main_arg5).trans (kept (StableHlo.launchContents m c) main_arg5 (by decide) (by decide) (by decide) (by decide) (by decide)),
      (h c main_arg6).trans (kept (StableHlo.launchContents m c) main_arg6 (by decide) (by decide) (by decide) (by decide) (by decide)),
      (h c main_arg7).trans (kept (StableHlo.launchContents m c) main_arg7 (by decide) (by decide) (by decide) (by decide) (by decide))⟩)
    (StableHlo.run_seq scopedRefs_eq scopedSems_eq defs main (fun _ => ops) main_eq (fun _ => ops_sub) m ρ (fun _ => ops_fresh))

end Cert.RefRun

end
-- ==== Proof.lean ====
/-
  A two-layer graph convolution (x·W1 aggregated over the edges, bias, ReLU; batch normalisation; ·W2 aggregated again,
  bias, row-wise log-softmax) computed with five tiled kernels among host operations, against the same computation
  written with host operations only. Read over the extended reals the two programs are the same function of their
  arguments: each tiled kernel fills its output array, block by block, with exactly what the host operation it stands
  for computes (a matrix product row block by row block; an elementwise stage with its per-column parameters laid out
  as rows; a log-softmax that only reads its own row), and everything between the kernels is the same chain of host
  operations on both sides (the edge weights are computed once by one program and twice by the other).
  Proof/Spec.lean states that function; Proof/KRun.lean and Proof/RefRun.lean show each program's run ends with it in
  the result array; Proof/Assembly.lean derives the five claims.
-/
import proofs.«141803_j65068754534584_1_alg».proof.Proof.Assembly
import proofs.«141803_j65068754534584_1_alg».proof.Proof.KRun
import proofs.«141803_j65068754534584_1_alg».proof.Proof.RefRun

noncomputable section

namespace Cert.Proof

theorem claim : Cert.Claim := Cert.Assembly.claim_of Cert.KRun.run Cert.RefRun.run

end Cert.Proof

end
